-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x256x256 : Shape := ⟨4, ![32, 3, 256, 256]⟩
abbrev S8192x2000 : Shape := ⟨2, ![8192, 2000]⟩
abbrev S2000x256 : Shape := ⟨2, ![2000, 256]⟩
abbrev S_ : Shape := ⟨0, ![]⟩

class Facts : Prop where
  bcast_S_S32x3x256x256 : S_.BroadcastsInDim S32x3x256x256 (![] : Fin 0 → Fin S32x3x256x256.rank)
  reducesTo_S32x3x256x256_S_d0_1_2_3 : S32x3x256x256.ReducesTo [0, 1, 2, 3] S_
  h_S_ : 0 < S_.numel
  bcast_S_S8192x2000 : S_.BroadcastsInDim S8192x2000 (![] : Fin 0 → Fin S8192x2000.rank)
  reducesTo_S8192x2000_S_d0_1 : S8192x2000.ReducesTo [0, 1] S_
  bcast_S_S2000x256 : S_.BroadcastsInDim S2000x256 (![] : Fin 0 → Fin S2000x256.rank)
  reducesTo_S2000x256_S_d0_1 : S2000x256.ReducesTo [0, 1] S_

variable [Facts]

def fn_part1 {F : FTy → Type} [FloatOps F] (main_v13 : IVec S_ 1) (main_v16 : IVec S2000x256 1) : IVec S_ 1 :=
  let main_c_5 : IVec S_ 1 := constantI S_ 1 1#1
  let main_v17 : IVec S_ 1 := (fun x v => Host.reduce IntOp.andi x v reducesTo_S2000x256_S_d0_1 h_S_) main_v16 main_c_5
  let main_v18 : IVec S_ 1 := andi main_v13 main_v17
  main_v18

def fn {F : FTy → Type} [FloatOps F] (main_arg0 : FVec F S32x3x256x256 .f32) (main_arg1 : FVec F S32x3x256x256 .f32) (main_arg2 : FVec F S8192x2000 .f32) (main_arg3 : FVec F S2000x256 .f32) : IVec S_ 1 :=
  let main_v0 : FVec F S32x3x256x256 .f32 := Host.absf main_arg0
  let main_cst : FVec F S_ .f32 := constant S_ .f32 0x7F800000#32
  let main_v1 : FVec F S32x3x256x256 .f32 := broadcastInDim S32x3x256x256 ![] bcast_S_S32x3x256x256 main_cst
  let main_v2 : IVec S32x3x256x256 1 := cmpf .olt main_v0 main_v1
  let main_c : IVec S_ 1 := constantI S_ 1 1#1
  let main_v3 : IVec S_ 1 := (fun x v => Host.reduce IntOp.andi x v reducesTo_S32x3x256x256_S_d0_1_2_3 h_S_) main_v2 main_c
  let main_v4 : FVec F S32x3x256x256 .f32 := Host.absf main_arg1
  let main_cst_0 : FVec F S_ .f32 := constant S_ .f32 0x7F800000#32
  let main_v5 : FVec F S32x3x256x256 .f32 := broadcastInDim S32x3x256x256 ![] bcast_S_S32x3x256x256 main_cst_0
  let main_v6 : IVec S32x3x256x256 1 := cmpf .olt main_v4 main_v5
  let main_c_1 : IVec S_ 1 := constantI S_ 1 1#1
  let main_v7 : IVec S_ 1 := (fun x v => Host.reduce IntOp.andi x v reducesTo_S32x3x256x256_S_d0_1_2_3 h_S_) main_v6 main_c_1
  let main_v8 : IVec S_ 1 := andi main_v3 main_v7
  let main_v9 : FVec F S8192x2000 .f32 := Host.absf main_arg2
  let main_cst_2 : FVec F S_ .f32 := constant S_ .f32 0x7F800000#32
  let main_v10 : FVec F S8192x2000 .f32 := broadcastInDim S8192x2000 ![] bcast_S_S8192x2000 main_cst_2
  let main_v11 : IVec S8192x2000 1 := cmpf .olt main_v9 main_v10
  let main_c_3 : IVec S_ 1 := constantI S_ 1 1#1
  let main_v12 : IVec S_ 1 := (fun x v => Host.reduce IntOp.andi x v reducesTo_S8192x2000_S_d0_1 h_S_) main_v11 main_c_3
  let main_v13 : IVec S_ 1 := andi main_v8 main_v12
  let main_v14 : FVec F S2000x256 .f32 := Host.absf main_arg3
  let main_cst_4 : FVec F S_ .f32 := constant S_ .f32 0x7F800000#32
  let main_v15 : FVec F S2000x256 .f32 := broadcastInDim S2000x256 ![] bcast_S_S2000x256 main_cst_4
  let main_v16 : IVec S2000x256 1 := cmpf .olt main_v14 main_v15
  fn_part1 (F := F) main_v13 main_v16
-- ==== Kernel.lean ====
abbrev S32x3x256x256 : Shape := ⟨4, ![32, 3, 256, 256]⟩
abbrev S8192x2000 : Shape := ⟨2, ![8192, 2000]⟩
abbrev S2000x256 : Shape := ⟨2, ![2000, 256]⟩
abbrev S49152x128 : Shape := ⟨2, ![49152, 128]⟩
abbrev S2x1x1 : Shape := ⟨3, ![2, 1, 1]⟩
abbrev S8192x128 : Shape := ⟨2, ![8192, 128]⟩
abbrev S1x1x1 : Shape := ⟨3, ![1, 1, 1]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S_ : Shape := ⟨0, ![]⟩
abbrev S256x2000 : Shape := ⟨2, ![256, 2000]⟩
abbrev S256 : Shape := ⟨1, ![256]⟩
abbrev S256x1 : Shape := ⟨2, ![256, 1]⟩
abbrev S2000 : Shape := ⟨1, ![2000]⟩
abbrev S2000x1 : Shape := ⟨2, ![2000, 1]⟩
abbrev S2048x256 : Shape := ⟨2, ![2048, 256]⟩
abbrev S256x256 : Shape := ⟨2, ![256, 256]⟩
abbrev S256x2048 : Shape := ⟨2, ![256, 2048]⟩

abbrev nBuf : Space → Nat
  | .hbm => 33
  | .vmem => 17
  | .smem => 0
  | _ => 0

abbrev bufTy : (tb : Table) → Fin (tcTables nBuf tb) → BufTy
  | .hbm, ⟨0, _⟩ => ⟨S32x3x256x256, .f32⟩
  | .hbm, ⟨1, _⟩ => ⟨S32x3x256x256, .f32⟩
  | .hbm, ⟨2, _⟩ => ⟨S8192x2000, .f32⟩
  | .hbm, ⟨3, _⟩ => ⟨S2000x256, .f32⟩
  | .hbm, ⟨4, _⟩ => ⟨S49152x128, .f32⟩
  | .hbm, ⟨5, _⟩ => ⟨S49152x128, .f32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2000x256, .f32⟩
  | .hbm, ⟨18, _⟩ => ⟨S_, .f32⟩
  | .hbm, ⟨19, _⟩ => ⟨S2000, .f32⟩
  | .hbm, ⟨20, _⟩ => ⟨S2000x1, .f32⟩
  | .hbm, ⟨21, _⟩ => ⟨S2000x1, .f32⟩
  | .hbm, ⟨22, _⟩ => ⟨S_, .f32⟩
  | .hbm, ⟨23, _⟩ => ⟨S2000x1, .f32⟩
  | .hbm, ⟨24, _⟩ => ⟨S2000x1, .f32⟩
  | .hbm, ⟨25, _⟩ => ⟨S2000x256, .f32⟩
  | .hbm, ⟨26, _⟩ => ⟨S2000x256, .f32⟩
  | .hbm, ⟨27, _⟩ => ⟨S_, .i32⟩
  | .hbm, ⟨28, _⟩ => ⟨S_, .f32⟩
  | .hbm, ⟨29, _⟩ => ⟨S2048x256, .f32⟩
  | .hbm, ⟨30, _⟩ => ⟨S1x1, .f32⟩
  | .hbm, ⟨31, _⟩ => ⟨S_, .f32⟩
  | .hbm, ⟨32, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .vmem, ⟨7, _⟩ => ⟨S256x2000, .f32⟩
  | .local _ .vmem, ⟨8, _⟩ => ⟨S256x2000, .f32⟩
  | .local _ .vmem, ⟨9, _⟩ => ⟨S1x1x1, .f32⟩
  | .local _ .vmem, ⟨10, _⟩ => ⟨S1x1x1, .f32⟩
  | .local _ .vmem, ⟨11, _⟩ => ⟨S1x1, .f32⟩
  | .local _ .vmem, ⟨12, _⟩ => ⟨S256x256, .f32⟩
  | .local _ .vmem, ⟨13, _⟩ => ⟨S256x256, .f32⟩
  | .local _ .vmem, ⟨14, _⟩ => ⟨S2048x256, .f32⟩
  | .local _ .vmem, ⟨15, _⟩ => ⟨S1x1, .f32⟩
  | .local _ .vmem, ⟨16, _⟩ => ⟨S1x1, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x2000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S32x3x256x256_S49152x128 : S32x3x256x256.ShapeCasts S49152x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  inb_S256x2000_S256x2000_0_0 : ∀ a, (![0, 0] : Fin 2 → Nat) a + S256x2000.size a ≤ S256x2000.size a
  h_S256x2000 : 0 < S256x2000.numel
  reduces_S256x2000_S256 : S256x2000.Reduces [1] S256
  shapeCasts_S256_S256x1 : S256.ShapeCasts S256x1
  broadcasts_S256x1_S256x2000 : S256x1.Broadcasts S256x2000
  reduces_S256x1_S1 : S256x1.Reduces [0] S1
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  pads_S2000x256_S2048x256_0480_000 : S2000x256.Pads (![0, 0] : Fin 2 → Nat) ![48, 0] ![0, 0] S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  iota_S256x2048_d0_w32 : S256x2048.Iotas .tc 32 [0]
  iota_S256x2048_d1_w32 : S256x2048.Iotas .tc 32 [1]
  reduces_S256x2048_S256 : S256x2048.Reduces [1] S256
  shapeCasts_S1x1_S_ : S1x1.ShapeCasts S_
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S49152x128.size a
  hwx0_0 : ∀ i : grid0.Coords, EltTy.bits .f32 = 32 ∨ (Rect.block (s := S49152x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S49152x128.size a
  hwx0_1 : ∀ i : grid0.Coords, EltTy.bits .f32 = 32 ∨ (Rect.block (s := S49152x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2000.size a ≤ S8192x2000.size a
  hwx1_0 : ∀ i : grid1.Coords, EltTy.bits .f32 = 32 ∨ (Rect.block (s := S8192x2000) S256x2000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1.size a ≤ S2x1x1.size a
  hwx1_1 : ∀ i : grid1.Coords, EltTy.bits .f32 = 32 ∨ (Rect.block (s := S2x1x1) S1x1x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S2048x256.size a
  hwx2_0 : ∀ i : grid2.Coords, EltTy.bits .f32 = 32 ∨ (Rect.block (s := S2048x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .f32 = 32 ∨ (Rect.block (s := S2048x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S256x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v14) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2048x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x3x256x256 : Shape := ⟨4, ![32, 3, 256, 256]⟩
abbrev S8192x2000 : Shape := ⟨2, ![8192, 2000]⟩
abbrev S2000x256 : Shape := ⟨2, ![2000, 256]⟩
abbrev S_ : Shape := ⟨0, ![]⟩
abbrev S8192 : Shape := ⟨1, ![8192]⟩
abbrev S8192x1 : Shape := ⟨2, ![8192, 1]⟩
abbrev S2000 : Shape := ⟨1, ![2000]⟩
abbrev S2000x1 : Shape := ⟨2, ![2000, 1]⟩
abbrev S256x2000 : Shape := ⟨2, ![256, 2000]⟩
abbrev S2000x2000 : Shape := ⟨2, ![2000, 2000]⟩

abbrev nBuf : Space → Nat
  | .hbm => 56
  | .vmem => 0
  | .smem => 0
  | _ => 0

abbrev bufTy : (tb : Table) → Fin (tcTables nBuf tb) → BufTy
  | .hbm, ⟨0, _⟩ => ⟨S32x3x256x256, .f32⟩
  | .hbm, ⟨1, _⟩ => ⟨S32x3x256x256, .f32⟩
  | .hbm, ⟨2, _⟩ => ⟨S8192x2000, .f32⟩
  | .hbm, ⟨3, _⟩ => ⟨S2000x256, .f32⟩
  | .hbm, ⟨4, _⟩ => ⟨S32x3x256x256, .f32⟩
  | .hbm, ⟨5, _⟩ => ⟨S32x3x256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x2000, .f32⟩
  | .hbm, ⟨17, _⟩ => ⟨S8192x2000, .f32⟩
  | .hbm, ⟨18, _⟩ => ⟨S8192x2000, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S8192x2000, .f32⟩
  | .hbm, ⟨24, _⟩ => ⟨S8192x2000, .f32⟩
  | .hbm, ⟨25, _⟩ => ⟨S8192x2000, .f32⟩
  | .hbm, ⟨26, _⟩ => ⟨S8192x2000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2000x256, .f32⟩
  | .hbm, ⟨33, _⟩ => ⟨S_, .f32⟩
  | .hbm, ⟨34, _⟩ => ⟨S2000, .f32⟩
  | .hbm, ⟨35, _⟩ => ⟨S2000x1, .f32⟩
  | .hbm, ⟨36, _⟩ => ⟨S2000x1, .f32⟩
  | .hbm, ⟨37, _⟩ => ⟨S_, .f32⟩
  | .hbm, ⟨38, _⟩ => ⟨S2000x1, .f32⟩
  | .hbm, ⟨39, _⟩ => ⟨S2000x1, .f32⟩
  | .hbm, ⟨40, _⟩ => ⟨S2000x256, .f32⟩
  | .hbm, ⟨41, _⟩ => ⟨S2000x256, .f32⟩
  | .hbm, ⟨42, _⟩ => ⟨S256x2000, .f32⟩
  | .hbm, ⟨43, _⟩ => ⟨S2000x2000, .f32⟩
  | .hbm, ⟨44, _⟩ => ⟨S2000x2000, .i32⟩
  | .hbm, ⟨45, _⟩ => ⟨S_, .i32⟩
  | .hbm, ⟨46, _⟩ => ⟨S2000x2000, .i32⟩
  | .hbm, ⟨47, _⟩ => ⟨S2000x2000, .i32⟩
  | .hbm, ⟨48, _⟩ => ⟨S2000x2000, .i32⟩
  | .hbm, ⟨49, _⟩ => ⟨S2000x2000, .i1⟩
  | .hbm, ⟨50, _⟩ => ⟨S_, .f32⟩
  | .hbm, ⟨51, _⟩ => ⟨S2000x2000, .f32⟩
  | .hbm, ⟨52, _⟩ => ⟨S2000x2000, .f32⟩
  | .hbm, ⟨53, _⟩ => ⟨S_, .f32⟩
  | .hbm, ⟨54, _⟩ => ⟨S_, .f32⟩
  | .hbm, ⟨55, _⟩ => ⟨S_, .f32⟩
  | _, _ => ⟨S32x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_cst : Ref sig .tc := ⟨.hbm, 50, rfl⟩
abbrev main_call2_v5 : Ref sig .tc := ⟨.hbm, 51, rfl⟩
abbrev main_v17 : Ref sig .tc := ⟨.hbm, 52, rfl⟩
abbrev main_cst_4 : Ref sig .tc := ⟨.hbm, 53, rfl⟩
abbrev main_v18 : Ref sig .tc := ⟨.hbm, 54, rfl⟩
abbrev main_v19 : Ref sig .tc := ⟨.hbm, 55, rfl⟩

abbrev nD : Nat := 1
abbrev τ : Topo := Topo.v7x

variable {F : FTy → Type} [FloatOps F]

class Facts₀ : Prop where
  reducesTo_S32x3x256x256_S_d0_1_2_3 : S32x3x256x256.ReducesTo [0, 1, 2, 3] S_
  h_S_ : 0 < S_.numel
  reducesTo_S8192x2000_S8192_d1 : S8192x2000.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2000_0_1 : S8192x1.BroadcastsInDim S8192x2000 (![0, 1] : Fin 2 → Fin S8192x2000.rank)
  reducesTo_S8192x2000_S_d0_1 : S8192x2000.ReducesTo [0, 1] S_
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  transposes_S2000x256_S256x2000_1_0 : S2000x256.Transposes [1, 0] S256x2000
  bcast_S_S2000x2000 : S_.BroadcastsInDim S2000x2000 (![] : Fin 0 → Fin S2000x2000.rank)
  reducesTo_S2000x2000_S_d0_1 : S2000x2000.ReducesTo [0, 1] S_
  dot_S2000x256_S256x2000_S2000x2000_1_0_0_1_n_n_wf : DotDims.WF S2000x256 S256x2000 S2000x2000 [1] [0] [0] [1] [] []

variable [Facts₀]

def dot_S2000x256_S256x2000_S2000x2000_1_0_0_1_n_n : DotDims S2000x256 S256x2000 S2000x2000 where
  lhsContracting := [1]
  rhsContracting := [0]
  lhsNonContracting := [0]
  rhsNonContracting := [1]
  lhsBatch := []
  rhsBatch := []
  wf := dot_S2000x256_S256x2000_S2000x2000_1_0_0_1_n_n_wf

class Facts : Prop extends Facts₀ where

variable [Facts]
-- ==== Proof.R0Runs.lean ====
/-
  The first pallas_call (the sum of squared differences), region 0 of the program: what its two control cases share.
  The body branches on the inner grid coordinate alone: at the first of a core's three steps it zeroes the 1x1
  accumulator, at every step it adds the block's sum to the accumulator and copies the accumulator into the
  output's staging buffer.  Stated here, at the contents `V` the region is entered with: each input window's
  block at a point; the branch condition in closed form over the six grid points; that no window is ever idle;
  the staging and scratch memrefs as the pipeline passes them; and the region invariant with the accumulator
  split off the other scoped buffers.
-/
import proofs.«122163_j54013508714894_2_alg».proof.Proof.Gen.KernelIdeal.Launch
import proofs.«122163_j54013508714894_2_alg».proof.Proof.Gen.KernelIdeal.Skeleton
import proofs.«122163_j54013508714894_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition, from the grid coordinates: the inner coordinate is zero. -/
abbrev cond0_0 (i : grid0.Coords) : Prop := (Scalar.cmpi .ne (Scalar.extui (Scalar.cmpi .eq (BitVec.ofNat 32 (i 1).val) 0#32)) 0#32) = 1#1
/-- It holds at the first of each core's three steps. -/
theorem hcond0_0 : ∀ t : Fin cfg0.N, cond0_0 (grid0.coords t) ↔ t.val % 3 = 0 :=
  (by decide +kernel : ∀ t : Fin grid0.N, cond0_0 (grid0.coords t) ↔ t.val % 3 = 0)

/-- No window is idle at any point: the body loads both inputs and stores the output at every step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated. -/
abbrev VO0_2 : View sig .tc .vmem S1x1x1 .f32 := (Memref.whole cc0_stg2_0 : Memref sig .tc .vmem S1x1x1 .f32).view
/-- Each window's current staging memref at point `t`, as the pipeline passes it, and its wholeness. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1x1 .f32 := Memref.whole cc0_scratch0
abbrev VS0_0 : View sig .tc .vmem S1x1 .f32 := scM0_0.view

/-- The other scoped buffers of the core (the other two calls' staging buffers and accumulators), unopened. -/
abbrev Rest0 (c : Dev nD) : sProp 𝕄 :=
  Pipeline.scopedRestBut (Ix := Unit) (Name := ℕ) (U := UR sig nD τ) (Lvl := ℕ) (Val := Elt F) spec0 c [cc0_scratch0]

/-- The class's region invariant with the accumulator owned as a memref at some contents, the other scoped buffers
    unopened, and the generator register at some state. -/
theorem PhiA0_eq (c : Dev nD) :
    (Pipeline.ΦA spec0 c : sProp 𝕄)
      = iprop(((∃ d, owns (c : Thread nD τ) scM0_0 fullShare d) ∗ Rest0 c) ∗ (∃ r, prngReg c r)) := by
  unfold Pipeline.ΦA
  rw [Pipeline.scopedRest_split_of_list spec0 c [cc0_scratch0] (by decide) (by decide)]
  simp only [scM0_0, owns_whole, bigSepL]
  rfl

end Cert.KernelIdeal.Hand

end
-- ==== Proof.R0RunA.lean ====
/-
  The sum-of-squared-differences body run whole in control case A (the inner grid coordinate is zero: the accumulator is zeroed first):
  on whole staging memrefs, the inputs at their contents, the output's at anything, the accumulator at anything,
  the body runs to the continuation with the inputs as they were and the output's buffer and the accumulator
  with the pieces its stores wrote; the pieces are the witness the symbolic run finds.
-/
import proofs.«122163_j54013508714894_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i)
    (x0 : Vec F S8192x128 .f32) (x1 : Vec F S8192x128 .f32) :
    Σ' (L2 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sse_kernel i arg2 harg2 arg3 harg3 arg4 harg4 arg5 harg5) K } := by
  refine ⟨?_, ?_, fun E K => ?run⟩
  case run =>
    simp only [cc0__sse_kernel_eq_skeleton]; unfold cc0__sse_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R0RunB.lean ====
/-
  The sum-of-squared-differences body run whole in control case B (the inner grid coordinate is not zero: the accumulator is carried):
  on whole staging memrefs, the inputs at their contents, the output's at anything, the accumulator at what the point before left,
  the body runs to the continuation with the inputs as they were and the output's buffer and the accumulator
  with the pieces its stores wrote; the pieces are the witness the symbolic run finds.
-/
import proofs.«122163_j54013508714894_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i)
    (x0 : Vec F S8192x128 .f32) (x1 : Vec F S8192x128 .f32) (xs0 : Vec F S1x1 .f32) :
    Σ' (L2 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sse_kernel i arg2 harg2 arg3 harg3 arg4 harg4 arg5 harg5) K } := by
  refine ⟨?_, ?_, fun E K => ?run⟩
  case run =>
    simp only [cc0__sse_kernel_eq_skeleton]; unfold cc0__sse_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R0Frame.lean ====
/-
  Region 0 (the sum of squared differences): what the output's staging buffer and the accumulator hold after
  each grid point, the region's proof data, and the body obligation.
  After a point of case A (first step of a core) both hold what that case's stores leave given the two input
  blocks; after a point of case B they hold what that case's stores leave given the blocks and the accumulator
  the point before left.  The region invariant carries the accumulator at those contents from point to point;
  the other scoped buffers and the generator register ride along untouched.
-/
import proofs.«122163_j54013508714894_2_alg».proof.Proof.R0RunA
import proofs.«122163_j54013508714894_2_alg».proof.Proof.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i)
    (x0 x1 : Vec F S8192x128 .f32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y

theorem scover0_A_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i)
    (x0 x1 : Vec F S8192x128 .f32) (y : S1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1.size (by sl_kernel_rfl) y

theorem cover0_B_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i)
    (x0 x1 : Vec F S8192x128 .f32) (xs0 : Vec F S1x1 .f32) (y : S1x1x1.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1x1x1.size (by sl_kernel_rfl) y

theorem scover0_B_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i)
    (x0 x1 : Vec F S8192x128 .f32) (xs0 : Vec F S1x1 .f32) (y : S1x1.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1x1.size (by sl_kernel_rfl) y

/-- What case A leaves in the output's staging buffer, and in the accumulator: its pieces read back. -/
def out0_A_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (x0 x1 : Vec F S8192x128 .f32) : Vec F S1x1x1 .f32 :=
  VO0_2.read (Elt F) (VO0_2.writes (Elt F) VO0_2.junk (kernelRun0_A c i arg2 harg2 arg3 harg3 arg4 harg4 arg5 harg5 hc0 x0 x1).1)
def sout0_A_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (x0 x1 : Vec F S8192x128 .f32) : Vec F S1x1 .f32 :=
  VS0_0.read (Elt F) (VS0_0.writes (Elt F) VS0_0.junk (kernelRun0_A c i arg2 harg2 arg3 harg3 arg4 harg4 arg5 harg5 hc0 x0 x1).2.1)
/-- The same for case B, from the accumulator the point before left. -/
def out0_B_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (x0 x1 : Vec F S8192x128 .f32) (xs0 : Vec F S1x1 .f32) : Vec F S1x1x1 .f32 :=
  VO0_2.read (Elt F) (VO0_2.writes (Elt F) VO0_2.junk (kernelRun0_B c i arg2 harg2 arg3 harg3 arg4 harg4 arg5 harg5 hc0 x0 x1 xs0).1)
def sout0_B_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (x0 x1 : Vec F S8192x128 .f32) (xs0 : Vec F S1x1 .f32) : Vec F S1x1 .f32 :=
  VS0_0.read (Elt F) (VS0_0.writes (Elt F) VS0_0.junk (kernelRun0_B c i arg2 harg2 arg3 harg3 arg4 harg4 arg5 harg5 hc0 x0 x1 xs0).2.1)

/-! ## The same at a grid point, on the memrefs and blocks the pipeline passes there -/

def outA0 (c : Dev nD) (t : Fin cfg0.N) (h0 : t.val % 3 = 0) : Vec F S1x1x1 .f32 :=
  out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)
def soutA0 (c : Dev nD) (t : Fin cfg0.N) (h0 : t.val % 3 = 0) : Vec F S1x1 .f32 :=
  sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)
def outB0 (c : Dev nD) (t : Fin cfg0.N) (h0 : ¬t.val % 3 = 0) (xs0 : Vec F S1x1 .f32) : Vec F S1x1x1 .f32 :=
  out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) xs0
def soutB0 (c : Dev nD) (t : Fin cfg0.N) (h0 : ¬t.val % 3 = 0) (xs0 : Vec F S1x1 .f32) : Vec F S1x1 .f32 :=
  sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) xs0

/-! ## What the output's buffer and the accumulator hold after each point -/

/-- After position `n`: (the output's staging buffer, the accumulator). -/
def outsAt0 (c : Dev nD) : (n : ℕ) → n < cfg0.N → Vec F S1x1x1 .f32 × Vec F S1x1 .f32
  | 0, hn => (outA0 V c ⟨0, hn⟩ (Nat.zero_mod _), soutA0 V c ⟨0, hn⟩ (Nat.zero_mod _))
  | n + 1, hn =>
    if h0 : (n + 1) % 3 = 0 then (outA0 V c ⟨n + 1, hn⟩ h0, soutA0 V c ⟨n + 1, hn⟩ h0)
    else (outB0 V c ⟨n + 1, hn⟩ h0 (outsAt0 c n (Nat.lt_of_succ_lt hn)).2, soutB0 V c ⟨n + 1, hn⟩ h0 (outsAt0 c n (Nat.lt_of_succ_lt hn)).2)

theorem outsAt0_A (c : Dev nD) (t : Fin cfg0.N) (h0 : t.val % 3 = 0) :
    outsAt0 V c t.val t.isLt = (outA0 V c t h0, soutA0 V c t h0) := by
  obtain ⟨n, hn⟩ := t
  cases n with
  | zero => rfl
  | succ n => exact dif_pos h0

theorem outsAt0_B (c : Dev nD) (t : Fin cfg0.N) (h0 : ¬t.val % 3 = 0) :
    outsAt0 V c t.val t.isLt
      = (outB0 V c t h0 (outsAt0 V c (t.val - 1) (Nat.lt_of_le_of_lt (Nat.sub_le _ _) t.isLt)).2,
         soutB0 V c t h0 (outsAt0 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region invariant -/

/-- Before position `n`: at the first point the class's invariant (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed form says which case the point is in;
    the invariant hands the body the accumulator (at anything at the very first point, else at what the point before
    left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 3 = 0
  · rw [outsAt0_A V c t h0]
    unfold outA0 soutA0 out0_A_2 sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B V c t h0]
    unfold outB0 soutB0 out0_B_2 sout0_B_0; (try dsimp only)
    have hz : t.val ≠ 0 := fun hz => h0 (by rw [hz])
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hN : cfg0.N = 6 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]
    · iexists _; iexact HS0
    iexact HR
  iexact Hg

end Cert.KernelIdeal.Hand

end
-- ==== Proof.R1Runs.lean ====
/-
  The second pallas_call (the entropy term), region 1 of the program: what its two control cases share.
  The body branches on the inner grid coordinate alone: at the first of a core's sixteen steps it zeroes the 1x1
  accumulator, at every step it adds the block's rows' terms to the accumulator and copies the accumulator into
  the output's staging buffer.  Stated at the contents `V` the region is entered with.
-/
import proofs.«122163_j54013508714894_2_alg».proof.Proof.Gen.KernelIdeal.Launch
import proofs.«122163_j54013508714894_2_alg».proof.Proof.Gen.KernelIdeal.Skeleton
import proofs.«122163_j54013508714894_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition, from the grid coordinates: the inner coordinate is zero. -/
abbrev cond1_0 (i : grid1.Coords) : Prop := (Scalar.cmpi .ne (Scalar.extui (Scalar.cmpi .eq (BitVec.ofNat 32 (i 1).val) 0#32)) 0#32) = 1#1
/-- It holds at the first of each core's sixteen steps. -/
theorem hcond1_0 : ∀ t : Fin cfg1.N, cond1_0 (grid1.coords t) ↔ t.val % 16 = 0 :=
  (by decide +kernel : ∀ t : Fin grid1.N, cond1_0 (grid1.coords t) ↔ t.val % 16 = 0)

theorem liveAt1_0 : ∀ t : Fin cfg1.N, cfg1.idle 0 (grid1.coords t) = false := by decide +kernel
theorem liveAt1_1 : ∀ t : Fin cfg1.N, cfg1.idle 1 (grid1.coords t) = false := by decide +kernel

abbrev VO1_1 : View sig .tc .vmem S1x1x1 .f32 := (Memref.whole cc1_stg1_0 : Memref sig .tc .vmem S1x1x1 .f32).view
abbrev ms1_0 (t : Fin cfg1.N) : Memref sig .tc .vmem S256x2000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1 .f32 := win1_1.stage (cfg1.slots t 1)
abbrev hs1_1 (t : Fin cfg1.N) : (ms1_1 t).IsWhole := hstage1_1 ((cfg1.slots t 1).cast nbuf1_1)
abbrev scM1_0 : Memref sig .tc .vmem S1x1 .f32 := Memref.whole cc1_scratch0
abbrev VS1_0 : View sig .tc .vmem S1x1 .f32 := scM1_0.view

abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1_0 fullShare d) ∗ Rest1 c) ∗ (∃ r, prngReg c r)) := by
  unfold Pipeline.ΦA
  rw [Pipeline.scopedRest_split_of_list spec1 c [cc1_scratch0] (by decide) (by decide)]
  simp only [scM1_0, owns_whole, bigSepL]
  rfl

end Cert.KernelIdeal.Hand

end
-- ==== Proof.R1RunA.lean ====
/-
  The entropy body run whole in control case A (the inner grid coordinate is zero: the accumulator is zeroed first):
  on whole staging memrefs, the input at its contents, the output's at anything, the accumulator at anything,
  the body runs to the continuation with the input as it was and the output's buffer and the accumulator with
  the pieces its stores wrote; the pieces are the witness the symbolic run finds.
-/
import proofs.«122163_j54013508714894_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i)
    (x0 : Vec F S256x2000 .f32) :
    Σ' (L1 : List (View.Piece (Elt F) S1x1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__entropy_kernel i arg2 harg2 arg3 harg3 arg4 harg4) K } := by
  refine ⟨?_, ?_, fun E K => ?run⟩
  case run =>
    simp only [cc1__entropy_kernel_eq_skeleton]; unfold cc1__entropy_kernel_skel
    unfold owns
    iintro ⟨⟨%f0, %hf0, H0⟩, ⟨%d1, %f1, -, H1⟩, ⟨%ds0, %fs0, -, HS0⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.R1RunB.lean ====
/-
  The entropy body run whole in control case B (the inner grid coordinate is not zero: the accumulator is carried):
  on whole staging memrefs, the input at its contents, the output's at anything, the accumulator at what the point before left,
  the body runs to the continuation with the input as it was and the output's buffer and the accumulator with
  the pieces its stores wrote; the pieces are the witness the symbolic run finds.
-/
import proofs.«122163_j54013508714894_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i)
    (x0 : Vec F S256x2000 .f32) (xs0 : Vec F S1x1 .f32) :
    Σ' (L1 : List (View.Piece (Elt F) S1x1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__entropy_kernel i arg2 harg2 arg3 harg3 arg4 harg4) K } := by
  refine ⟨?_, ?_, fun E K => ?run⟩
  case run =>
    simp only [cc1__entropy_kernel_eq_skeleton]; unfold cc1__entropy_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.R1Frame.lean ====
/-
  Region 1 (the entropy term): what the output's staging buffer and the accumulator hold after each grid point, the
  region's proof data, and the body obligation.
  After a point of case A both hold what that case's stores leave given the input blocks; after a point of case B
  they hold what that case's stores leave given the blocks and the accumulator the point before left.  The region
  invariant carries the accumulator at those contents from point to point; the other scoped buffers and the
  generator register ride along untouched.
-/
import proofs.«122163_j54013508714894_2_alg».proof.Proof.R1RunA
import proofs.«122163_j54013508714894_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover1_A_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i)
    (x0 : Vec F S256x2000 .f32) (y : S1x1x1.Idx) :
    ∃ pc ∈ (kernelRun1_A c i arg2 harg2 arg3 harg3 arg4 harg4 hc0 x0).1, y ∈ pc.1.set :=
  View.cover_of_tiledL (kernelRun1_A c i arg2 harg2 arg3 harg3 arg4 harg4 hc0 x0).1 S1x1x1.size (by sl_kernel_rfl) y

theorem scover1_A_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i)
    (x0 : Vec F S256x2000 .f32) (y : S1x1.Idx) :
    ∃ pc ∈ (kernelRun1_A c i arg2 harg2 arg3 harg3 arg4 harg4 hc0 x0).2.1, y ∈ pc.1.set :=
  View.cover_of_tiledL (kernelRun1_A c i arg2 harg2 arg3 harg3 arg4 harg4 hc0 x0).2.1 S1x1.size (by sl_kernel_rfl) y

theorem cover1_B_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i)
    (x0 : Vec F S256x2000 .f32) (xs0 : Vec F S1x1 .f32) (y : S1x1x1.Idx) :
    ∃ pc ∈ (kernelRun1_B c i arg2 harg2 arg3 harg3 arg4 harg4 hc0 x0 xs0).1, y ∈ pc.1.set :=
  View.cover_of_tiledL (kernelRun1_B c i arg2 harg2 arg3 harg3 arg4 harg4 hc0 x0 xs0).1 S1x1x1.size (by sl_kernel_rfl) y

theorem scover1_B_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i)
    (x0 : Vec F S256x2000 .f32) (xs0 : Vec F S1x1 .f32) (y : S1x1.Idx) :
    ∃ pc ∈ (kernelRun1_B c i arg2 harg2 arg3 harg3 arg4 harg4 hc0 x0 xs0).2.1, y ∈ pc.1.set :=
  View.cover_of_tiledL (kernelRun1_B c i arg2 harg2 arg3 harg3 arg4 harg4 hc0 x0 xs0).2.1 S1x1.size (by sl_kernel_rfl) y

/-- What case A leaves in the output's staging buffer, and in the accumulator: its pieces read back. -/
def out1_A_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i) (x0 : Vec F S256x2000 .f32) : Vec F S1x1x1 .f32 :=
  VO1_1.read (Elt F) (VO1_1.writes (Elt F) VO1_1.junk (kernelRun1_A c i arg2 harg2 arg3 harg3 arg4 harg4 hc0 x0).1)
def sout1_A_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i) (x0 : Vec F S256x2000 .f32) : Vec F S1x1 .f32 :=
  VS1_0.read (Elt F) (VS1_0.writes (Elt F) VS1_0.junk (kernelRun1_A c i arg2 harg2 arg3 harg3 arg4 harg4 hc0 x0).2.1)
/-- The same for case B, from the accumulator the point before left. -/
def out1_B_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i) (x0 : Vec F S256x2000 .f32) (xs0 : Vec F S1x1 .f32) : Vec F S1x1x1 .f32 :=
  VO1_1.read (Elt F) (VO1_1.writes (Elt F) VO1_1.junk (kernelRun1_B c i arg2 harg2 arg3 harg3 arg4 harg4 hc0 x0 xs0).1)
def sout1_B_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i) (x0 : Vec F S256x2000 .f32) (xs0 : Vec F S1x1 .f32) : Vec F S1x1 .f32 :=
  VS1_0.read (Elt F) (VS1_0.writes (Elt F) VS1_0.junk (kernelRun1_B c i arg2 harg2 arg3 harg3 arg4 harg4 hc0 x0 xs0).2.1)

/-! ## The same at a grid point, on the memrefs and blocks the pipeline passes there -/

def outA1 (c : Dev nD) (t : Fin cfg1.N) (h0 : t.val % 16 = 0) : Vec F S1x1x1 .f32 :=
  out1_A_1 c (grid1.coords t) (ms1_0 t) (hs1_0 t) (ms1_1 t) (hs1_1 t) scM1_0 (Memref.isWhole_whole _) ((hcond1_0 t).mpr h0) (iblk1 V c 0 t)
def soutA1 (c : Dev nD) (t : Fin cfg1.N) (h0 : t.val % 16 = 0) : Vec F S1x1 .f32 :=
  sout1_A_0 c (grid1.coords t) (ms1_0 t) (hs1_0 t) (ms1_1 t) (hs1_1 t) scM1_0 (Memref.isWhole_whole _) ((hcond1_0 t).mpr h0) (iblk1 V c 0 t)
def outB1 (c : Dev nD) (t : Fin cfg1.N) (h0 : ¬t.val % 16 = 0) (xs0 : Vec F S1x1 .f32) : Vec F S1x1x1 .f32 :=
  out1_B_1 c (grid1.coords t) (ms1_0 t) (hs1_0 t) (ms1_1 t) (hs1_1 t) scM1_0 (Memref.isWhole_whole _) (fun h => h0 ((hcond1_0 t).mp h)) (iblk1 V c 0 t) xs0
def soutB1 (c : Dev nD) (t : Fin cfg1.N) (h0 : ¬t.val % 16 = 0) (xs0 : Vec F S1x1 .f32) : Vec F S1x1 .f32 :=
  sout1_B_0 c (grid1.coords t) (ms1_0 t) (hs1_0 t) (ms1_1 t) (hs1_1 t) scM1_0 (Memref.isWhole_whole _) (fun h => h0 ((hcond1_0 t).mp h)) (iblk1 V c 0 t) xs0

/-! ## What the output's buffer and the accumulator hold after each point -/

/-- After position `n`: (the output's staging buffer, the accumulator). -/
def outsAt1 (c : Dev nD) : (n : ℕ) → n < cfg1.N → Vec F S1x1x1 .f32 × Vec F S1x1 .f32
  | 0, hn => (outA1 V c ⟨0, hn⟩ (Nat.zero_mod _), soutA1 V c ⟨0, hn⟩ (Nat.zero_mod _))
  | n + 1, hn =>
    if h0 : (n + 1) % 16 = 0 then (outA1 V c ⟨n + 1, hn⟩ h0, soutA1 V c ⟨n + 1, hn⟩ h0)
    else (outB1 V c ⟨n + 1, hn⟩ h0 (outsAt1 c n (Nat.lt_of_succ_lt hn)).2, soutB1 V c ⟨n + 1, hn⟩ h0 (outsAt1 c n (Nat.lt_of_succ_lt hn)).2)

theorem outsAt1_A (c : Dev nD) (t : Fin cfg1.N) (h0 : t.val % 16 = 0) :
    outsAt1 V c t.val t.isLt = (outA1 V c t h0, soutA1 V c t h0) := by
  obtain ⟨n, hn⟩ := t
  cases n with
  | zero => rfl
  | succ n => exact dif_pos h0

theorem outsAt1_B (c : Dev nD) (t : Fin cfg1.N) (h0 : ¬t.val % 16 = 0) :
    outsAt1 V c t.val t.isLt
      = (outB1 V c t h0 (outsAt1 V c (t.val - 1) (Nat.lt_of_le_of_lt (Nat.sub_le _ _) t.isLt)).2,
         soutB1 V c t h0 (outsAt1 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region invariant -/

def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · rw [outsAt1_A V c t h0]
    unfold outA1 soutA1 out1_A_1 sout1_A_0; (try dsimp only)
    by_cases hz : t.val = 0
    ·
      rw [PhiS1_castSucc V c t, PhiS1_zero V c _ _ hz, PhiA1_eq]
      iintro ⟨⟨⟨HS0, HR⟩, Hg⟩, Ho, ⟨%d0, H0⟩, ⟨%dO, HO⟩⟩
      iapply ((kernelRun1_A c (grid1.coords t) _ _ _ _ _ _ ((hcond1_0 t).mpr h0) (iblk1 V c 0 t)).2.2 Set.univ _)
      isplitl [H0]; · iexact H0
      isplitl [HO]; · iexists _; iexact HO
      isplitl [HS0]; · iexact HS0
      iintro ⟨H0, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _)
          iexact HR
        iexact Hg
      isplitl [Ho]; · iexact Ho
      isplitl [H0]; · iexact H0
      unfold owns; iexists _; isplitr
      swap; · iexact HO
      ipureintro; exact View.read_writes_of_cover _ _ _ _ _ (cover1_A_1 c _ _ _ _ _ _ _ _ _)
    ·
      rw [PhiS1_castSucc V c t, PhiS1_pos V c _ _ hz]
      iintro ⟨⟨⟨HS0, HR⟩, Hg⟩, Ho, ⟨%d0, H0⟩, ⟨%dO, HO⟩⟩
      iapply ((kernelRun1_A c (grid1.coords t) _ _ _ _ _ _ ((hcond1_0 t).mpr h0) (iblk1 V c 0 t)).2.2 Set.univ _)
      isplitl [H0]; · iexact H0
      isplitl [HO]; · iexists _; iexact HO
      isplitl [HS0]; · iexists _; iexact HS0
      iintro ⟨H0, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _)
          iexact HR
        iexact Hg
      isplitl [Ho]; · iexact Ho
      isplitl [H0]; · iexact H0
      unfold owns; iexists _; isplitr
      swap; · iexact HO
      ipureintro; exact View.read_writes_of_cover _ _ _ _ _ (cover1_A_1 c _ _ _ _ _ _ _ _ _)
  · rw [outsAt1_B V c t h0]
    unfold outB1 soutB1 out1_B_1 sout1_B_0; (try dsimp only)
    have hz : t.val ≠ 0 := fun hz => h0 (by rw [hz])
    ·
      rw [PhiS1_castSucc V c t, PhiS1_pos V c _ _ hz]
      iintro ⟨⟨⟨HS0, HR⟩, Hg⟩, Ho, ⟨%d0, H0⟩, ⟨%dO, HO⟩⟩
      iapply ((kernelRun1_B c (grid1.coords t) _ _ _ _ _ _ (fun h => h0 ((hcond1_0 t).mp h)) (iblk1 V c 0 t) _).2.2 Set.univ _)
      isplitl [H0]; · iexact H0
      isplitl [HO]; · iexists _; iexact HO
      isplitl [HS0]; · iexact HS0
      iintro ⟨H0, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _)
          iexact HR
        iexact Hg
      isplitl [Ho]; · iexact Ho
      isplitl [H0]; · iexact H0
      unfold owns; iexists _; isplitr
      swap; · iexact HO
      ipureintro; exact View.read_writes_of_cover _ _ _ _ _ (cover1_B_1 c _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, HR⟩, Hg⟩
  isplitl [HS0 HR]
  · isplitl [HS0]
    · iexists _; iexact HS0
    iexact HR
  iexact Hg

end Cert.KernelIdeal.Hand

end
-- ==== Proof.R2Runs.lean ====
/-
  The third pallas_call (the pairwise cosine sum), region 2 of the program: what its two control cases share.
  The body branches on the one grid coordinate: at the first of the eight steps it zeroes the 1x1 accumulator, at
  every step it adds the row block's strictly-upper-triangle Gram sum to the accumulator and copies the
  accumulator into the output's staging buffer.  Both input windows read the same array (the padded normalised
  memory): a 256-row block and the whole array.  Stated at the contents `V` the region is entered with.
-/
import proofs.«122163_j54013508714894_2_alg».proof.Proof.Gen.KernelIdeal.Launch
import proofs.«122163_j54013508714894_2_alg».proof.Proof.Gen.KernelIdeal.Skeleton
import proofs.«122163_j54013508714894_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-array window is fetched once; its buffer holds the array at every point all the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's one branch condition, from the grid coordinate: it is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 8 = 0 :=
  (by decide +kernel : ∀ t : Fin grid2.N, cond2_0 (grid2.coords t) ↔ t.val % 8 = 0)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

abbrev VO2_2 : View sig .tc .vmem S1x1 .f32 := (Memref.whole cc2_stg2_0 : Memref sig .tc .vmem S1x1 .f32).view
abbrev ms2_0 (t : Fin cfg2.N) : Memref sig .tc .vmem S256x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2_0 : Memref sig .tc .vmem S1x1 .f32 := Memref.whole cc2_scratch0
abbrev VS2_0 : View sig .tc .vmem S1x1 .f32 := scM2_0.view

abbrev Rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(((∃ d, owns (c : Thread nD τ) scM2_0 fullShare d) ∗ Rest2 c) ∗ (∃ r, prngReg c r)) := by
  unfold Pipeline.ΦA
  rw [Pipeline.scopedRest_split_of_list spec2 c [cc2_scratch0] (by decide) (by decide)]
  simp only [scM2_0, owns_whole, bigSepL]
  rfl

end Cert.KernelIdeal.Hand

end
-- ==== Proof.R2RunA.lean ====
/-
  The cosine body run whole in control case A (the grid coordinate is zero: the accumulator is zeroed first):
  on whole staging memrefs, the inputs at their contents, the output's at anything, the accumulator at anything,
  the body runs to the continuation with the inputs as they were and the output's buffer and the accumulator
  with the pieces its stores wrote; the pieces are the witness the symbolic run finds.
-/
import proofs.«122163_j54013508714894_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i)
    (x0 : Vec F S256x256 .f32) (x1 : Vec F S2048x256 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__cos_kernel i arg1 harg1 arg2 harg2 arg3 harg3 arg4 harg4) K } := by
  refine ⟨?_, ?_, fun E K => ?run⟩
  case run =>
    simp only [cc2__cos_kernel_eq_skeleton]; unfold cc2__cos_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.R2RunB.lean ====
/-
  The cosine body run whole in control case B (the grid coordinate is not zero: the accumulator is carried):
  on whole staging memrefs, the inputs at their contents, the output's at anything, the accumulator at what the point before left,
  the body runs to the continuation with the inputs as they were and the output's buffer and the accumulator
  with the pieces its stores wrote; the pieces are the witness the symbolic run finds.
-/
import proofs.«122163_j54013508714894_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i)
    (x0 : Vec F S256x256 .f32) (x1 : Vec F S2048x256 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__cos_kernel i arg1 harg1 arg2 harg2 arg3 harg3 arg4 harg4) K } := by
  refine ⟨?_, ?_, fun E K => ?run⟩
  case run =>
    simp only [cc2__cos_kernel_eq_skeleton]; unfold cc2__cos_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.R2Frame.lean ====
/-
  Region 2 (the pairwise cosine sum): what the output's staging buffer and the accumulator hold after each grid point, the
  region's proof data, and the body obligation.
  After a point of case A both hold what that case's stores leave given the input blocks; after a point of case B
  they hold what that case's stores leave given the blocks and the accumulator the point before left.  The region
  invariant carries the accumulator at those contents from point to point; the other scoped buffers and the
  generator register ride along untouched.
-/
import proofs.«122163_j54013508714894_2_alg».proof.Proof.R2RunA
import proofs.«122163_j54013508714894_2_alg».proof.Proof.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover2_A_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i)
    (x0 : Vec F S256x256 .f32) (x1 : Vec F S2048x256 .f32) (y : S1x1.Idx) :
    ∃ pc ∈ (kernelRun2_A c i arg1 harg1 arg2 harg2 arg3 harg3 arg4 harg4 hc0 x0 x1).1, y ∈ pc.1.set :=
  View.cover_of_tiledL (kernelRun2_A c i arg1 harg1 arg2 harg2 arg3 harg3 arg4 harg4 hc0 x0 x1).1 S1x1.size (by sl_kernel_rfl) y

theorem scover2_A_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i)
    (x0 : Vec F S256x256 .f32) (x1 : Vec F S2048x256 .f32) (y : S1x1.Idx) :
    ∃ pc ∈ (kernelRun2_A c i arg1 harg1 arg2 harg2 arg3 harg3 arg4 harg4 hc0 x0 x1).2.1, y ∈ pc.1.set :=
  View.cover_of_tiledL (kernelRun2_A c i arg1 harg1 arg2 harg2 arg3 harg3 arg4 harg4 hc0 x0 x1).2.1 S1x1.size (by sl_kernel_rfl) y

theorem cover2_B_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i)
    (x0 : Vec F S256x256 .f32) (x1 : Vec F S2048x256 .f32) (xs0 : Vec F S1x1 .f32) (y : S1x1.Idx) :
    ∃ pc ∈ (kernelRun2_B c i arg1 harg1 arg2 harg2 arg3 harg3 arg4 harg4 hc0 x0 x1 xs0).1, y ∈ pc.1.set :=
  View.cover_of_tiledL (kernelRun2_B c i arg1 harg1 arg2 harg2 arg3 harg3 arg4 harg4 hc0 x0 x1 xs0).1 S1x1.size (by sl_kernel_rfl) y

theorem scover2_B_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i)
    (x0 : Vec F S256x256 .f32) (x1 : Vec F S2048x256 .f32) (xs0 : Vec F S1x1 .f32) (y : S1x1.Idx) :
    ∃ pc ∈ (kernelRun2_B c i arg1 harg1 arg2 harg2 arg3 harg3 arg4 harg4 hc0 x0 x1 xs0).2.1, y ∈ pc.1.set :=
  View.cover_of_tiledL (kernelRun2_B c i arg1 harg1 arg2 harg2 arg3 harg3 arg4 harg4 hc0 x0 x1 xs0).2.1 S1x1.size (by sl_kernel_rfl) y

/-- What case A leaves in the output's staging buffer, and in the accumulator: its pieces read back. -/
def out2_A_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i) (x0 : Vec F S256x256 .f32) (x1 : Vec F S2048x256 .f32) : Vec F S1x1 .f32 :=
  VO2_2.read (Elt F) (VO2_2.writes (Elt F) VO2_2.junk (kernelRun2_A c i arg1 harg1 arg2 harg2 arg3 harg3 arg4 harg4 hc0 x0 x1).1)
def sout2_A_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i) (x0 : Vec F S256x256 .f32) (x1 : Vec F S2048x256 .f32) : Vec F S1x1 .f32 :=
  VS2_0.read (Elt F) (VS2_0.writes (Elt F) VS2_0.junk (kernelRun2_A c i arg1 harg1 arg2 harg2 arg3 harg3 arg4 harg4 hc0 x0 x1).2.1)
/-- The same for case B, from the accumulator the point before left. -/
def out2_B_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (x0 : Vec F S256x256 .f32) (x1 : Vec F S2048x256 .f32) (xs0 : Vec F S1x1 .f32) : Vec F S1x1 .f32 :=
  VO2_2.read (Elt F) (VO2_2.writes (Elt F) VO2_2.junk (kernelRun2_B c i arg1 harg1 arg2 harg2 arg3 harg3 arg4 harg4 hc0 x0 x1 xs0).1)
def sout2_B_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (x0 : Vec F S256x256 .f32) (x1 : Vec F S2048x256 .f32) (xs0 : Vec F S1x1 .f32) : Vec F S1x1 .f32 :=
  VS2_0.read (Elt F) (VS2_0.writes (Elt F) VS2_0.junk (kernelRun2_B c i arg1 harg1 arg2 harg2 arg3 harg3 arg4 harg4 hc0 x0 x1 xs0).2.1)

/-! ## The same at a grid point, on the memrefs and blocks the pipeline passes there -/

def outA2 (c : Dev nD) (t : Fin cfg2.N) (h0 : t.val % 8 = 0) : Vec F S1x1 .f32 :=
  out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)
def soutA2 (c : Dev nD) (t : Fin cfg2.N) (h0 : t.val % 8 = 0) : Vec F S1x1 .f32 :=
  sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)
def outB2 (c : Dev nD) (t : Fin cfg2.N) (h0 : ¬t.val % 8 = 0) (xs0 : Vec F S1x1 .f32) : Vec F S1x1 .f32 :=
  out2_B_2 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) xs0
def soutB2 (c : Dev nD) (t : Fin cfg2.N) (h0 : ¬t.val % 8 = 0) (xs0 : Vec F S1x1 .f32) : Vec F S1x1 .f32 :=
  sout2_B_0 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) xs0

/-! ## What the output's buffer and the accumulator hold after each point -/

/-- After position `n`: (the output's staging buffer, the accumulator). -/
def outsAt2 (c : Dev nD) : (n : ℕ) → n < cfg2.N → Vec F S1x1 .f32 × Vec F S1x1 .f32
  | 0, hn => (outA2 V c ⟨0, hn⟩ (Nat.zero_mod _), soutA2 V c ⟨0, hn⟩ (Nat.zero_mod _))
  | n + 1, hn =>
    if h0 : (n + 1) % 8 = 0 then (outA2 V c ⟨n + 1, hn⟩ h0, soutA2 V c ⟨n + 1, hn⟩ h0)
    else (outB2 V c ⟨n + 1, hn⟩ h0 (outsAt2 c n (Nat.lt_of_succ_lt hn)).2, soutB2 V c ⟨n + 1, hn⟩ h0 (outsAt2 c n (Nat.lt_of_succ_lt hn)).2)

theorem outsAt2_A (c : Dev nD) (t : Fin cfg2.N) (h0 : t.val % 8 = 0) :
    outsAt2 V c t.val t.isLt = (outA2 V c t h0, soutA2 V c t h0) := by
  obtain ⟨n, hn⟩ := t
  cases n with
  | zero => rfl
  | succ n => exact dif_pos h0

theorem outsAt2_B (c : Dev nD) (t : Fin cfg2.N) (h0 : ¬t.val % 8 = 0) :
    outsAt2 V c t.val t.isLt
      = (outB2 V c t h0 (outsAt2 V c (t.val - 1) (Nat.lt_of_le_of_lt (Nat.sub_le _ _) t.isLt)).2,
         soutB2 V c t h0 (outsAt2 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region invariant -/

def PhiS2 (c : Dev nD) : (n : ℕ) → n ≤ cfg2.N → sProp 𝕄
  | 0, _ => Pipeline.ΦA spec2 c
  | n + 1, hn => iprop((owns (c : Thread nD τ) scM2_0 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2_0 fullShare ((outsAt2 V c n hn).2) ∗ Rest2 c) ∗ (∃ r, prngReg c r)) := rfl

theorem PhiS2_pos (c : Dev nD) (n : ℕ) (h : n ≤ cfg2.N) (hz : n ≠ 0) :
    PhiS2 V c n h = iprop((owns (c : Thread nD τ) scM2_0 fullShare ((outsAt2 V c (n - 1) (by omega)).2) ∗ Rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · rw [outsAt2_A V c t h0]
    unfold outA2 soutA2 out2_A_2 sout2_A_0; (try dsimp only)
    by_cases hz : t.val = 0
    ·
      rw [PhiS2_castSucc V c t, PhiS2_zero V c _ _ hz, PhiA2_eq]
      iintro ⟨⟨⟨HS0, HR⟩, Hg⟩, Ho, ⟨%d0, H0⟩, ⟨%d1, H1⟩, ⟨%dO, HO⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [HO]; · iexists _; iexact HO
      isplitl [HS0]; · iexact HS0
      iintro ⟨H0, H1, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact HO
      ipureintro; exact View.read_writes_of_cover _ _ _ _ _ (cover2_A_2 c _ _ _ _ _ _ _ _ _ _ _ _)
    ·
      rw [PhiS2_castSucc V c t, PhiS2_pos V c _ _ hz]
      iintro ⟨⟨⟨HS0, HR⟩, Hg⟩, Ho, ⟨%d0, H0⟩, ⟨%d1, H1⟩, ⟨%dO, HO⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [HO]; · iexists _; iexact HO
      isplitl [HS0]; · iexists _; iexact HS0
      iintro ⟨H0, H1, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact HO
      ipureintro; exact View.read_writes_of_cover _ _ _ _ _ (cover2_A_2 c _ _ _ _ _ _ _ _ _ _ _ _)
  · rw [outsAt2_B V c t h0]
    unfold outB2 soutB2 out2_B_2 sout2_B_0; (try dsimp only)
    have hz : t.val ≠ 0 := fun hz => h0 (by rw [hz])
    ·
      rw [PhiS2_castSucc V c t, PhiS2_pos V c _ _ hz]
      iintro ⟨⟨⟨HS0, HR⟩, Hg⟩, Ho, ⟨%d0, H0⟩, ⟨%d1, H1⟩, ⟨%dO, HO⟩⟩
      iapply ((kernelRun2_B c (grid2.coords t) _ _ _ _ _ _ _ _ (fun h => h0 ((hcond2_0 t).mp h)) (iblk2 V c 0 t) (iblk2 V c 1 t) _).2.2 Set.univ _)
      isplitl [H0]; · iexact H0
      isplitl [H1]; · iexact H1
      isplitl [HO]; · iexists _; iexact HO
      isplitl [HS0]; · iexact HS0
      iintro ⟨H0, H1, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _)
          iexact HR
        iexact Hg
      isplitl [Ho]; · iexact Ho
      isplitl [H0]; · iexact H0
      isplitl [H1]; · iexact H1
      unfold owns; iexists _; isplitr
      swap; · iexact HO
      ipureintro; exact View.read_writes_of_cover _ _ _ _ _ (cover2_B_2 c _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have hN : cfg2.N = 8 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HR⟩, Hg⟩
  isplitl [HS0 HR]
  · isplitl [HS0]
    · iexists _; iexact HS0
    iexact HR
  iexact Hg

end Cert.KernelIdeal.Hand

end
-- ==== Proof.R2Entry.lean ====
/-
  Region 2's arrays at the two ends.  Its two input windows read ONE array (the padded normalised memory); the third
  window is the output.  At entry the buffer behind the shared array, held whole at the full share, is dealt to the
  two windows in halves; at exit the halves are joined again, and the output array is held at what the write-back left.
-/
import proofs.«122163_j54013508714894_2_alg».proof.Proof.R2Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY: the two distinct buffers behind region 2's arrays, at the entry contents, make the proof data's arrays. -/
theorem entry2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  unfold Pipeline.arrBufs Dat.arrays
  rw [bigSep_eq_bigSepL_of_eq [main_v14, main_v15] (by decide) (by decide), bigSep_W2]
  simp only [bigSepL, View.set_whole]
  rw [show (dat2 V c).share 0 = fullShare.left from rfl, show (dat2 V c).share 1 = fullShare.right from rfl,
    show (dat2 V c).share 2 = fullShare from rfl]
  show (iprop(_ ∗ _) : sProp 𝕄) ⊢ _
  iintro ⟨Ha, Hb⟩
  ihave Hs := (pointsTo_share (PosShare.mem_left_op_right fullShare)).1 $$ Ha
  icases Hs with ⟨Hl, Hr⟩
  isplitl [Hl]; · iexact Hl
  isplitl [Hr]; · iexact Hr
  iexact Hb

/-- EXIT: the proof data's arrays at their final contents make the two buffers at any contents `V'` that hold the
    output array at what the write-back left and agree with the entry contents on the shared input array. -/
theorem exit2 (c : Dev nD) (V' : (b : Ref sig .tc) → Buf (Elt F) ((c : Thread nD τ).loc b))
    (h15 : V' main_v15 = (dat2 V c).arrAt 2 cfg2.N) (h14 : V' main_v14 = V c main_v14) :
    (dat2 V c).arrays ((dat2 V c).arrAt · cfg2.N)
      ⊢ (Pipeline.arrBufs (Ix := Unit) (Name := ℕ) (U := UR sig nD τ) (Lvl := ℕ) spec2 c V' : sProp 𝕄) := by
  unfold Pipeline.arrBufs Dat.arrays
  rw [bigSep_eq_bigSepL_of_eq [main_v14, main_v15] (by decide) (by decide), bigSep_W2]
  simp only [bigSepL, View.set_whole]
  rw [show (dat2 V c).share 0 = fullShare.left from rfl, show (dat2 V c).share 1 = fullShare.right from rfl,
    show (dat2 V c).share 2 = fullShare from rfl, h15, h14]
  try dsimp only
  rw [(dat2 V c).arrAt_in 0 rfl, (dat2 V c).arrAt_in 1 rfl]
  show _ ⊢ (iprop(_ ∗ _) : sProp 𝕄)
  iintro ⟨Hl, Hr, Hb⟩
  isplitl [Hl Hr]
  · iapply (pointsTo_share (PosShare.mem_left_op_right fullShare)).2
    isplitl [Hl]; · iexact Hl
    iexact Hr
  iexact Hb

end Cert.KernelIdeal.Hand

end
-- ==== Proof.Run.lean ====
/-
  The whole program as a run of ten segments — seven stretches of host operations and the three pallas_calls —
  and what every unscoped buffer holds when it returns.
  The contents at each segment boundary are a fold from the launch memory: a host stretch applies its operations;
  a region leaves its output array at what its write-backs fold to and every other buffer as it found it.  Each
  region is a segment over the thread state "every unscoped buffer at the boundary's contents, the generator
  register at some state, nothing owed", built from that region's proof data and body obligation.  The run then
  says: every weakly fair execution terminates, nothing faulting, with every unscoped buffer at the last
  boundary's contents.
-/
import proofs.«122163_j54013508714894_2_alg».proof.Proof.R0Frame
import proofs.«122163_j54013508714894_2_alg».proof.Proof.R1Frame
import proofs.«122163_j54013508714894_2_alg».proof.Proof.R2Entry
import proofs.«122163_j54013508714894_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

abbrev W0 : Dev nD → Valuation τ sig (Elt F) := fun c b => m (c, b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its arrays at what the pipeline leaves (the inputs as entered, the output's write-backs
    folded), every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- At region 1's exit: its arrays at what the pipeline leaves (the inputs as entered, the output's write-backs
    folded), every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev E8 : (c : Dev nD) → (b : Ref sig .tc) → Buf (Elt F) ((c : Thread nD τ).loc b) := fun c b => W8 m c b
/-- At region 2's exit: its output array at what the one write-back leaves, every other buffer as entered (both
    input windows read the same array, which no write-back touches). -/
def W9 (c : Dev nD) : Valuation τ sig (Elt F) :=
  Function.update (W8 m c) (Proc.devRef .tc main_v15) ((dat2 (E8 m) c).arrAt 2 cfg2.N)
theorem W9_v15 (c : Dev nD) : W9 m c (Proc.devRef .tc main_v15) = (dat2 (E8 m) c).arrAt 2 cfg2.N := by
  unfold W9; exact Function.update_self _ _ _
theorem W9_of_ne (c : Dev nD) (b : Ref sig .tc) (hb : b ≠ main_v15) : W9 m c (Proc.devRef .tc b) = W8 m c (Proc.devRef .tc b) := by
  unfold W9; exact Function.update_of_ne (StableHlo.devRef_ne_of_ne hb) _ _
abbrev W10 : Dev nD → Valuation τ sig (Elt F) := fun c => StableHlo.after hostOps3 (W9 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`.  Its arrays are
    split out of the unscoped buffers and put back at the exit contents; the generator register goes into the
    region invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are
    split out of the unscoped buffers and put back at the exit contents; the generator register goes into the
    region invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W8`, left at `W9`.  The two input
    windows read one array: its buffer's full share is dealt to them in halves at entry and joined again at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (E8 m c)
  hentry c := by
    rw [Pipeline.ownSems0_none]
    have hsplit : (unscopedBufs c (E8 m c) : sProp 𝕄)
        ⊢ iprop((pdats m 2 c).arrays ((pdats m 2 c).arrAt · 0) ∗ Pipeline.unscopedRest (Ix := Unit) (Name := ℕ) (U := UR sig nD τ) (Lvl := ℕ) spec2 c (E8 m c)) := by
      rw [Pipeline.PerCore.unscopedBufs_split₀ (fun _ : Dev nD => cfgs) (2 : Fin 3) c winFacts₀2.arr_unscoped (E8 m c)]
      exact sep_mono (entry2 (E8 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (E8 m) c)
    unfold Pipeline.ΦA
    iintro ⟨Hp, -, Hr⟩
    isplitl [Hr]; · iexact Hr
    iexact Hp
  hout c := by
    rw [Pipeline.ownSems0_none]
    refine (hout2 (E8 m) c).trans ?_
    unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (E8 m c))
        ⊢ (unscopedBufs c (fun b => W9 m c b) : sProp 𝕄) := by
      rw [Pipeline.PerCore.unscopedBufs_split₀ (fun _ : Dev nD => cfgs) (2 : Fin 3) c winFacts₀2.arr_unscoped (fun b => W9 m c b)]
      refine sep_mono (exit2 (E8 m) c (fun b => W9 m c b) (W9_v15 m c) (W9_of_ne m c main_v14 (by decide))) (Entails.of_eq ?_)
      unfold Pipeline.unscopedRest
      exact bigSep_congr fun b hb => by
        show (((c : Thread nD τ).loc b) ↦{fullShare} W8 m c (Proc.devRef .tc b) : sProp 𝕄) = (((c : Thread nD τ).loc b) ↦{fullShare} W9 m c (Proc.devRef .tc b))
        rw [W9_of_ne m c b (fun e => (Finset.mem_sdiff.mp hb).2 (Finset.mem_image.mpr ⟨2, Finset.mem_univ _, e.symm⟩))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .region (reg2 m),
    .host (hseg hostOps3 hostOps3_sub hostOps3_fresh (W9 m)) ]

theorem main_run (c : Dev nD) : main (F := F) c = Pipeline.Seg.run (segs m) := by
  rw [main_chain c, Pipeline.Seg.run_eq_chain]; rfl

/-- The last thread state without the `owes`. -/
abbrev Tₙ (c : Dev nD) : sProp 𝕄 := iprop(StableHlo.held (c : Thread nD τ) (Pipeline.ucRefs τ sig) (W10 m c) ∗ ∃ r, prngReg c r)

set_option backward.isDefEq.respectTransparency.types false in
/-- THE RUN: from any memory with zero counters every weakly fair execution of @main terminates, nothing faulting,
    and every unscoped buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W10 m c) ∗ ((∃ r, prngReg c r) ∗ ∃ W, owes (c : Thread nD τ) (0 : CellTallies nD τ sig Unit) W))
          ⊢ (iprop((StableHlo.held (c : Thread nD τ) (Pipeline.ucRefs τ sig) (W10 m c) ∗ ∃ r, prngReg c r) ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.RunArgs.lean ====
/-
  The argument arrays at the last segment boundary are the launch memory: no host stretch writes an argument, and a
  region changes only its output array (an argument read through an input window is handed back as it was).
-/
import proofs.«122163_j54013508714894_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer that no stretch writes and that is none of the regions' arrays (or is handed back by region 1 as it
    was: `h4`) reaches the end as launched. -/
theorem W10_of (c : Dev nD) (r : Ref sig .tc) (h3 : r ∉ hostOps3_W) (h15 : r ≠ main_v15) (h23 : r ∉ hostOps2_3_W)
    (h22 : r ∉ hostOps2_2_W) (h21 : r ∉ hostOps2_1_W) (h2 : r ∉ hostOps2_W)
    (h4 : W4 m c (Proc.devRef .tc r) = W3 m c (Proc.devRef .tc r)) (h1 : r ∉ hostOps1_W)
    (hr0 : ∀ w, Pipeline.arrRef spec0 w ≠ r) (h0 : r ∉ hostOps0_W) :
    W10 m c (Proc.devRef .tc r) = m ((c : Thread nD τ).loc r) :=
  calc W10 m c (Proc.devRef .tc r)
    _ = W9 m c (Proc.devRef .tc r) := StableHlo.after_of_writes_sub hostOps3 _ hostOps3_writes h3
    _ = W8 m c (Proc.devRef .tc r) := by
          unfold W9; exact Function.update_of_ne (StableHlo.devRef_ne_of_ne h15) _ _
    _ = W7 m c (Proc.devRef .tc r) := StableHlo.after_of_writes_sub hostOps2_3 _ hostOps2_3_writes h23
    _ = W6 m c (Proc.devRef .tc r) := StableHlo.after_of_writes_sub hostOps2_2 _ hostOps2_2_writes h22
    _ = W5 m c (Proc.devRef .tc r) := StableHlo.after_of_writes_sub hostOps2_1 _ hostOps2_1_writes h21
    _ = W4 m c (Proc.devRef .tc r) := StableHlo.after_of_writes_sub hostOps2 _ hostOps2_writes h2
    _ = W3 m c (Proc.devRef .tc r) := h4
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

theorem W10_main_arg0 (c : Dev nD) : W10 m c (Proc.devRef .tc main_arg0) = m ((c : Thread nD τ).loc main_arg0) :=
  W10_of m c main_arg0 (by decide) (by decide) (by decide) (by decide) (by decide) (by decide) (W4_of_ne m c main_arg0 (by decide)) (by decide) (by decide) (by decide)
theorem W10_main_arg1 (c : Dev nD) : W10 m c (Proc.devRef .tc main_arg1) = m ((c : Thread nD τ).loc main_arg1) :=
  W10_of m c main_arg1 (by decide) (by decide) (by decide) (by decide) (by decide) (by decide) (W4_of_ne m c main_arg1 (by decide)) (by decide) (by decide) (by decide)
/-- The attention matrix is region 1's input array: the region hands it back as it found it. -/
theorem W10_main_arg2 (c : Dev nD) : W10 m c (Proc.devRef .tc main_arg2) = m ((c : Thread nD τ).loc main_arg2) :=
  W10_of m c main_arg2 (by decide) (by decide) (by decide) (by decide) (by decide) (by decide)
    ((W4_arr m c 0).trans (((dat1 (E3 m) c).arrAt_in 0 rfl _).trans (A_eq1 (E3 m) c 0))) (by decide) (by decide) (by decide)
theorem W10_main_arg3 (c : Dev nD) : W10 m c (Proc.devRef .tc main_arg3) = m ((c : Thread nD τ).loc main_arg3) :=
  W10_of m c main_arg3 (by decide) (by decide) (by decide) (by decide) (by decide) (by decide) (W4_of_ne m c main_arg3 (by decide)) (by decide) (by decide) (by decide)

/-- The frame claim's post from the run: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c)⟩) (run_all m ρ)

end Cert.KernelIdeal.Hand

end
-- ==== Proof.BR0Runs.lean ====
/-
  (For the word-level program.  Nothing below depends on what a float value is: every statement holds at any
  float instance.)
  The first pallas_call (the sum of squared differences), region 0 of the program: what its two control cases share.
  The body branches on the inner grid coordinate alone: at the first of a core's three steps it zeroes the 1x1
  accumulator, at every step it adds the block's sum to the accumulator and copies the accumulator into the
  output's staging buffer.  Stated here, at the contents `V` the region is entered with: each input window's
  block at a point; the branch condition in closed form over the six grid points; that no window is ever idle;
  the staging and scratch memrefs as the pipeline passes them; and the region invariant with the accumulator
  split off the other scoped buffers.
-/
import proofs.«122163_j54013508714894_2_alg».proof.Proof.Gen.Kernel.Launch
import proofs.«122163_j54013508714894_2_alg».proof.Proof.Gen.Kernel.Skeleton
import proofs.«122163_j54013508714894_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition, from the grid coordinates: the inner coordinate is zero. -/
abbrev cond0_0 (i : grid0.Coords) : Prop := (Scalar.cmpi .ne (Scalar.extui (Scalar.cmpi .eq (BitVec.ofNat 32 (i 1).val) 0#32)) 0#32) = 1#1
/-- It holds at the first of each core's three steps. -/
theorem hcond0_0 : ∀ t : Fin cfg0.N, cond0_0 (grid0.coords t) ↔ t.val % 3 = 0 :=
  (by decide +kernel : ∀ t : Fin grid0.N, cond0_0 (grid0.coords t) ↔ t.val % 3 = 0)

/-- No window is idle at any point: the body loads both inputs and stores the output at every step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated. -/
abbrev VO0_2 : View sig .tc .vmem S1x1x1 .f32 := (Memref.whole cc0_stg2_0 : Memref sig .tc .vmem S1x1x1 .f32).view
/-- Each window's current staging memref at point `t`, as the pipeline passes it, and its wholeness. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1x1 .f32 := Memref.whole cc0_scratch0
abbrev VS0_0 : View sig .tc .vmem S1x1 .f32 := scM0_0.view

/-- The other scoped buffers of the core (the other two calls' staging buffers and accumulators), unopened. -/
abbrev Rest0 (c : Dev nD) : sProp 𝕄 :=
  Pipeline.scopedRestBut (Ix := Unit) (Name := ℕ) (U := UR sig nD τ) (Lvl := ℕ) (Val := Elt F) spec0 c [cc0_scratch0]

/-- The class's region invariant with the accumulator owned as a memref at some contents, the other scoped buffers
    unopened, and the generator register at some state. -/
theorem PhiA0_eq (c : Dev nD) :
    (Pipeline.ΦA spec0 c : sProp 𝕄)
      = iprop(((∃ d, owns (c : Thread nD τ) scM0_0 fullShare d) ∗ Rest0 c) ∗ (∃ r, prngReg c r)) := by
  unfold Pipeline.ΦA
  rw [Pipeline.scopedRest_split_of_list spec0 c [cc0_scratch0] (by decide) (by decide)]
  simp only [scM0_0, owns_whole, bigSepL]
  rfl

end Cert.Kernel.Hand

end
-- ==== Proof.BR0RunA.lean ====
/-
  (For the word-level program.  Nothing below depends on what a float value is: every statement holds at any
  float instance.)
  The sum-of-squared-differences body run whole in control case A (the inner grid coordinate is zero: the accumulator is zeroed first):
  on whole staging memrefs, the inputs at their contents, the output's at anything, the accumulator at anything,
  the body runs to the continuation with the inputs as they were and the output's buffer and the accumulator
  with the pieces its stores wrote; the pieces are the witness the symbolic run finds.
-/
import proofs.«122163_j54013508714894_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i)
    (x0 : Vec F S8192x128 .f32) (x1 : Vec F S8192x128 .f32) :
    Σ' (L2 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sse_kernel i arg2 harg2 arg3 harg3 arg4 harg4 arg5 harg5) K } := by
  refine ⟨?_, ?_, fun E K => ?run⟩
  case run =>
    simp only [cc0__sse_kernel_eq_skeleton]; unfold cc0__sse_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BR0RunB.lean ====
/-
  (For the word-level program.  Nothing below depends on what a float value is: every statement holds at any
  float instance.)
  The sum-of-squared-differences body run whole in control case B (the inner grid coordinate is not zero: the accumulator is carried):
  on whole staging memrefs, the inputs at their contents, the output's at anything, the accumulator at what the point before left,
  the body runs to the continuation with the inputs as they were and the output's buffer and the accumulator
  with the pieces its stores wrote; the pieces are the witness the symbolic run finds.
-/
import proofs.«122163_j54013508714894_2_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i)
    (x0 : Vec F S8192x128 .f32) (x1 : Vec F S8192x128 .f32) (xs0 : Vec F S1x1 .f32) :
    Σ' (L2 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sse_kernel i arg2 harg2 arg3 harg3 arg4 harg4 arg5 harg5) K } := by
  refine ⟨?_, ?_, fun E K => ?run⟩
  case run =>
    simp only [cc0__sse_kernel_eq_skeleton]; unfold cc0__sse_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BR0Frame.lean ====
/-
  (For the word-level program.  Nothing below depends on what a float value is: every statement holds at any
  float instance.)
  Region 0 (the sum of squared differences): what the output's staging buffer and the accumulator hold after
  each grid point, the region's proof data, and the body obligation.
  After a point of case A (first step of a core) both hold what that case's stores leave given the two input
  blocks; after a point of case B they hold what that case's stores leave given the blocks and the accumulator
  the point before left.  The region invariant carries the accumulator at those contents from point to point;
  the other scoped buffers and the generator register ride along untouched.
-/
import proofs.«122163_j54013508714894_2_alg».proof.Proof.BR0RunA
import proofs.«122163_j54013508714894_2_alg».proof.Proof.BR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i)
    (x0 x1 : Vec F S8192x128 .f32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y

theorem scover0_A_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i)
    (x0 x1 : Vec F S8192x128 .f32) (y : S1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1.size (by sl_kernel_rfl) y

theorem cover0_B_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i)
    (x0 x1 : Vec F S8192x128 .f32) (xs0 : Vec F S1x1 .f32) (y : S1x1x1.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1x1x1.size (by sl_kernel_rfl) y

theorem scover0_B_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i)
    (x0 x1 : Vec F S8192x128 .f32) (xs0 : Vec F S1x1 .f32) (y : S1x1.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1x1.size (by sl_kernel_rfl) y

/-- What case A leaves in the output's staging buffer, and in the accumulator: its pieces read back. -/
def out0_A_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (x0 x1 : Vec F S8192x128 .f32) : Vec F S1x1x1 .f32 :=
  VO0_2.read (Elt F) (VO0_2.writes (Elt F) VO0_2.junk (kernelRun0_A c i arg2 harg2 arg3 harg3 arg4 harg4 arg5 harg5 hc0 x0 x1).1)
def sout0_A_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (x0 x1 : Vec F S8192x128 .f32) : Vec F S1x1 .f32 :=
  VS0_0.read (Elt F) (VS0_0.writes (Elt F) VS0_0.junk (kernelRun0_A c i arg2 harg2 arg3 harg3 arg4 harg4 arg5 harg5 hc0 x0 x1).2.1)
/-- The same for case B, from the accumulator the point before left. -/
def out0_B_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (x0 x1 : Vec F S8192x128 .f32) (xs0 : Vec F S1x1 .f32) : Vec F S1x1x1 .f32 :=
  VO0_2.read (Elt F) (VO0_2.writes (Elt F) VO0_2.junk (kernelRun0_B c i arg2 harg2 arg3 harg3 arg4 harg4 arg5 harg5 hc0 x0 x1 xs0).1)
def sout0_B_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (x0 x1 : Vec F S8192x128 .f32) (xs0 : Vec F S1x1 .f32) : Vec F S1x1 .f32 :=
  VS0_0.read (Elt F) (VS0_0.writes (Elt F) VS0_0.junk (kernelRun0_B c i arg2 harg2 arg3 harg3 arg4 harg4 arg5 harg5 hc0 x0 x1 xs0).2.1)

/-! ## The same at a grid point, on the memrefs and blocks the pipeline passes there -/

def outA0 (c : Dev nD) (t : Fin cfg0.N) (h0 : t.val % 3 = 0) : Vec F S1x1x1 .f32 :=
  out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)
def soutA0 (c : Dev nD) (t : Fin cfg0.N) (h0 : t.val % 3 = 0) : Vec F S1x1 .f32 :=
  sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)
def outB0 (c : Dev nD) (t : Fin cfg0.N) (h0 : ¬t.val % 3 = 0) (xs0 : Vec F S1x1 .f32) : Vec F S1x1x1 .f32 :=
  out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) xs0
def soutB0 (c : Dev nD) (t : Fin cfg0.N) (h0 : ¬t.val % 3 = 0) (xs0 : Vec F S1x1 .f32) : Vec F S1x1 .f32 :=
  sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) xs0

/-! ## What the output's buffer and the accumulator hold after each point -/

/-- After position `n`: (the output's staging buffer, the accumulator). -/
def outsAt0 (c : Dev nD) : (n : ℕ) → n < cfg0.N → Vec F S1x1x1 .f32 × Vec F S1x1 .f32
  | 0, hn => (outA0 V c ⟨0, hn⟩ (Nat.zero_mod _), soutA0 V c ⟨0, hn⟩ (Nat.zero_mod _))
  | n + 1, hn =>
    if h0 : (n + 1) % 3 = 0 then (outA0 V c ⟨n + 1, hn⟩ h0, soutA0 V c ⟨n + 1, hn⟩ h0)
    else (outB0 V c ⟨n + 1, hn⟩ h0 (outsAt0 c n (Nat.lt_of_succ_lt hn)).2, soutB0 V c ⟨n + 1, hn⟩ h0 (outsAt0 c n (Nat.lt_of_succ_lt hn)).2)

theorem outsAt0_A (c : Dev nD) (t : Fin cfg0.N) (h0 : t.val % 3 = 0) :
    outsAt0 V c t.val t.isLt = (outA0 V c t h0, soutA0 V c t h0) := by
  obtain ⟨n, hn⟩ := t
  cases n with
  | zero => rfl
  | succ n => exact dif_pos h0

theorem outsAt0_B (c : Dev nD) (t : Fin cfg0.N) (h0 : ¬t.val % 3 = 0) :
    outsAt0 V c t.val t.isLt
      = (outB0 V c t h0 (outsAt0 V c (t.val - 1) (Nat.lt_of_le_of_lt (Nat.sub_le _ _) t.isLt)).2,
         soutB0 V c t h0 (outsAt0 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region invariant -/

/-- Before position `n`: at the first point the class's invariant (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed form says which case the point is in;
    the invariant hands the body the accumulator (at anything at the very first point, else at what the point before
    left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 3 = 0
  · rw [outsAt0_A V c t h0]
    unfold outA0 soutA0 out0_A_2 sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B V c t h0]
    unfold outB0 soutB0 out0_B_2 sout0_B_0; (try dsimp only)
    have hz : t.val ≠ 0 := fun hz => h0 (by rw [hz])
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hN : cfg0.N = 6 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]
    · iexists _; iexact HS0
    iexact HR
  iexact Hg

end Cert.Kernel.Hand

end
-- ==== Proof.BR1Runs.lean ====
/-
  (For the word-level program.  Nothing below depends on what a float value is: every statement holds at any
  float instance.)
  The second pallas_call (the entropy term), region 1 of the program: what its two control cases share.
  The body branches on the inner grid coordinate alone: at the first of a core's sixteen steps it zeroes the 1x1
  accumulator, at every step it adds the block's rows' terms to the accumulator and copies the accumulator into
  the output's staging buffer.  Stated at the contents `V` the region is entered with.
-/
import proofs.«122163_j54013508714894_2_alg».proof.Proof.Gen.Kernel.Launch
import proofs.«122163_j54013508714894_2_alg».proof.Proof.Gen.Kernel.Skeleton
import proofs.«122163_j54013508714894_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition, from the grid coordinates: the inner coordinate is zero. -/
abbrev cond1_0 (i : grid1.Coords) : Prop := (Scalar.cmpi .ne (Scalar.extui (Scalar.cmpi .eq (BitVec.ofNat 32 (i 1).val) 0#32)) 0#32) = 1#1
/-- It holds at the first of each core's sixteen steps. -/
theorem hcond1_0 : ∀ t : Fin cfg1.N, cond1_0 (grid1.coords t) ↔ t.val % 16 = 0 :=
  (by decide +kernel : ∀ t : Fin grid1.N, cond1_0 (grid1.coords t) ↔ t.val % 16 = 0)

theorem liveAt1_0 : ∀ t : Fin cfg1.N, cfg1.idle 0 (grid1.coords t) = false := by decide +kernel
theorem liveAt1_1 : ∀ t : Fin cfg1.N, cfg1.idle 1 (grid1.coords t) = false := by decide +kernel

abbrev VO1_1 : View sig .tc .vmem S1x1x1 .f32 := (Memref.whole cc1_stg1_0 : Memref sig .tc .vmem S1x1x1 .f32).view
abbrev ms1_0 (t : Fin cfg1.N) : Memref sig .tc .vmem S256x2000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1 .f32 := win1_1.stage (cfg1.slots t 1)
abbrev hs1_1 (t : Fin cfg1.N) : (ms1_1 t).IsWhole := hstage1_1 ((cfg1.slots t 1).cast nbuf1_1)
abbrev scM1_0 : Memref sig .tc .vmem S1x1 .f32 := Memref.whole cc1_scratch0
abbrev VS1_0 : View sig .tc .vmem S1x1 .f32 := scM1_0.view

abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1_0 fullShare d) ∗ Rest1 c) ∗ (∃ r, prngReg c r)) := by
  unfold Pipeline.ΦA
  rw [Pipeline.scopedRest_split_of_list spec1 c [cc1_scratch0] (by decide) (by decide)]
  simp only [scM1_0, owns_whole, bigSepL]
  rfl

end Cert.Kernel.Hand

end
-- ==== Proof.BR1RunA.lean ====
/-
  (For the word-level program.  Nothing below depends on what a float value is: every statement holds at any
  float instance.)
  The entropy body run whole in control case A (the inner grid coordinate is zero: the accumulator is zeroed first):
  on whole staging memrefs, the input at its contents, the output's at anything, the accumulator at anything,
  the body runs to the continuation with the input as it was and the output's buffer and the accumulator with
  the pieces its stores wrote; the pieces are the witness the symbolic run finds.
-/
import proofs.«122163_j54013508714894_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i)
    (x0 : Vec F S256x2000 .f32) :
    Σ' (L1 : List (View.Piece (Elt F) S1x1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__entropy_kernel i arg2 harg2 arg3 harg3 arg4 harg4) K } := by
  refine ⟨?_, ?_, fun E K => ?run⟩
  case run =>
    simp only [cc1__entropy_kernel_eq_skeleton]; unfold cc1__entropy_kernel_skel
    unfold owns
    iintro ⟨⟨%f0, %hf0, H0⟩, ⟨%d1, %f1, -, H1⟩, ⟨%ds0, %fs0, -, HS0⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    iexists _; iexact HS0

end Cert.Kernel.Hand

end
-- ==== Proof.BR1RunB.lean ====
/-
  (For the word-level program.  Nothing below depends on what a float value is: every statement holds at any
  float instance.)
  The entropy body run whole in control case B (the inner grid coordinate is not zero: the accumulator is carried):
  on whole staging memrefs, the input at its contents, the output's at anything, the accumulator at what the point before left,
  the body runs to the continuation with the input as it was and the output's buffer and the accumulator with
  the pieces its stores wrote; the pieces are the witness the symbolic run finds.
-/
import proofs.«122163_j54013508714894_2_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i)
    (x0 : Vec F S256x2000 .f32) (xs0 : Vec F S1x1 .f32) :
    Σ' (L1 : List (View.Piece (Elt F) S1x1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__entropy_kernel i arg2 harg2 arg3 harg3 arg4 harg4) K } := by
  refine ⟨?_, ?_, fun E K => ?run⟩
  case run =>
    simp only [cc1__entropy_kernel_eq_skeleton]; unfold cc1__entropy_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0)
    sl_step
    iapply Hk
    isplitl [H0]
    · iexists _; isplitr; · ipureintro; exact harg2.read_unread _
      iexact H0
    isplitl [H1]; · iexists _; iexact H1
    iexists _; iexact HS0

end Cert.Kernel.Hand

end
-- ==== Proof.BR1Frame.lean ====
/-
  (For the word-level program.  Nothing below depends on what a float value is: every statement holds at any
  float instance.)
  Region 1 (the entropy term): what the output's staging buffer and the accumulator hold after each grid point, the
  region's proof data, and the body obligation.
  After a point of case A both hold what that case's stores leave given the input blocks; after a point of case B
  they hold what that case's stores leave given the blocks and the accumulator the point before left.  The region
  invariant carries the accumulator at those contents from point to point; the other scoped buffers and the
  generator register ride along untouched.
-/
import proofs.«122163_j54013508714894_2_alg».proof.Proof.BR1RunA
import proofs.«122163_j54013508714894_2_alg».proof.Proof.BR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover1_A_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i)
    (x0 : Vec F S256x2000 .f32) (y : S1x1x1.Idx) :
    ∃ pc ∈ (kernelRun1_A c i arg2 harg2 arg3 harg3 arg4 harg4 hc0 x0).1, y ∈ pc.1.set :=
  View.cover_of_tiledL (kernelRun1_A c i arg2 harg2 arg3 harg3 arg4 harg4 hc0 x0).1 S1x1x1.size (by sl_kernel_rfl) y

theorem scover1_A_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i)
    (x0 : Vec F S256x2000 .f32) (y : S1x1.Idx) :
    ∃ pc ∈ (kernelRun1_A c i arg2 harg2 arg3 harg3 arg4 harg4 hc0 x0).2.1, y ∈ pc.1.set :=
  View.cover_of_tiledL (kernelRun1_A c i arg2 harg2 arg3 harg3 arg4 harg4 hc0 x0).2.1 S1x1.size (by sl_kernel_rfl) y

theorem cover1_B_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i)
    (x0 : Vec F S256x2000 .f32) (xs0 : Vec F S1x1 .f32) (y : S1x1x1.Idx) :
    ∃ pc ∈ (kernelRun1_B c i arg2 harg2 arg3 harg3 arg4 harg4 hc0 x0 xs0).1, y ∈ pc.1.set :=
  View.cover_of_tiledL (kernelRun1_B c i arg2 harg2 arg3 harg3 arg4 harg4 hc0 x0 xs0).1 S1x1x1.size (by sl_kernel_rfl) y

theorem scover1_B_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i)
    (x0 : Vec F S256x2000 .f32) (xs0 : Vec F S1x1 .f32) (y : S1x1.Idx) :
    ∃ pc ∈ (kernelRun1_B c i arg2 harg2 arg3 harg3 arg4 harg4 hc0 x0 xs0).2.1, y ∈ pc.1.set :=
  View.cover_of_tiledL (kernelRun1_B c i arg2 harg2 arg3 harg3 arg4 harg4 hc0 x0 xs0).2.1 S1x1.size (by sl_kernel_rfl) y

/-- What case A leaves in the output's staging buffer, and in the accumulator: its pieces read back. -/
def out1_A_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i) (x0 : Vec F S256x2000 .f32) : Vec F S1x1x1 .f32 :=
  VO1_1.read (Elt F) (VO1_1.writes (Elt F) VO1_1.junk (kernelRun1_A c i arg2 harg2 arg3 harg3 arg4 harg4 hc0 x0).1)
def sout1_A_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i) (x0 : Vec F S256x2000 .f32) : Vec F S1x1 .f32 :=
  VS1_0.read (Elt F) (VS1_0.writes (Elt F) VS1_0.junk (kernelRun1_A c i arg2 harg2 arg3 harg3 arg4 harg4 hc0 x0).2.1)
/-- The same for case B, from the accumulator the point before left. -/
def out1_B_1 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i) (x0 : Vec F S256x2000 .f32) (xs0 : Vec F S1x1 .f32) : Vec F S1x1x1 .f32 :=
  VO1_1.read (Elt F) (VO1_1.writes (Elt F) VO1_1.junk (kernelRun1_B c i arg2 harg2 arg3 harg3 arg4 harg4 hc0 x0 xs0).1)
def sout1_B_0 (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i) (x0 : Vec F S256x2000 .f32) (xs0 : Vec F S1x1 .f32) : Vec F S1x1 .f32 :=
  VS1_0.read (Elt F) (VS1_0.writes (Elt F) VS1_0.junk (kernelRun1_B c i arg2 harg2 arg3 harg3 arg4 harg4 hc0 x0 xs0).2.1)

/-! ## The same at a grid point, on the memrefs and blocks the pipeline passes there -/

def outA1 (c : Dev nD) (t : Fin cfg1.N) (h0 : t.val % 16 = 0) : Vec F S1x1x1 .f32 :=
  out1_A_1 c (grid1.coords t) (ms1_0 t) (hs1_0 t) (ms1_1 t) (hs1_1 t) scM1_0 (Memref.isWhole_whole _) ((hcond1_0 t).mpr h0) (iblk1 V c 0 t)
def soutA1 (c : Dev nD) (t : Fin cfg1.N) (h0 : t.val % 16 = 0) : Vec F S1x1 .f32 :=
  sout1_A_0 c (grid1.coords t) (ms1_0 t) (hs1_0 t) (ms1_1 t) (hs1_1 t) scM1_0 (Memref.isWhole_whole _) ((hcond1_0 t).mpr h0) (iblk1 V c 0 t)
def outB1 (c : Dev nD) (t : Fin cfg1.N) (h0 : ¬t.val % 16 = 0) (xs0 : Vec F S1x1 .f32) : Vec F S1x1x1 .f32 :=
  out1_B_1 c (grid1.coords t) (ms1_0 t) (hs1_0 t) (ms1_1 t) (hs1_1 t) scM1_0 (Memref.isWhole_whole _) (fun h => h0 ((hcond1_0 t).mp h)) (iblk1 V c 0 t) xs0
def soutB1 (c : Dev nD) (t : Fin cfg1.N) (h0 : ¬t.val % 16 = 0) (xs0 : Vec F S1x1 .f32) : Vec F S1x1 .f32 :=
  sout1_B_0 c (grid1.coords t) (ms1_0 t) (hs1_0 t) (ms1_1 t) (hs1_1 t) scM1_0 (Memref.isWhole_whole _) (fun h => h0 ((hcond1_0 t).mp h)) (iblk1 V c 0 t) xs0

/-! ## What the output's buffer and the accumulator hold after each point -/

/-- After position `n`: (the output's staging buffer, the accumulator). -/
def outsAt1 (c : Dev nD) : (n : ℕ) → n < cfg1.N → Vec F S1x1x1 .f32 × Vec F S1x1 .f32
  | 0, hn => (outA1 V c ⟨0, hn⟩ (Nat.zero_mod _), soutA1 V c ⟨0, hn⟩ (Nat.zero_mod _))
  | n + 1, hn =>
    if h0 : (n + 1) % 16 = 0 then (outA1 V c ⟨n + 1, hn⟩ h0, soutA1 V c ⟨n + 1, hn⟩ h0)
    else (outB1 V c ⟨n + 1, hn⟩ h0 (outsAt1 c n (Nat.lt_of_succ_lt hn)).2, soutB1 V c ⟨n + 1, hn⟩ h0 (outsAt1 c n (Nat.lt_of_succ_lt hn)).2)

theorem outsAt1_A (c : Dev nD) (t : Fin cfg1.N) (h0 : t.val % 16 = 0) :
    outsAt1 V c t.val t.isLt = (outA1 V c t h0, soutA1 V c t h0) := by
  obtain ⟨n, hn⟩ := t
  cases n with
  | zero => rfl
  | succ n => exact dif_pos h0

theorem outsAt1_B (c : Dev nD) (t : Fin cfg1.N) (h0 : ¬t.val % 16 = 0) :
    outsAt1 V c t.val t.isLt
      = (outB1 V c t h0 (outsAt1 V c (t.val - 1) (Nat.lt_of_le_of_lt (Nat.sub_le _ _) t.isLt)).2,
         soutB1 V c t h0 (outsAt1 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region invariant -/

def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2) ∗ Rest1 c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · rw [outsAt1_A V c t h0]
    unfold outA1 soutA1 out1_A_1 sout1_A_0; (try dsimp only)
    by_cases hz : t.val = 0
    ·
      rw [PhiS1_castSucc V c t, PhiS1_zero V c _ _ hz, PhiA1_eq]
      iintro ⟨⟨⟨HS0, HR⟩, Hg⟩, Ho, ⟨%d0, H0⟩, ⟨%dO, HO⟩⟩
      iapply ((kernelRun1_A c (grid1.coords t) _ _ _ _ _ _ ((hcond1_0 t).mpr h0) (iblk1 V c 0 t)).2.2 Set.univ _)
      isplitl [H0]; · iexact H0
      isplitl [HO]; · iexists _; iexact HO
      isplitl [HS0]; · iexact HS0
      iintro ⟨H0, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _)
          iexact HR
        iexact Hg
      isplitl [Ho]; · iexact Ho
      isplitl [H0]; · iexact H0
      unfold owns; iexists _; isplitr
      swap; · iexact HO
      ipureintro; exact View.read_writes_of_cover _ _ _ _ _ (cover1_A_1 c _ _ _ _ _ _ _ _ _)
    ·
      rw [PhiS1_castSucc V c t, PhiS1_pos V c _ _ hz]
      iintro ⟨⟨⟨HS0, HR⟩, Hg⟩, Ho, ⟨%d0, H0⟩, ⟨%dO, HO⟩⟩
      iapply ((kernelRun1_A c (grid1.coords t) _ _ _ _ _ _ ((hcond1_0 t).mpr h0) (iblk1 V c 0 t)).2.2 Set.univ _)
      isplitl [H0]; · iexact H0
      isplitl [HO]; · iexists _; iexact HO
      isplitl [HS0]; · iexists _; iexact HS0
      iintro ⟨H0, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _)
          iexact HR
        iexact Hg
      isplitl [Ho]; · iexact Ho
      isplitl [H0]; · iexact H0
      unfold owns; iexists _; isplitr
      swap; · iexact HO
      ipureintro; exact View.read_writes_of_cover _ _ _ _ _ (cover1_A_1 c _ _ _ _ _ _ _ _ _)
  · rw [outsAt1_B V c t h0]
    unfold outB1 soutB1 out1_B_1 sout1_B_0; (try dsimp only)
    have hz : t.val ≠ 0 := fun hz => h0 (by rw [hz])
    ·
      rw [PhiS1_castSucc V c t, PhiS1_pos V c _ _ hz]
      iintro ⟨⟨⟨HS0, HR⟩, Hg⟩, Ho, ⟨%d0, H0⟩, ⟨%dO, HO⟩⟩
      iapply ((kernelRun1_B c (grid1.coords t) _ _ _ _ _ _ (fun h => h0 ((hcond1_0 t).mp h)) (iblk1 V c 0 t) _).2.2 Set.univ _)
      isplitl [H0]; · iexact H0
      isplitl [HO]; · iexists _; iexact HO
      isplitl [HS0]; · iexact HS0
      iintro ⟨H0, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _)
          iexact HR
        iexact Hg
      isplitl [Ho]; · iexact Ho
      isplitl [H0]; · iexact H0
      unfold owns; iexists _; isplitr
      swap; · iexact HO
      ipureintro; exact View.read_writes_of_cover _ _ _ _ _ (cover1_B_1 c _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, HR⟩, Hg⟩
  isplitl [HS0 HR]
  · isplitl [HS0]
    · iexists _; iexact HS0
    iexact HR
  iexact Hg

end Cert.Kernel.Hand

end
-- ==== Proof.BR2Runs.lean ====
/-
  (For the word-level program.  Nothing below depends on what a float value is: every statement holds at any
  float instance.)
  The third pallas_call (the pairwise cosine sum), region 2 of the program: what its two control cases share.
  The body branches on the one grid coordinate: at the first of the eight steps it zeroes the 1x1 accumulator, at
  every step it adds the row block's strictly-upper-triangle Gram sum to the accumulator and copies the
  accumulator into the output's staging buffer.  Both input windows read the same array (the padded normalised
  memory): a 256-row block and the whole array.  Stated at the contents `V` the region is entered with.
-/
import proofs.«122163_j54013508714894_2_alg».proof.Proof.Gen.Kernel.Launch
import proofs.«122163_j54013508714894_2_alg».proof.Proof.Gen.Kernel.Skeleton
import proofs.«122163_j54013508714894_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-array window is fetched once; its buffer holds the array at every point all the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's one branch condition, from the grid coordinate: it is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 8 = 0 :=
  (by decide +kernel : ∀ t : Fin grid2.N, cond2_0 (grid2.coords t) ↔ t.val % 8 = 0)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

abbrev VO2_2 : View sig .tc .vmem S1x1 .f32 := (Memref.whole cc2_stg2_0 : Memref sig .tc .vmem S1x1 .f32).view
abbrev ms2_0 (t : Fin cfg2.N) : Memref sig .tc .vmem S256x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2_0 : Memref sig .tc .vmem S1x1 .f32 := Memref.whole cc2_scratch0
abbrev VS2_0 : View sig .tc .vmem S1x1 .f32 := scM2_0.view

abbrev Rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(((∃ d, owns (c : Thread nD τ) scM2_0 fullShare d) ∗ Rest2 c) ∗ (∃ r, prngReg c r)) := by
  unfold Pipeline.ΦA
  rw [Pipeline.scopedRest_split_of_list spec2 c [cc2_scratch0] (by decide) (by decide)]
  simp only [scM2_0, owns_whole, bigSepL]
  rfl

end Cert.Kernel.Hand

end
-- ==== Proof.BR2RunA.lean ====
/-
  (For the word-level program.  Nothing below depends on what a float value is: every statement holds at any
  float instance.)
  The cosine body run whole in control case A (the grid coordinate is zero: the accumulator is zeroed first):
  on whole staging memrefs, the inputs at their contents, the output's at anything, the accumulator at anything,
  the body runs to the continuation with the inputs as they were and the output's buffer and the accumulator
  with the pieces its stores wrote; the pieces are the witness the symbolic run finds.
-/
import proofs.«122163_j54013508714894_2_alg».proof.Proof.BR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i)
    (x0 : Vec F S256x256 .f32) (x1 : Vec F S2048x256 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__cos_kernel i arg1 harg1 arg2 harg2 arg3 harg3 arg4 harg4) K } := by
  refine ⟨?_, ?_, fun E K => ?run⟩
  case run =>
    simp only [cc2__cos_kernel_eq_skeleton]; unfold cc2__cos_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BR2RunB.lean ====
/-
  (For the word-level program.  Nothing below depends on what a float value is: every statement holds at any
  float instance.)
  The cosine body run whole in control case B (the grid coordinate is not zero: the accumulator is carried):
  on whole staging memrefs, the inputs at their contents, the output's at anything, the accumulator at what the point before left,
  the body runs to the continuation with the inputs as they were and the output's buffer and the accumulator
  with the pieces its stores wrote; the pieces are the witness the symbolic run finds.
-/
import proofs.«122163_j54013508714894_2_alg».proof.Proof.BR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i)
    (x0 : Vec F S256x256 .f32) (x1 : Vec F S2048x256 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__cos_kernel i arg1 harg1 arg2 harg2 arg3 harg3 arg4 harg4) K } := by
  refine ⟨?_, ?_, fun E K => ?run⟩
  case run =>
    simp only [cc2__cos_kernel_eq_skeleton]; unfold cc2__cos_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.BR2Frame.lean ====
/-
  (For the word-level program.  Nothing below depends on what a float value is: every statement holds at any
  float instance.)
  Region 2 (the pairwise cosine sum): what the output's staging buffer and the accumulator hold after each grid point, the
  region's proof data, and the body obligation.
  After a point of case A both hold what that case's stores leave given the input blocks; after a point of case B
  they hold what that case's stores leave given the blocks and the accumulator the point before left.  The region
  invariant carries the accumulator at those contents from point to point; the other scoped buffers and the
  generator register ride along untouched.
-/
import proofs.«122163_j54013508714894_2_alg».proof.Proof.BR2RunA
import proofs.«122163_j54013508714894_2_alg».proof.Proof.BR2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover2_A_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i)
    (x0 : Vec F S256x256 .f32) (x1 : Vec F S2048x256 .f32) (y : S1x1.Idx) :
    ∃ pc ∈ (kernelRun2_A c i arg1 harg1 arg2 harg2 arg3 harg3 arg4 harg4 hc0 x0 x1).1, y ∈ pc.1.set :=
  View.cover_of_tiledL (kernelRun2_A c i arg1 harg1 arg2 harg2 arg3 harg3 arg4 harg4 hc0 x0 x1).1 S1x1.size (by sl_kernel_rfl) y

theorem scover2_A_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i)
    (x0 : Vec F S256x256 .f32) (x1 : Vec F S2048x256 .f32) (y : S1x1.Idx) :
    ∃ pc ∈ (kernelRun2_A c i arg1 harg1 arg2 harg2 arg3 harg3 arg4 harg4 hc0 x0 x1).2.1, y ∈ pc.1.set :=
  View.cover_of_tiledL (kernelRun2_A c i arg1 harg1 arg2 harg2 arg3 harg3 arg4 harg4 hc0 x0 x1).2.1 S1x1.size (by sl_kernel_rfl) y

theorem cover2_B_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i)
    (x0 : Vec F S256x256 .f32) (x1 : Vec F S2048x256 .f32) (xs0 : Vec F S1x1 .f32) (y : S1x1.Idx) :
    ∃ pc ∈ (kernelRun2_B c i arg1 harg1 arg2 harg2 arg3 harg3 arg4 harg4 hc0 x0 x1 xs0).1, y ∈ pc.1.set :=
  View.cover_of_tiledL (kernelRun2_B c i arg1 harg1 arg2 harg2 arg3 harg3 arg4 harg4 hc0 x0 x1 xs0).1 S1x1.size (by sl_kernel_rfl) y

theorem scover2_B_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i)
    (x0 : Vec F S256x256 .f32) (x1 : Vec F S2048x256 .f32) (xs0 : Vec F S1x1 .f32) (y : S1x1.Idx) :
    ∃ pc ∈ (kernelRun2_B c i arg1 harg1 arg2 harg2 arg3 harg3 arg4 harg4 hc0 x0 x1 xs0).2.1, y ∈ pc.1.set :=
  View.cover_of_tiledL (kernelRun2_B c i arg1 harg1 arg2 harg2 arg3 harg3 arg4 harg4 hc0 x0 x1 xs0).2.1 S1x1.size (by sl_kernel_rfl) y

/-- What case A leaves in the output's staging buffer, and in the accumulator: its pieces read back. -/
def out2_A_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i) (x0 : Vec F S256x256 .f32) (x1 : Vec F S2048x256 .f32) : Vec F S1x1 .f32 :=
  VO2_2.read (Elt F) (VO2_2.writes (Elt F) VO2_2.junk (kernelRun2_A c i arg1 harg1 arg2 harg2 arg3 harg3 arg4 harg4 hc0 x0 x1).1)
def sout2_A_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i) (x0 : Vec F S256x256 .f32) (x1 : Vec F S2048x256 .f32) : Vec F S1x1 .f32 :=
  VS2_0.read (Elt F) (VS2_0.writes (Elt F) VS2_0.junk (kernelRun2_A c i arg1 harg1 arg2 harg2 arg3 harg3 arg4 harg4 hc0 x0 x1).2.1)
/-- The same for case B, from the accumulator the point before left. -/
def out2_B_2 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (x0 : Vec F S256x256 .f32) (x1 : Vec F S2048x256 .f32) (xs0 : Vec F S1x1 .f32) : Vec F S1x1 .f32 :=
  VO2_2.read (Elt F) (VO2_2.writes (Elt F) VO2_2.junk (kernelRun2_B c i arg1 harg1 arg2 harg2 arg3 harg3 arg4 harg4 hc0 x0 x1 xs0).1)
def sout2_B_0 (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (x0 : Vec F S256x256 .f32) (x1 : Vec F S2048x256 .f32) (xs0 : Vec F S1x1 .f32) : Vec F S1x1 .f32 :=
  VS2_0.read (Elt F) (VS2_0.writes (Elt F) VS2_0.junk (kernelRun2_B c i arg1 harg1 arg2 harg2 arg3 harg3 arg4 harg4 hc0 x0 x1 xs0).2.1)

/-! ## The same at a grid point, on the memrefs and blocks the pipeline passes there -/

def outA2 (c : Dev nD) (t : Fin cfg2.N) (h0 : t.val % 8 = 0) : Vec F S1x1 .f32 :=
  out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)
def soutA2 (c : Dev nD) (t : Fin cfg2.N) (h0 : t.val % 8 = 0) : Vec F S1x1 .f32 :=
  sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)
def outB2 (c : Dev nD) (t : Fin cfg2.N) (h0 : ¬t.val % 8 = 0) (xs0 : Vec F S1x1 .f32) : Vec F S1x1 .f32 :=
  out2_B_2 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) xs0
def soutB2 (c : Dev nD) (t : Fin cfg2.N) (h0 : ¬t.val % 8 = 0) (xs0 : Vec F S1x1 .f32) : Vec F S1x1 .f32 :=
  sout2_B_0 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) xs0

/-! ## What the output's buffer and the accumulator hold after each point -/

/-- After position `n`: (the output's staging buffer, the accumulator). -/
def outsAt2 (c : Dev nD) : (n : ℕ) → n < cfg2.N → Vec F S1x1 .f32 × Vec F S1x1 .f32
  | 0, hn => (outA2 V c ⟨0, hn⟩ (Nat.zero_mod _), soutA2 V c ⟨0, hn⟩ (Nat.zero_mod _))
  | n + 1, hn =>
    if h0 : (n + 1) % 8 = 0 then (outA2 V c ⟨n + 1, hn⟩ h0, soutA2 V c ⟨n + 1, hn⟩ h0)
    else (outB2 V c ⟨n + 1, hn⟩ h0 (outsAt2 c n (Nat.lt_of_succ_lt hn)).2, soutB2 V c ⟨n + 1, hn⟩ h0 (outsAt2 c n (Nat.lt_of_succ_lt hn)).2)

theorem outsAt2_A (c : Dev nD) (t : Fin cfg2.N) (h0 : t.val % 8 = 0) :
    outsAt2 V c t.val t.isLt = (outA2 V c t h0, soutA2 V c t h0) := by
  obtain ⟨n, hn⟩ := t
  cases n with
  | zero => rfl
  | succ n => exact dif_pos h0

theorem outsAt2_B (c : Dev nD) (t : Fin cfg2.N) (h0 : ¬t.val % 8 = 0) :
    outsAt2 V c t.val t.isLt
      = (outB2 V c t h0 (outsAt2 V c (t.val - 1) (Nat.lt_of_le_of_lt (Nat.sub_le _ _) t.isLt)).2,
         soutB2 V c t h0 (outsAt2 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region invariant -/

def PhiS2 (c : Dev nD) : (n : ℕ) → n ≤ cfg2.N → sProp 𝕄
  | 0, _ => Pipeline.ΦA spec2 c
  | n + 1, hn => iprop((owns (c : Thread nD τ) scM2_0 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2_0 fullShare ((outsAt2 V c n hn).2) ∗ Rest2 c) ∗ (∃ r, prngReg c r)) := rfl

theorem PhiS2_pos (c : Dev nD) (n : ℕ) (h : n ≤ cfg2.N) (hz : n ≠ 0) :
    PhiS2 V c n h = iprop((owns (c : Thread nD τ) scM2_0 fullShare ((outsAt2 V c (n - 1) (by omega)).2) ∗ Rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · rw [outsAt2_A V c t h0]
    unfold outA2 soutA2 out2_A_2 sout2_A_0; (try dsimp only)
    by_cases hz : t.val = 0
    ·
      rw [PhiS2_castSucc V c t, PhiS2_zero V c _ _ hz, PhiA2_eq]
      iintro ⟨⟨⟨HS0, HR⟩, Hg⟩, Ho, ⟨%d0, H0⟩, ⟨%d1, H1⟩, ⟨%dO, HO⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [HO]; · iexists _; iexact HO
      isplitl [HS0]; · iexact HS0
      iintro ⟨H0, H1, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact HO
      ipureintro; exact View.read_writes_of_cover _ _ _ _ _ (cover2_A_2 c _ _ _ _ _ _ _ _ _ _ _ _)
    ·
      rw [PhiS2_castSucc V c t, PhiS2_pos V c _ _ hz]
      iintro ⟨⟨⟨HS0, HR⟩, Hg⟩, Ho, ⟨%d0, H0⟩, ⟨%d1, H1⟩, ⟨%dO, HO⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [HO]; · iexists _; iexact HO
      isplitl [HS0]; · iexists _; iexact HS0
      iintro ⟨H0, H1, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _)
          iexact HR
        iexact Hg
      isplitl [Ho]; · iexact Ho
      isplitl [H0]; · iexact H0
      isplitl [H1]; · iexact H1
      unfold owns; iexists _; isplitr
      swap; · iexact HO
      ipureintro; exact View.read_writes_of_cover _ _ _ _ _ (cover2_A_2 c _ _ _ _ _ _ _ _ _ _ _ _)
  · rw [outsAt2_B V c t h0]
    unfold outB2 soutB2 out2_B_2 sout2_B_0; (try dsimp only)
    have hz : t.val ≠ 0 := fun hz => h0 (by rw [hz])
    ·
      rw [PhiS2_castSucc V c t, PhiS2_pos V c _ _ hz]
      iintro ⟨⟨⟨HS0, HR⟩, Hg⟩, Ho, ⟨%d0, H0⟩, ⟨%d1, H1⟩, ⟨%dO, HO⟩⟩
      iapply ((kernelRun2_B c (grid2.coords t) _ _ _ _ _ _ _ _ (fun h => h0 ((hcond2_0 t).mp h)) (iblk2 V c 0 t) (iblk2 V c 1 t) _).2.2 Set.univ _)
      isplitl [H0]; · iexact H0
      isplitl [H1]; · iexact H1
      isplitl [HO]; · iexists _; iexact HO
      isplitl [HS0]; · iexact HS0
      iintro ⟨H0, H1, ⟨%eO, HO⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _)
          iexact HR
        iexact Hg
      isplitl [Ho]; · iexact Ho
      isplitl [H0]; · iexact H0
      isplitl [H1]; · iexact H1
      unfold owns; iexists _; isplitr
      swap; · iexact HO
      ipureintro; exact View.read_writes_of_cover _ _ _ _ _ (cover2_B_2 c _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have hN : cfg2.N = 8 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HR⟩, Hg⟩
  isplitl [HS0 HR]
  · isplitl [HS0]
    · iexists _; iexact HS0
    iexact HR
  iexact Hg

end Cert.Kernel.Hand

end
-- ==== Proof.BR2Entry.lean ====
/-
  (For the word-level program.  Nothing below depends on what a float value is: every statement holds at any
  float instance.)
  Region 2's arrays at the two ends.  Its two input windows read ONE array (the padded normalised memory); the third
  window is the output.  At entry the buffer behind the shared array, held whole at the full share, is dealt to the
  two windows in halves; at exit the halves are joined again, and the output array is held at what the write-back left.
-/
import proofs.«122163_j54013508714894_2_alg».proof.Proof.BR2Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY: the two distinct buffers behind region 2's arrays, at the entry contents, make the proof data's arrays. -/
theorem entry2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  unfold Pipeline.arrBufs Dat.arrays
  rw [bigSep_eq_bigSepL_of_eq [main_v14, main_v15] (by decide) (by decide), bigSep_W2]
  simp only [bigSepL, View.set_whole]
  rw [show (dat2 V c).share 0 = fullShare.left from rfl, show (dat2 V c).share 1 = fullShare.right from rfl,
    show (dat2 V c).share 2 = fullShare from rfl]
  show (iprop(_ ∗ _) : sProp 𝕄) ⊢ _
  iintro ⟨Ha, Hb⟩
  ihave Hs := (pointsTo_share (PosShare.mem_left_op_right fullShare)).1 $$ Ha
  icases Hs with ⟨Hl, Hr⟩
  isplitl [Hl]; · iexact Hl
  isplitl [Hr]; · iexact Hr
  iexact Hb

/-- EXIT: the proof data's arrays at their final contents make the two buffers at any contents `V'` that hold the
    output array at what the write-back left and agree with the entry contents on the shared input array. -/
theorem exit2 (c : Dev nD) (V' : (b : Ref sig .tc) → Buf (Elt F) ((c : Thread nD τ).loc b))
    (h15 : V' main_v15 = (dat2 V c).arrAt 2 cfg2.N) (h14 : V' main_v14 = V c main_v14) :
    (dat2 V c).arrays ((dat2 V c).arrAt · cfg2.N)
      ⊢ (Pipeline.arrBufs (Ix := Unit) (Name := ℕ) (U := UR sig nD τ) (Lvl := ℕ) spec2 c V' : sProp 𝕄) := by
  unfold Pipeline.arrBufs Dat.arrays
  rw [bigSep_eq_bigSepL_of_eq [main_v14, main_v15] (by decide) (by decide), bigSep_W2]
  simp only [bigSepL, View.set_whole]
  rw [show (dat2 V c).share 0 = fullShare.left from rfl, show (dat2 V c).share 1 = fullShare.right from rfl,
    show (dat2 V c).share 2 = fullShare from rfl, h15, h14]
  try dsimp only
  rw [(dat2 V c).arrAt_in 0 rfl, (dat2 V c).arrAt_in 1 rfl]
  show _ ⊢ (iprop(_ ∗ _) : sProp 𝕄)
  iintro ⟨Hl, Hr, Hb⟩
  isplitl [Hl Hr]
  · iapply (pointsTo_share (PosShare.mem_left_op_right fullShare)).2
    isplitl [Hl]; · iexact Hl
    iexact Hr
  iexact Hb

end Cert.Kernel.Hand

end
-- ==== Proof.BRun.lean ====
/-
  (For the word-level program.  Nothing below depends on what a float value is: every statement holds at any
  float instance.)
  The whole program as a run of ten segments — seven stretches of host operations and the three pallas_calls —
  and what every unscoped buffer holds when it returns.
  The contents at each segment boundary are a fold from the launch memory: a host stretch applies its operations;
  a region leaves its output array at what its write-backs fold to and every other buffer as it found it.  Each
  region is a segment over the thread state "every unscoped buffer at the boundary's contents, the generator
  register at some state, nothing owed", built from that region's proof data and body obligation.  The run then
  says: every weakly fair execution terminates, nothing faulting, with every unscoped buffer at the last
  boundary's contents.
-/
import proofs.«122163_j54013508714894_2_alg».proof.Proof.BR0Frame
import proofs.«122163_j54013508714894_2_alg».proof.Proof.BR1Frame
import proofs.«122163_j54013508714894_2_alg».proof.Proof.BR2Entry
import proofs.«122163_j54013508714894_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

abbrev W0 : Dev nD → Valuation τ sig (Elt F) := fun c b => m (c, b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its arrays at what the pipeline leaves (the inputs as entered, the output's write-backs
    folded), every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- At region 1's exit: its arrays at what the pipeline leaves (the inputs as entered, the output's write-backs
    folded), every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev E8 : (c : Dev nD) → (b : Ref sig .tc) → Buf (Elt F) ((c : Thread nD τ).loc b) := fun c b => W8 m c b
/-- At region 2's exit: its output array at what the one write-back leaves, every other buffer as entered (both
    input windows read the same array, which no write-back touches). -/
def W9 (c : Dev nD) : Valuation τ sig (Elt F) :=
  Function.update (W8 m c) (Proc.devRef .tc main_v15) ((dat2 (E8 m) c).arrAt 2 cfg2.N)
theorem W9_v15 (c : Dev nD) : W9 m c (Proc.devRef .tc main_v15) = (dat2 (E8 m) c).arrAt 2 cfg2.N := by
  unfold W9; exact Function.update_self _ _ _
theorem W9_of_ne (c : Dev nD) (b : Ref sig .tc) (hb : b ≠ main_v15) : W9 m c (Proc.devRef .tc b) = W8 m c (Proc.devRef .tc b) := by
  unfold W9; exact Function.update_of_ne (StableHlo.devRef_ne_of_ne hb) _ _
abbrev W10 : Dev nD → Valuation τ sig (Elt F) := fun c => StableHlo.after hostOps3 (W9 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E8 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`.  Its arrays are
    split out of the unscoped buffers and put back at the exit contents; the generator register goes into the
    region invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are
    split out of the unscoped buffers and put back at the exit contents; the generator register goes into the
    region invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W8`, left at `W9`.  The two input
    windows read one array: its buffer's full share is dealt to them in halves at entry and joined again at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (E8 m c)
  hentry c := by
    rw [Pipeline.ownSems0_none]
    have hsplit : (unscopedBufs c (E8 m c) : sProp 𝕄)
        ⊢ iprop((pdats m 2 c).arrays ((pdats m 2 c).arrAt · 0) ∗ Pipeline.unscopedRest (Ix := Unit) (Name := ℕ) (U := UR sig nD τ) (Lvl := ℕ) spec2 c (E8 m c)) := by
      rw [Pipeline.PerCore.unscopedBufs_split₀ (fun _ : Dev nD => cfgs) (2 : Fin 3) c winFacts₀2.arr_unscoped (E8 m c)]
      exact sep_mono (entry2 (E8 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (E8 m) c)
    unfold Pipeline.ΦA
    iintro ⟨Hp, -, Hr⟩
    isplitl [Hr]; · iexact Hr
    iexact Hp
  hout c := by
    rw [Pipeline.ownSems0_none]
    refine (hout2 (E8 m) c).trans ?_
    unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (E8 m c))
        ⊢ (unscopedBufs c (fun b => W9 m c b) : sProp 𝕄) := by
      rw [Pipeline.PerCore.unscopedBufs_split₀ (fun _ : Dev nD => cfgs) (2 : Fin 3) c winFacts₀2.arr_unscoped (fun b => W9 m c b)]
      refine sep_mono (exit2 (E8 m) c (fun b => W9 m c b) (W9_v15 m c) (W9_of_ne m c main_v14 (by decide))) (Entails.of_eq ?_)
      unfold Pipeline.unscopedRest
      exact bigSep_congr fun b hb => by
        show (((c : Thread nD τ).loc b) ↦{fullShare} W8 m c (Proc.devRef .tc b) : sProp 𝕄) = (((c : Thread nD τ).loc b) ↦{fullShare} W9 m c (Proc.devRef .tc b))
        rw [W9_of_ne m c b (fun e => (Finset.mem_sdiff.mp hb).2 (Finset.mem_image.mpr ⟨2, Finset.mem_univ _, e.symm⟩))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .region (reg2 m),
    .host (hseg hostOps3 hostOps3_sub hostOps3_fresh (W9 m)) ]

theorem main_run (c : Dev nD) : main (F := F) c = Pipeline.Seg.run (segs m) := by
  rw [main_chain c, Pipeline.Seg.run_eq_chain]; rfl

/-- The last thread state without the `owes`. -/
abbrev Tₙ (c : Dev nD) : sProp 𝕄 := iprop(StableHlo.held (c : Thread nD τ) (Pipeline.ucRefs τ sig) (W10 m c) ∗ ∃ r, prngReg c r)

set_option backward.isDefEq.respectTransparency.types false in
/-- THE RUN: from any memory with zero counters every weakly fair execution of @main terminates, nothing faulting,
    and every unscoped buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W10 m c) ∗ ((∃ r, prngReg c r) ∗ ∃ W, owes (c : Thread nD τ) (0 : CellTallies nD τ sig Unit) W))
          ⊢ (iprop((StableHlo.held (c : Thread nD τ) (Pipeline.ucRefs τ sig) (W10 m c) ∗ ∃ r, prngReg c r) ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.BRunArgs.lean ====
/-
  (For the word-level program.  Nothing below depends on what a float value is: every statement holds at any
  float instance.)
  The argument arrays at the last segment boundary are the launch memory: no host stretch writes an argument, and a
  region changes only its output array (an argument read through an input window is handed back as it was).
-/
import proofs.«122163_j54013508714894_2_alg».proof.Proof.BRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer that no stretch writes and that is none of the regions' arrays (or is handed back by region 1 as it
    was: `h4`) reaches the end as launched. -/
theorem W10_of (c : Dev nD) (r : Ref sig .tc) (h3 : r ∉ hostOps3_W) (h15 : r ≠ main_v15) (h23 : r ∉ hostOps2_3_W)
    (h22 : r ∉ hostOps2_2_W) (h21 : r ∉ hostOps2_1_W) (h2 : r ∉ hostOps2_W)
    (h4 : W4 m c (Proc.devRef .tc r) = W3 m c (Proc.devRef .tc r)) (h1 : r ∉ hostOps1_W)
    (hr0 : ∀ w, Pipeline.arrRef spec0 w ≠ r) (h0 : r ∉ hostOps0_W) :
    W10 m c (Proc.devRef .tc r) = m ((c : Thread nD τ).loc r) :=
  calc W10 m c (Proc.devRef .tc r)
    _ = W9 m c (Proc.devRef .tc r) := StableHlo.after_of_writes_sub hostOps3 _ hostOps3_writes h3
    _ = W8 m c (Proc.devRef .tc r) := by
          unfold W9; exact Function.update_of_ne (StableHlo.devRef_ne_of_ne h15) _ _
    _ = W7 m c (Proc.devRef .tc r) := StableHlo.after_of_writes_sub hostOps2_3 _ hostOps2_3_writes h23
    _ = W6 m c (Proc.devRef .tc r) := StableHlo.after_of_writes_sub hostOps2_2 _ hostOps2_2_writes h22
    _ = W5 m c (Proc.devRef .tc r) := StableHlo.after_of_writes_sub hostOps2_1 _ hostOps2_1_writes h21
    _ = W4 m c (Proc.devRef .tc r) := StableHlo.after_of_writes_sub hostOps2 _ hostOps2_writes h2
    _ = W3 m c (Proc.devRef .tc r) := h4
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

theorem W10_main_arg0 (c : Dev nD) : W10 m c (Proc.devRef .tc main_arg0) = m ((c : Thread nD τ).loc main_arg0) :=
  W10_of m c main_arg0 (by decide) (by decide) (by decide) (by decide) (by decide) (by decide) (W4_of_ne m c main_arg0 (by decide)) (by decide) (by decide) (by decide)
theorem W10_main_arg1 (c : Dev nD) : W10 m c (Proc.devRef .tc main_arg1) = m ((c : Thread nD τ).loc main_arg1) :=
  W10_of m c main_arg1 (by decide) (by decide) (by decide) (by decide) (by decide) (by decide) (W4_of_ne m c main_arg1 (by decide)) (by decide) (by decide) (by decide)
/-- The attention matrix is region 1's input array: the region hands it back as it found it. -/
theorem W10_main_arg2 (c : Dev nD) : W10 m c (Proc.devRef .tc main_arg2) = m ((c : Thread nD τ).loc main_arg2) :=
  W10_of m c main_arg2 (by decide) (by decide) (by decide) (by decide) (by decide) (by decide)
    ((W4_arr m c 0).trans (((dat1 (E3 m) c).arrAt_in 0 rfl _).trans (A_eq1 (E3 m) c 0))) (by decide) (by decide) (by decide)
theorem W10_main_arg3 (c : Dev nD) : W10 m c (Proc.devRef .tc main_arg3) = m ((c : Thread nD τ).loc main_arg3) :=
  W10_of m c main_arg3 (by decide) (by decide) (by decide) (by decide) (by decide) (by decide) (W4_of_ne m c main_arg3 (by decide)) (by decide) (by decide) (by decide)

/-- The frame claim's post from the run: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c)⟩) (run_all m ρ)

end Cert.Kernel.Hand

end
-- ==== Proof.KBlocks.lean ====
/-
  An input window's block read at an index: the block at grid point t sits in its array, on each axis, at the block
  index times the block's size plus the coordinate inside the block.  The printed index maps are evaluated once over
  each grid: region 0's two input windows and region 1's input window step through consecutive row blocks, region 2's
  first window through the eight row blocks of the padded memory while its second window is the whole padded memory
  at every point.
-/
import proofs.«122163_j54013508714894_2_alg».proof.Proof.R0Frame
import proofs.«122163_j54013508714894_2_alg».proof.Proof.R1Frame
import proofs.«122163_j54013508714894_2_alg».proof.Proof.R2Frame
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (V : (c : Dev nD) → (b : Ref sig .tc) → Buf (Elt F) ((c : Thread nD τ).loc b))

/-! ## Region 0: six points, row block t of the two [49152,128] arrays -/

/-- Both input windows' block index at point t is (t, 0); there are six points. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 ∧ t.val < 6 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0 ∧ t.val < 6)

theorem lt0 (t : Fin cfg0.N) : t.val < 6 := (idx_facts0 t).2.2.2.2

theorem iblk0_0_apply (c : Dev nD) (t : Fin cfg0.N) (r : Fin 8192) (l : Fin 128) :
    iblk0 V c 0 t (ix2 r l) = V c main_v0 (ix2 (⟨t.val * 8192 + r.val, by have := lt0 t; omega⟩ : Fin 49152) l) := by
  obtain ⟨e0, e1, -, -, -⟩ := idx_facts0 t
  show V c main_v0 (((cfg0.win 0).blk t).view.emb (ix2 r l)) = _
  refine congrArg (V c main_v0) (funext fun a => Fin.ext ?_)
  match a with
  | ⟨0, _⟩ => show win0_0.index t (0 : Fin 2) * 8192 + 1 * r.val = t.val * 8192 + r.val; omega
  | ⟨1, _⟩ => show win0_0.index t (1 : Fin 2) * 128 + 1 * l.val = l.val; omega

theorem iblk0_1_apply (c : Dev nD) (t : Fin cfg0.N) (r : Fin 8192) (l : Fin 128) :
    iblk0 V c 1 t (ix2 r l) = V c main_v1 (ix2 (⟨t.val * 8192 + r.val, by have := lt0 t; omega⟩ : Fin 49152) l) := by
  obtain ⟨-, -, e0, e1, -⟩ := idx_facts0 t
  show V c main_v1 (((cfg0.win 1).blk t).view.emb (ix2 r l)) = _
  refine congrArg (V c main_v1) (funext fun a => Fin.ext ?_)
  match a with
  | ⟨0, _⟩ => show win0_1.index t (0 : Fin 2) * 8192 + 1 * r.val = t.val * 8192 + r.val; omega
  | ⟨1, _⟩ => show win0_1.index t (1 : Fin 2) * 128 + 1 * l.val = l.val; omega

/-! ## Region 1: thirty-two points, row block t of the [8192,2000] array -/

theorem idx_facts1 : ∀ t : Fin cfg1.N, win1_0.index t (0 : Fin 2) = t.val ∧ win1_0.index t (1 : Fin 2) = 0 ∧ t.val < 32 :=
  (by decide +kernel : ∀ t : Fin grid1.N, win1_0.index t (0 : Fin 2) = t.val ∧ win1_0.index t (1 : Fin 2) = 0 ∧ t.val < 32)

theorem lt1 (t : Fin cfg1.N) : t.val < 32 := (idx_facts1 t).2.2

theorem iblk1_0_apply (c : Dev nD) (t : Fin cfg1.N) (r : Fin 256) (k : Fin 2000) :
    iblk1 V c 0 t (ix2 r k) = V c main_arg2 (ix2 (⟨t.val * 256 + r.val, by have := lt1 t; omega⟩ : Fin 8192) k) := by
  obtain ⟨e0, e1, -⟩ := idx_facts1 t
  show V c main_arg2 (((cfg1.win 0).blk t).view.emb (ix2 r k)) = _
  refine congrArg (V c main_arg2) (funext fun a => Fin.ext ?_)
  match a with
  | ⟨0, _⟩ => show win1_0.index t (0 : Fin 2) * 256 + 1 * r.val = t.val * 256 + r.val; omega
  | ⟨1, _⟩ => show win1_0.index t (1 : Fin 2) * 2000 + 1 * k.val = k.val; omega

/-! ## Region 2: eight points, row block t of the padded memory beside the whole padded memory -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0 ∧ t.val < 8 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0 ∧ t.val < 8)

theorem lt2 (t : Fin cfg2.N) : t.val < 8 := (idx_facts2 t).2.2.2.2

theorem iblk2_0_apply (c : Dev nD) (t : Fin cfg2.N) (p : Fin 256) (k : Fin 256) :
    iblk2 V c 0 t (ix2 p k) = V c main_v14 (ix2 (⟨t.val * 256 + p.val, by have := lt2 t; omega⟩ : Fin 2048) k) := by
  obtain ⟨e0, e1, -, -, -⟩ := idx_facts2 t
  show V c main_v14 (((cfg2.win 0).blk t).view.emb (ix2 p k)) = _
  refine congrArg (V c main_v14) (funext fun a => Fin.ext ?_)
  match a with
  | ⟨0, _⟩ => show win2_0.index t (0 : Fin 2) * 256 + 1 * p.val = t.val * 256 + p.val; omega
  | ⟨1, _⟩ => show win2_0.index t (1 : Fin 2) * 256 + 1 * k.val = k.val; omega

theorem iblk2_1_apply (c : Dev nD) (t : Fin cfg2.N) (q : Fin 2048) (k : Fin 256) :
    iblk2 V c 1 t (ix2 q k) = V c main_v14 (ix2 q k) := by
  obtain ⟨-, -, e0, e1, -⟩ := idx_facts2 t
  show V c main_v14 (((cfg2.win 1).blk t).view.emb (ix2 q k)) = _
  refine congrArg (V c main_v14) (funext fun a => Fin.ext ?_)
  match a with
  | ⟨0, _⟩ => show win2_1.index t (0 : Fin 2) * 2048 + 1 * q.val = q.val; omega
  | ⟨1, _⟩ => show win2_1.index t (1 : Fin 2) * 256 + 1 * k.val = k.val; omega

end Cert.KernelIdeal.Hand

end
-- ==== Proof.Spec.lean ====
/-
  The quantity both programs compute, as one function of the argument arrays over the extended reals:

    loss = (SSE / 6291456 - 0.0002 * REG) + COS

  * SSE is the sum over all 32*3*256*256 entries of (ground_truth - output)^2;
  * REG is the sum over the 8192 rows x of att of the row's entropy term, written with the row's
    supremum M = sup_k x_k as shift:  (sum_k e^(x_k - M) (x_k - M)) / (sum_k e^(x_k - M)) - log (sum_k e^(x_k - M));
  * COS is the sum over pairs i < j of rows of the normalised memory U of their inner product.

  The two float literals stay words (`Ideal.ofBits`): the same words appear in both programs.
-/
import Idealize.ShloMosaic.PureOps.Ideal
import Idealize.ShloMosaic.Lib.ValueIdx

noncomputable section

namespace Cert.MemAE

open Idealize.ShloMosaic Idealize.ShloMosaic.ValueIdx

/-- The sum of squared differences over every entry of the two rank-4 arrays. -/
def sse (out gt : (⟨4, ![32, 3, 256, 256]⟩ : Shape).Idx → EReal) : EReal :=
  ∑ i, (gt i - out i) * (gt i - out i)

/-- One row's entropy term, shifted by the row's supremum. -/
def rowTerm {n : ℕ} (x : Fin n → EReal) : EReal :=
  Ideal.div (∑ k, Ideal.exp (x k - ⨆ j, x j) * (x k - ⨆ j, x j)) (∑ k, Ideal.exp (x k - ⨆ j, x j))
    - Ideal.log (∑ k, Ideal.exp (x k - ⨆ j, x j))

/-- The entropy regulariser: the sum of the rows' terms. -/
def reg (att : (⟨2, ![8192, 2000]⟩ : Shape).Idx → EReal) : EReal :=
  ∑ r : Fin 8192, rowTerm (fun k : Fin 2000 => att (ix2 r k))

/-- The sum over pairs of rows i < j of the normalised memory of their inner product. -/
def cosSum (U : (⟨2, ![2000, 256]⟩ : Shape).Idx → EReal) : EReal :=
  ∑ i : Fin 2000, ∑ j : Fin 2000, if i < j then ∑ k : Fin 256, U (ix2 i k) * U (ix2 j k) else 0

/-- The loss from its three parts. -/
def combine (s r c : EReal) : EReal :=
  (Ideal.div s (Ideal.ofBits .f32 0x4AC00000#32) - Ideal.ofBits .f32 0x3951B717#32 * r) + c

/-- The whole loss. -/
def loss (out gt : (⟨4, ![32, 3, 256, 256]⟩ : Shape).Idx → EReal) (att : (⟨2, ![8192, 2000]⟩ : Shape).Idx → EReal)
    (U : (⟨2, ![2000, 256]⟩ : Shape).Idx → EReal) : EReal :=
  combine (sse out gt) (reg att) (cosSum U)

end Cert.MemAE

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColReduce.lean ====
/-
  Column reductions of a matrix, and a matrix summed to one number the way a kernel keeps dimensions.

  A reduction of an `[m, n]` array over its FIRST axis leaves one value per column.  Read at column `q`, the source
  indices that reduce to it are `(k, q)` for `k : Fin m`, so a kernel's column sum is `∑ k, x (k, q)`.

  A kernel that sums a whole `[m, n]` array one axis at a time, keeping the reduced axes as unit axes
  (`[m, n] → [m] → [m, 1] → [1] → [1, 1]`), ends with the double sum `∑ p, ∑ k, x (p, k)` at its one entry.
-/
import proofs.«122163_j54013508714894_2_alg».proof.Proof.LibRowReduce

noncomputable section

namespace Idealize.ShloMosaic.ColReduce

open Idealize.ShloMosaic Idealize.ShloMosaic.ValueIdx

/-- The source index over column `q` with coordinate `k` on the reduced first axis is `(k, q)`. -/
theorem lift_col {m n : ℕ} (h : (⟨2, ![m, n]⟩ : Shape).Reduces [0] ⟨1, ![n]⟩) (q : Fin n) (k : Fin m) :
    h.lift (ix1 q) k = ix2 k q := by
  funext c
  apply Fin.ext
  refine (h.lift_val (ix1 q) k c).trans ?_
  match c with
  | ⟨0, _⟩ => rfl
  | ⟨1, _⟩ => rfl

/-- A kernel's column sum at column `q`. -/
theorem multiReduction_add_col {m n : ℕ} {φ : FTy} (x : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (q : Fin n) :
    multiReduction .add [0] ⟨1, ![n]⟩ x acc h hφ hacc (ix1 q) = ∑ k : Fin m, x (ix2 k q) := by
  refine (Ideal.multiReduction_add_single x acc h hφ hacc (ix1 q)).trans ?_
  exact Finset.sum_congr rfl fun k _ => congrArg x (lift_col h q k)

/-- An `[m, n]` array summed over its second axis, kept as a column, summed over its first axis, kept as a `[1, 1]`
    array: its one entry is the sum of every entry of the array, rows outermost. -/
theorem keepdims_total {m n : ℕ} {φ : FTy} (x : FVec Ideal ⟨2, ![m, n]⟩ φ) (acc acc' : BitVec φ.bits)
    (h1 : (⟨2, ![m, n]⟩ : Shape).Reduces [1] ⟨1, ![m]⟩) (hφ : FKind.Formats φ) (hacc : acc = FKind.add.neutral φ hφ)
    (c1 : (⟨1, ![m]⟩ : Shape).ShapeCasts ⟨2, ![m, 1]⟩)
    (h0 : (⟨2, ![m, 1]⟩ : Shape).Reduces [0] ⟨1, ![1]⟩) (hφ' : FKind.Formats φ) (hacc' : acc' = FKind.add.neutral φ hφ')
    (c0 : (⟨1, ![1]⟩ : Shape).ShapeCasts ⟨2, ![1, 1]⟩) :
    shapeCast ⟨2, ![1, 1]⟩
        (multiReduction .add [0] ⟨1, ![1]⟩
          (shapeCast ⟨2, ![m, 1]⟩ (multiReduction .add [1] ⟨1, ![m]⟩ x acc h1 hφ hacc) c1) acc' h0 hφ' hacc') c0
        (ix2 (0 : Fin 1) (0 : Fin 1))
      = ∑ p : Fin m, ∑ k : Fin n, x (ix2 p k) := by
  refine (RowReduce.shapeCast_a_a1_apply _ c0 (0 : Fin 1) (0 : Fin 1)).trans ?_
  refine (multiReduction_add_col _ acc' h0 hφ' hacc' (0 : Fin 1)).trans ?_
  refine Finset.sum_congr rfl fun p _ => ?_
  refine (RowReduce.shapeCast_a_a1_apply _ c1 p (0 : Fin 1)).trans ?_
  exact RowReduce.multiReduction_add_row x acc h1 hφ hacc p

end Idealize.ShloMosaic.ColReduce

end
-- ==== Proof.Payloads.lean ====
/-
  The three kernels' accumulating stores, read over the extended reals.

  Each of the three kernel bodies keeps a one-entry running total.  Its first grid step writes zero into it, every
  step adds its block's partial sum to it, and the last store copies the total out through a cast that only adds a
  unit axis.  Here the zero, the copy, and the first kernel's partial sum — the sum over the block's 8192 x 128
  entries of the squared difference of the two operands — are read at the one index of the total.
-/
import proofs.«122163_j54013508714894_2_alg».proof.Proof.Gen.KernelIdeal.Skeleton
import proofs.«122163_j54013508714894_2_alg».proof.Proof.Spec
import proofs.«122163_j54013508714894_2_alg».proof.Proof.LibColReduce
import Idealize.ShloMosaic.Lib.ValueIdx
import Idealize.ShloMosaic.Lib.ValueLayout
import Idealize.ShloMosaic.Lib.Pipeline.Value
import Idealize.ShloMosaic.PureOps.Ideal.Laws

noncomputable section

namespace Cert.MemAE

open Idealize.ShloMosaic Idealize.ShloMosaic.ValueIdx Cert.KernelIdeal Cert.KernelIdeal.Gen

/-! ## The one-entry shapes -/

/-- A 1 x 1 array has one index. -/
theorem idx_1x1 (j : (⟨2, ![1, 1]⟩ : Shape).Idx) : j = ix2 (0 : Fin 1) (0 : Fin 1) := by
  funext a
  apply Fin.ext
  match a with
  | ⟨0, _⟩ => have := idx2_lt0 j; show (j 0).val = 0; omega
  | ⟨1, _⟩ => have := idx2_lt1 j; show (j 1).val = 0; omega

/-- A 1 x 1 array cast to 1 x 1 x 1 reads its one entry everywhere. -/
theorem cast_1x1_1x1x1 {α : Type} (v : (⟨2, ![1, 1]⟩ : Shape).Idx → α)
    (h : (⟨2, ![1, 1]⟩ : Shape).ShapeCasts ⟨3, ![1, 1, 1]⟩) (j : (⟨3, ![1, 1, 1]⟩ : Shape).Idx) :
    shapeCast ⟨3, ![1, 1, 1]⟩ v h j = v (ix2 (0 : Fin 1) (0 : Fin 1)) := by
  refine shapeCast_apply v h j (ix2 (0 : Fin 1) (0 : Fin 1)) ?_
  have h1 := ((⟨2, ![1, 1]⟩ : Shape).rowMajor (ix2 (0 : Fin 1) (0 : Fin 1))).isLt
  have h2 := ((⟨3, ![1, 1, 1]⟩ : Shape).rowMajor j).isLt
  have e1 : (⟨2, ![1, 1]⟩ : Shape).numel = 1 := by decide
  have e2 : (⟨3, ![1, 1, 1]⟩ : Shape).numel = 1 := by decide
  omega

/-! ## The zero a first grid step writes -/

/-- The first kernel's initial total is zero. -/
theorem pay1_0 : (k0_pay1 (F := Ideal)) = fun _ => (0 : EReal) := by
  unfold k0_pay1
  refine (shapeCast_self _ _).trans ?_
  funext j
  exact Ideal.ofBits_zero_f32

/-- The second kernel's initial total is zero. -/
theorem pay1_1 : (k1_pay1 (F := Ideal)) = fun _ => (0 : EReal) := by
  unfold k1_pay1
  refine (shapeCast_self _ _).trans ?_
  funext j
  exact Ideal.ofBits_zero_f32

/-- The third kernel's initial total is zero. -/
theorem pay1_2 : (k2_pay1 (F := Ideal)) = fun _ => (0 : EReal) := by
  unfold k2_pay1
  refine (shapeCast_self _ _).trans ?_
  funext j
  exact Ideal.ofBits_zero_f32

/-! ## The copy of the total into the output block -/

/-- The first kernel's output block holds the total. -/
theorem pay3_0 (v : Vec Ideal S1x1 .f32) : k0_pay3 (F := Ideal) v = fun _ => v (ix2 0 0) := by
  unfold k0_pay3
  funext j
  exact cast_1x1_1x1x1 v _ j

/-- The second kernel's output block holds the total. -/
theorem pay3_1 (v : Vec Ideal S1x1 .f32) : k1_pay3 (F := Ideal) v = fun _ => v (ix2 0 0) := by
  unfold k1_pay3
  funext j
  exact cast_1x1_1x1x1 v _ j

/-! ## The first kernel's step: the block's sum of squared differences -/

/-- One block's sum of squared differences. -/
def part0 (x0 x1 : Vec Ideal S8192x128 .f32) : EReal :=
  ∑ r : Fin 8192, ∑ l : Fin 128, (x0 (ix2 r l) - x1 (ix2 r l)) * (x0 (ix2 r l) - x1 (ix2 r l))

/-- The first kernel's step adds the block's sum of squared differences to the total. -/
theorem pay2_0 (x0 x1 : Vec Ideal S8192x128 .f32) (s : Vec Ideal S1x1 .f32) :
    k0_pay2 (F := Ideal) x0 x1 s = fun _ => s (ix2 0 0) + part0 x0 x1 := by
  unfold k0_pay2
  refine (shapeCast_self _ _).trans ?_
  funext j
  rw [idx_1x1 j]
  refine congrArg (s (ix2 (0 : Fin 1) (0 : Fin 1)) + ·) ?_
  refine (ColReduce.keepdims_total _ _ _ _ _ _ _ _ _ _ _).trans ?_
  unfold part0
  refine Finset.sum_congr rfl fun r _ => Finset.sum_congr rfl fun l _ => ?_
  rw [shapeCast_self x0, shapeCast_self x1]
  rfl

end Cert.MemAE

end
-- ==== Proof.PeriodicAcc.lean ====
/-
  A running total over the steps of a grid that is reset every `P` steps.

  The total is set to `0 + a n` at every step `n` that is a multiple of `P` and is given `a n` more at every other
  step.  After step `q * P + i`, `i < P`, it holds the sum of `a (q * P) … a (q * P + i)`; after the last step of a
  period it holds the sum over the period.  Only associativity and `0 + x = x` are used, so this holds on the extended
  reals with their infinities.
-/
import Mathlib.Algebra.BigOperators.Fin

noncomputable section

namespace Cert.MemAE

variable {M : Type*} [AddCommMonoid M]

/-- The total after step `n`. -/
def periodicAcc (P : ℕ) (a : ℕ → M) : ℕ → M
  | 0 => 0 + a 0
  | n + 1 => if (n + 1) % P = 0 then 0 + a (n + 1) else periodicAcc P a n + a (n + 1)

/-- At a multiple of the period the total starts again. -/
theorem periodicAcc_reset (P : ℕ) (a : ℕ → M) (n : ℕ) (h : n % P = 0) : periodicAcc P a n = 0 + a n := by
  cases n with
  | zero => rfl
  | succ n => exact if_pos h

/-- At any other step it grows by the step's term. -/
theorem periodicAcc_step (P : ℕ) (a : ℕ → M) (n : ℕ) (h : ¬(n + 1) % P = 0) :
    periodicAcc P a (n + 1) = periodicAcc P a n + a (n + 1) := if_neg h

/-- Inside period `q` the total is the sum of the period's terms so far. -/
theorem periodicAcc_block (P : ℕ) (a : ℕ → M) (q i : ℕ) (hi : i < P) :
    periodicAcc P a (q * P + i) = ∑ k ∈ Finset.range (i + 1), a (q * P + k) := by
  induction i with
  | zero =>
    rw [periodicAcc_reset P a _ (by rw [Nat.add_zero, Nat.mul_mod_left]), Finset.sum_range_one, zero_add]
  | succ i ih =>
    have hne : ¬(q * P + i + 1) % P = 0 := by
      have e : (q * P + i + 1) % P = i + 1 := by
        rw [Nat.add_assoc, Nat.add_comm, Nat.add_mul_mod_self_right, Nat.mod_eq_of_lt hi]
      omega
    show periodicAcc P a (q * P + i + 1) = _
    rw [periodicAcc_step P a (q * P + i) hne, ih (by omega), Finset.sum_range_succ _ (i + 1)]
    rfl

/-- After the last step of period `q` the total is the sum over the period. -/
theorem periodicAcc_last (P : ℕ) (a : ℕ → M) (q p : ℕ) (hp : p + 1 = P) :
    periodicAcc P a (q * P + p) = ∑ k : Fin P, a (q * P + k.val) := by
  subst hp
  rw [periodicAcc_block (p + 1) a q p (by omega), Finset.sum_range]

end Cert.MemAE

end
-- ==== Proof.ZeroOffsets.lean ====
/-
  The all-zero offset vectors of rank two and three are the constant-zero function: a block loaded or stored whole
  sits at these offsets.
-/
import Mathlib.Data.Fin.VecNotation

namespace Cert.MemAE

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

end Cert.MemAE
-- ==== Proof.R0Value.lean ====
/-
  Region 0 (the sum of squared differences): the value of its output array.

  The body's stores are read back as the skeleton's payloads: the first step of a core leaves in the accumulator the
  step's payload over the zeroed accumulator, a later step the payload over the accumulator it found, and each step
  copies the accumulator into the output's staging buffer.  Over the extended reals the payloads are sums, so after
  point `n` both buffers hold the running total, reset every three points, of the points' sums of squared
  differences.  The output window is written back after each core's third point, into the core's own entry of the
  [2, 1, 1] array: that entry ends holding the sum over the core's three blocks.
-/
import proofs.«122163_j54013508714894_2_alg».proof.Proof.R0Frame
import proofs.«122163_j54013508714894_2_alg».proof.Proof.Payloads
import proofs.«122163_j54013508714894_2_alg».proof.Proof.PeriodicAcc
import proofs.«122163_j54013508714894_2_alg».proof.Proof.ZeroOffsets
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.MemAE (periodicAcc periodicAcc_reset periodicAcc_step periodicAcc_last hz2 hz3)

variable {F : FTy → Type} [FloatOps F]

/-! ## What each case's stores leave -/

/-- Case A leaves in the accumulator the step's payload over the zeroed accumulator. -/
theorem sout0_A_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (x0 x1 : Vec F S8192x128 .f32) :
    sout0_A_0 c i arg2 harg2 arg3 harg3 arg4 harg4 arg5 harg5 hc0 x0 x1 = k0_pay2 x0 x1 k0_pay1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_cons_unit_zero (S := S1x1) hz2, View.readCov_cons_toLoadRect]
  simp only [View.readAt_eq_ld, harg2.read_unread, harg3.read_unread, View.ld_unit_zero (S := S8192x128) hz2]

/-- Case A leaves in the output's buffer the cast of that accumulator. -/
theorem out0_A_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : cond0_0 i) (x0 x1 : Vec F S8192x128 .f32) :
    out0_A_2 c i arg2 harg2 arg3 harg3 arg4 harg4 arg5 harg5 hc0 x0 x1 = k0_pay3 (k0_pay2 x0 x1 k0_pay1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero (S := S1x1x1) hz3, View.readCov_cons_toLoadRect, View.readCov_cons_toLoadRect]
  simp only [View.readAt_eq_ld, harg2.read_unread, harg3.read_unread, View.ld_unit_zero (S := S8192x128) hz2]

/-- Case B leaves in the accumulator the step's payload over the accumulator it found. -/
theorem sout0_B_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (x0 x1 : Vec F S8192x128 .f32) (xs0 : Vec F S1x1 .f32) :
    sout0_B_0 c i arg2 harg2 arg3 harg3 arg4 harg4 arg5 harg5 hc0 x0 x1 xs0 = k0_pay2 x0 x1 xs0 := by
  unfold sout0_B_0
  rw [View.read_writes_eq_canon _ _ _ (scover0_B_0 c i arg2 harg2 arg3 harg3 arg4 harg4 arg5 harg5 hc0 x0 x1 xs0)]
  unfold kernelRun0_B
  dsimp only
  sl_unfold_words
  rw [View.canon_unit_zero (S := S1x1) hz2]
  simp only [View.readAt_eq_ld, harg2.read_unread, harg3.read_unread, harg5.read_unread,
    View.ld_unit_zero (S := S8192x128) hz2, View.ld_unit_zero (S := S1x1) hz2]

/-- Case B leaves in the output's buffer the cast of that accumulator. -/
theorem out0_B_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (x0 x1 : Vec F S8192x128 .f32) (xs0 : Vec F S1x1 .f32) :
    out0_B_2 c i arg2 harg2 arg3 harg3 arg4 harg4 arg5 harg5 hc0 x0 x1 xs0 = k0_pay3 (k0_pay2 x0 x1 xs0) := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero (S := S1x1x1) hz3, View.readCov_cons_toLoadRect]
  simp only [View.readAt_eq_ld, harg2.read_unread, harg3.read_unread, harg5.read_unread,
    View.ld_unit_zero (S := S8192x128) hz2, View.ld_unit_zero (S := S1x1) hz2]

/-! ## The running total over the extended reals -/

section AtIdeal

variable (V : (c : Dev nD) → (b : Ref sig .tc) → Buf (Elt Ideal) ((c : Thread nD τ).loc b))

/-- Point `n`'s term: the sum of squared differences of its two blocks (zero past the grid). -/
def term0 (c : Dev nD) (n : ℕ) : EReal :=
  if h : n < cfg0.N then Cert.MemAE.part0 (iblk0 V c 0 ⟨n, h⟩) (iblk0 V c 1 ⟨n, h⟩) else 0

theorem term0_val (c : Dev nD) (t : Fin cfg0.N) :
    term0 V c t.val = Cert.MemAE.part0 (iblk0 V c 0 t) (iblk0 V c 1 t) := dif_pos t.isLt

theorem soutA0_val (c : Dev nD) (t : Fin cfg0.N) (h0 : t.val % 3 = 0) :
    soutA0 V c t h0 = fun _ => 0 + term0 V c t.val := by
  unfold soutA0
  refine (sout0_A_eq (F := Ideal) c (grid0.coords t) (ms0_0 t) (hs0_0 t) (ms0_1 t) (hs0_1 t) (ms0_2 t) (hs0_2 t) scM0_0
    (Memref.isWhole_whole _) ((hcond0_0 t).mpr h0) (iblk0 V c 0 t) (iblk0 V c 1 t)).trans ?_
  refine (Cert.MemAE.pay2_0 (iblk0 V c 0 t) (iblk0 V c 1 t) (k0_pay1 (F := Ideal))).trans ?_
  refine funext fun _ => ?_
  rw [term0_val]
  exact congrArg (· + Cert.MemAE.part0 (iblk0 V c 0 t) (iblk0 V c 1 t))
    (congrFun Cert.MemAE.pay1_0 (ix2 (0 : Fin 1) (0 : Fin 1)))

theorem outA0_val (c : Dev nD) (t : Fin cfg0.N) (h0 : t.val % 3 = 0) :
    outA0 V c t h0 = fun _ => 0 + term0 V c t.val := by
  unfold outA0
  refine (out0_A_eq (F := Ideal) c (grid0.coords t) (ms0_0 t) (hs0_0 t) (ms0_1 t) (hs0_1 t) (ms0_2 t) (hs0_2 t) scM0_0
    (Memref.isWhole_whole _) ((hcond0_0 t).mpr h0) (iblk0 V c 0 t) (iblk0 V c 1 t)).trans ?_
  refine (Cert.MemAE.pay3_0 _).trans ?_
  refine funext fun _ => ?_
  refine (congrFun (Cert.MemAE.pay2_0 (iblk0 V c 0 t) (iblk0 V c 1 t) (k0_pay1 (F := Ideal))) _).trans ?_
  rw [term0_val]
  exact congrArg (· + Cert.MemAE.part0 (iblk0 V c 0 t) (iblk0 V c 1 t))
    (congrFun Cert.MemAE.pay1_0 (ix2 (0 : Fin 1) (0 : Fin 1)))

theorem soutB0_val (c : Dev nD) (t : Fin cfg0.N) (h0 : ¬t.val % 3 = 0) (xs : Vec Ideal S1x1 .f32) :
    soutB0 V c t h0 xs = fun _ => xs (ix2 0 0) + term0 V c t.val := by
  unfold soutB0
  refine (sout0_B_eq (F := Ideal) c (grid0.coords t) (ms0_0 t) (hs0_0 t) (ms0_1 t) (hs0_1 t) (ms0_2 t) (hs0_2 t) scM0_0
    (Memref.isWhole_whole _) (fun h => h0 ((hcond0_0 t).mp h)) (iblk0 V c 0 t) (iblk0 V c 1 t) xs).trans ?_
  refine (Cert.MemAE.pay2_0 (iblk0 V c 0 t) (iblk0 V c 1 t) xs).trans ?_
  refine funext fun _ => ?_
  rw [term0_val]

theorem outB0_val (c : Dev nD) (t : Fin cfg0.N) (h0 : ¬t.val % 3 = 0) (xs : Vec Ideal S1x1 .f32) :
    outB0 V c t h0 xs = fun _ => xs (ix2 0 0) + term0 V c t.val := by
  unfold outB0
  refine (out0_B_eq (F := Ideal) c (grid0.coords t) (ms0_0 t) (hs0_0 t) (ms0_1 t) (hs0_1 t) (ms0_2 t) (hs0_2 t) scM0_0
    (Memref.isWhole_whole _) (fun h => h0 ((hcond0_0 t).mp h)) (iblk0 V c 0 t) (iblk0 V c 1 t) xs).trans ?_
  refine (Cert.MemAE.pay3_0 _).trans ?_
  refine funext fun _ => ?_
  refine (congrFun (Cert.MemAE.pay2_0 (iblk0 V c 0 t) (iblk0 V c 1 t) xs) _).trans ?_
  rw [term0_val]

/-- After point `n` the accumulator and the output's staging buffer both hold the running total. -/
theorem outsAt0_val (c : Dev nD) : ∀ (n : ℕ) (hn : n < cfg0.N),
    (outsAt0 V c n hn).2 = (fun _ => periodicAcc 3 (term0 V c) n)
      ∧ (outsAt0 V c n hn).1 = (fun _ => periodicAcc 3 (term0 V c) n)
  | 0, hn => by
    have e := outsAt0_A V c ⟨0, hn⟩ (Nat.zero_mod 3)
    rw [show outsAt0 V c 0 hn = _ from e, periodicAcc_reset 3 _ 0 (Nat.zero_mod 3)]
    exact ⟨soutA0_val V c ⟨0, hn⟩ (Nat.zero_mod 3), outA0_val V c ⟨0, hn⟩ (Nat.zero_mod 3)⟩
  | n + 1, hn => by
    by_cases h0 : (n + 1) % 3 = 0
    · have e := outsAt0_A V c ⟨n + 1, hn⟩ h0
      rw [show outsAt0 V c (n + 1) hn = _ from e, periodicAcc_reset 3 _ _ h0]
      exact ⟨soutA0_val V c ⟨n + 1, hn⟩ h0, outA0_val V c ⟨n + 1, hn⟩ h0⟩
    · have e := outsAt0_B V c ⟨n + 1, hn⟩ h0
      have ih : (outsAt0 V c ((⟨n + 1, hn⟩ : Fin cfg0.N).val - 1)
          (Nat.lt_of_le_of_lt (Nat.sub_le _ _) (⟨n + 1, hn⟩ : Fin cfg0.N).isLt)).2
            = fun _ => periodicAcc 3 (term0 V c) n := (outsAt0_val c n (Nat.lt_of_succ_lt hn)).1
      rw [show outsAt0 V c (n + 1) hn = _ from e, ih, periodicAcc_step 3 _ _ h0]
      exact ⟨soutB0_val V c ⟨n + 1, hn⟩ h0 _, outB0_val V c ⟨n + 1, hn⟩ h0 _⟩

/-! ## The output array -/

/-- The output window's block index at a point: the core's number, then zeros. -/
theorem idx0_2 : ∀ t : Fin cfg0.N, win0_2.index t (0 : Fin 3) = t.val / 3 ∧ win0_2.index t (1 : Fin 3) = 0
    ∧ win0_2.index t (2 : Fin 3) = 0 :=
  (by decide +kernel : ∀ t : Fin grid0.N, win0_2.index t (0 : Fin 3) = t.val / 3 ∧ win0_2.index t (1 : Fin 3) = 0
    ∧ win0_2.index t (2 : Fin 3) = 0)

/-- The array's entry for core `q`: the sum over the core's three points. -/
def G0 (c : Dev nD) : S2x1x1.Idx → EReal := fun j => ∑ i : Fin 3, term0 V c ((j 0).val * 3 + i.val)

/-- What a writing-back point writes is its block of `G0`. -/
theorem flushed0_eq (c : Dev nD) (t : Fin cfg0.N) (hf : (cfg0.win 2).flush t = true) :
    (dat0 V c).flushed 2 t = ((cfg0.win 2).blk t).view.read (Elt Ideal) (G0 V c) := by
  have h2 : t.val % 3 = 2 := (flush0_2 t).mp hf
  obtain ⟨e0, -, -⟩ := idx0_2 t
  show (cfg0.win 2).cut (grid0.coords t) ((dat0 V c).after 2 t) = _
  rw [after0_2, (outsAt0_val V c t.val t.isLt).2]
  funext y
  rw [View.read_apply]
  show periodicAcc 3 (term0 V c) t.val = G0 V c (((cfg0.win 2).blk t).view.emb y)
  have hq : t.val = t.val / 3 * 3 + 2 := by omega
  refine (congrArg (periodicAcc 3 (term0 V c)) hq).trans ?_
  refine (periodicAcc_last 3 (term0 V c) (t.val / 3) 2 rfl).trans ?_
  unfold G0
  have hy : ((((cfg0.win 2).blk t).view.emb y) 0).val = t.val / 3 := by
    show win0_2.index t (0 : Fin 3) * 1 + 1 * (y 0).val = _
    have : (y 0).val < 1 := (y 0).isLt
    omega
  rw [hy]

theorem mem_blk0 (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- The array after the region: every entry at its core's sum. -/
theorem arr0_eq (c : Dev nD) : (dat0 V c).arrAt 2 cfg0.N = G0 V c :=
  (dat0 V c).arrAt_eq_of_cover 2 (G0 V c) (flushed0_eq V c) fun i => by
    have hN : cfg0.N = 6 := N_0
    have hi0 : (i 0 : ℕ) < 2 := (i 0).isLt
    have hi1 : (i 1 : ℕ) < 1 := (i 1).isLt
    have hi2 : (i 2 : ℕ) < 1 := (i 2).isLt
    obtain ⟨t, ht⟩ : ∃ t : Fin cfg0.N, t.val = (i 0 : ℕ) * 3 + 2 := ⟨⟨(i 0 : ℕ) * 3 + 2, by omega⟩, rfl⟩
    obtain ⟨e0, e1, e2⟩ := idx0_2 t
    refine ⟨t, (flush0_2 t).mpr (by omega), ?_⟩
    rw [mem_blk0]
    intro a
    match a with
    | ⟨0, _⟩ => show win0_2.index t (0 : Fin 3) * 1 ≤ (i 0 : ℕ) ∧ (i 0 : ℕ) < win0_2.index t (0 : Fin 3) * 1 + 1; omega
    | ⟨1, _⟩ => show win0_2.index t (1 : Fin 3) * 1 ≤ (i 1 : ℕ) ∧ (i 1 : ℕ) < win0_2.index t (1 : Fin 3) * 1 + 1; omega
    | ⟨2, _⟩ => show win0_2.index t (2 : Fin 3) * 1 ≤ (i 2 : ℕ) ∧ (i 2 : ℕ) < win0_2.index t (2 : Fin 3) * 1 + 1; omega

/-- Point `i` of core `j 0` is a point of the grid. -/
theorem pt0_lt (j : S2x1x1.Idx) (i : Fin 3) : (j 0).val * 3 + i.val < cfg0.N := by
  have hN : cfg0.N = 6 := N_0
  have hj : (j 0 : ℕ) < 2 := (j 0).isLt
  have := i.isLt
  omega

/-- The output array of region 0: core `j 0`'s entry is the sum, over the core's three points, of the sum of squared
    differences of the point's two blocks. -/
theorem X0_eq (c : Dev nD) : (dat0 V c).arrAt 2 cfg0.N = fun j : S2x1x1.Idx =>
    ∑ i : Fin 3, Cert.MemAE.part0 (iblk0 V c 0 ⟨(j 0).val * 3 + i.val, pt0_lt j i⟩)
      (iblk0 V c 1 ⟨(j 0).val * 3 + i.val, pt0_lt j i⟩) := by
  rw [arr0_eq]
  funext j
  exact Finset.sum_congr rfl fun i _ => dif_pos (pt0_lt j i)

end AtIdeal

end Cert.KernelIdeal.Hand

end
-- ==== Proof.LibMaxSup.lean ====
/-
  Maxima from minus infinity at the ideal values are suprema.

  At the ideal values a float is an extended real, `maximumf` is `max`, and the f32 pattern 0xFF800000 is minus infinity,
  the bottom element. A fold of `max` from the bottom over a finite set is the supremum over the set, so
  - a `vector.multi_reduction <maximumf>` over one axis with the accumulator 0xFF800000, read at a result index, is the
    supremum over that axis's coordinates (`multiReduction_maximumf_negInf_single`), and
  - a host `stablehlo.reduce` with a maximum body from a rank-0 constant 0xFF800000, over any list of axes, read at a
    result index, is the supremum over the operand indices that drop to it (`hostReduce_maximumf_negInf`).
  Suprema need no finiteness hypothesis and no order of evaluation.
-/
import Idealize.ShloMosaic.PureOps.Ideal
import Idealize.ShloMosaic.PureOps.Ideal.Laws
import Idealize.ShloMosaic.PureOps.Reduce
import Mathlib.Data.Finset.Fold

noncomputable section

namespace MaxSup

open Idealize.ShloMosaic

/-- The f32 pattern of minus infinity denotes the bottom of the extended reals. -/
theorem neg_inf_f32 : Ideal.ofBits .f32 0xFF800000#32 = (⊥ : EReal) := by
  simp [Ideal.ofBits, Ideal.ieee]

/-- The same, spelt with the float operations' own `ofBits` read at the ideal values. -/
theorem neg_inf_f32' : (FloatOps.ofBits .f32 0xFF800000#32 : Ideal .f32) = (⊥ : EReal) := neg_inf_f32

/-- The fold of max from the bottom over a finite set is the supremum over the set. -/
theorem fold_max_bot_eq {ι : Type} (s : Finset ι) (f : ι → EReal) :
    s.fold max ⊥ f = ⨆ i, ⨆ _ : i ∈ s, f i := by
  apply le_antisymm
  · exact (Finset.fold_max_le _).mpr ⟨bot_le, fun i hi => le_iSup₂_of_le i hi le_rfl⟩
  · exact iSup₂_le fun i hi => (Finset.le_fold_max _).mpr (Or.inr ⟨i, hi, le_rfl⟩)

/-- Over a whole finite type it is the supremum over the type. -/
theorem fold_max_bot_univ {ι : Type} [Fintype ι] (f : ι → EReal) :
    (Finset.univ : Finset ι).fold max ⊥ f = ⨆ i, f i := by
  rw [fold_max_bot_eq]
  exact iSup_congr fun i => iSup_pos (Finset.mem_univ i)

/-- A `vector.multi_reduction <maximumf>` over ONE axis from minus infinity, read at the ideal values at a result index
    `j`: the supremum, over that axis's coordinates `k`, of the source at `j` with `k` inserted on the reduced axis. The
    accumulator's proof is typed as a printed program carries it. -/
theorem multiReduction_maximumf_negInf_single {s t : Shape} {a : Fin s.rank} (src : FVec Ideal s .f32)
    (h : s.Reduces [a] t) (hφ : FKind.Formats .f32)
    (hacc : (0xFF800000#32 : BitVec 32) = FKind.maximumf.neutral .f32 hφ) (j : t.Idx) :
    multiReduction (F := Ideal) .maximumf [a] t src 0xFF800000#32 h hφ hacc j
      = ⨆ k : Fin (s.size a), src (h.lift j k) := by
  refine (Ideal.multiReduction_maximumf_single src _ h hφ hacc j).trans ?_
  rw [neg_inf_f32', fold_max_bot_univ]
  rfl

/-- A host one-operand reduce with a maximum body from a rank-0 minus infinity, over any axes, read at the ideal values
    at a result index `j`: the supremum of the operand over the indices that drop to `j`. -/
theorem hostReduce_maximumf_negInf {s t : Shape} {axes : List (Fin s.rank)} (x : s.Idx → EReal)
    (h : s.ReducesTo axes t) (hu : 0 < (⟨0, ![]⟩ : Shape).numel) (j : t.Idx) :
    Host.reduce (FloatOps.maximumf (F := Ideal) (φ := .f32)) x (constant (F := Ideal) ⟨0, ![]⟩ .f32 0xFF800000#32) h hu j
      = ⨆ i, ⨆ _ : h.drop i = j, x i := by
  rw [Host.reduce_eq_fold]
  show (Finset.univ.filter fun i => h.drop i = j).fold max (Ideal.ofBits .f32 0xFF800000#32) x = _
  rw [neg_inf_f32, fold_max_bot_eq]
  exact iSup_congr fun i => iSup_congr_Prop (by simp) (fun _ => rfl)

end MaxSup

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Payloads1.lean ====
/-
  The entropy kernel's accumulating store, read over the extended reals.

  A block holds 256 rows of 2000 entries.  For each row the kernel takes the row's maximum from minus infinity — the
  supremum M of the row —, the shifted entries x - M, their exponentials e, the row sums of e and of e (x - M), and
  forms (sum e (x - M)) / (sum e) - log (sum e); the rows' terms are then added up and added to the running total.
  Each reduction leaves a column, so every row quantity is read at the row's one column entry.
-/
import proofs.«122163_j54013508714894_2_alg».proof.Proof.Payloads
import proofs.«122163_j54013508714894_2_alg».proof.Proof.LibMaxSup
import proofs.«122163_j54013508714894_2_alg».proof.Proof.LibColumns

noncomputable section

namespace Cert.MemAE

open Idealize.ShloMosaic Idealize.ShloMosaic.ValueIdx Cert.KernelIdeal Cert.KernelIdeal.Gen

/-- A row's maximum from minus infinity, kept as a column and spread back over the row: at every entry of row `p` it is
    the supremum of the row. -/
theorem rowMax_spread_apply (x : FVec Ideal S256x2000 .f32) (h : S256x2000.Reduces [1] S256) (hφ : FKind.Formats .f32)
    (hacc : (0xFF800000#32 : BitVec 32) = FKind.maximumf.neutral .f32 hφ) (c : S256.ShapeCasts S256x1)
    (b : S256x1.Broadcasts S256x2000) (p : Fin 256) (k : Fin 2000) :
    broadcastTo S256x2000 (shapeCast S256x1 (multiReduction (F := Ideal) .maximumf [1] S256 x 0xFF800000#32 h hφ hacc) c) b (ix2 p k)
      = ⨆ j : Fin 2000, x (ix2 p j) := by
  refine (broadcastTo_a1_ab_apply _ b p k).trans ?_
  refine (RowReduce.shapeCast_a_a1_apply _ c p (0 : Fin 1)).trans ?_
  refine (MaxSup.multiReduction_maximumf_negInf_single x h hφ hacc (ix1 p)).trans ?_
  exact iSup_congr fun j => congrArg x (RowReduce.lift_row h p j)

/-- A row sum kept as a column: at row `p` it is the sum of the row's entries. -/
theorem rowSum_column_apply (y : FVec Ideal S256x2000 .f32) (h : S256x2000.Reduces [1] S256) (hφ : FKind.Formats .f32)
    (hacc : (0x00000000#32 : BitVec 32) = FKind.add.neutral .f32 hφ) (c : S256.ShapeCasts S256x1) (p : Fin 256) (u : Fin 1) :
    shapeCast S256x1 (multiReduction (F := Ideal) .add [1] S256 y 0x00000000#32 h hφ hacc) c (ix2 p u)
      = ∑ k : Fin 2000, y (ix2 p k) :=
  (RowReduce.shapeCast_a_a1_apply _ c p u).trans (RowReduce.multiReduction_add_row y _ h hφ hacc p)

/-- One block's sum of the rows' entropy terms. -/
def part1 (x : Vec Ideal S256x2000 .f32) : EReal := ∑ r : Fin 256, rowTerm (fun k : Fin 2000 => x (ix2 r k))

/-- The second kernel's step adds the block's rows' entropy terms to the total. -/
theorem pay2_1 (x : Vec Ideal S256x2000 .f32) (s : Vec Ideal S1x1 .f32) :
    k1_pay2 (F := Ideal) x s = fun _ => s (ix2 0 0) + part1 x := by
  unfold k1_pay2
  refine (shapeCast_self _ _).trans ?_
  funext j
  rw [idx_1x1 j]
  refine congrArg (s (ix2 (0 : Fin 1) (0 : Fin 1)) + ·) ?_
  refine (RowReduce.shapeCast_a_a1_apply _ _ (0 : Fin 1) (0 : Fin 1)).trans ?_
  refine (ColReduce.multiReduction_add_col _ _ _ _ _ (0 : Fin 1)).trans ?_
  unfold part1
  refine Finset.sum_congr rfl fun p _ => ?_
  unfold rowTerm
  -- the shifted entry and its exponential at (p, k)
  have hsub : ∀ k : Fin 2000,
      subf x (broadcastTo S256x2000 (shapeCast S256x1
        (multiReduction (F := Ideal) .maximumf [1] S256 x 0xFF800000#32 reduces_S256x2000_S256 (.inl rfl) rfl)
        shapeCasts_S256_S256x1) broadcasts_S256x1_S256x2000) (ix2 p k)
        = x (ix2 p k) - ⨆ j : Fin 2000, x (ix2 p j) := fun k =>
    congrArg (x (ix2 p k) - ·) (rowMax_spread_apply x _ _ _ _ _ p k)
  refine congrArg₂ (fun a b : EReal => a - b) (congrArg₂ Ideal.div ?_ ?_) (congrArg Ideal.log ?_)
  · refine (rowSum_column_apply _ _ _ _ _ p (0 : Fin 1)).trans ?_
    refine Finset.sum_congr rfl fun k _ => ?_
    exact congrArg₂ (fun a b : EReal => Ideal.exp a * b) (hsub k) (hsub k)
  · refine (rowSum_column_apply _ _ _ _ _ p (0 : Fin 1)).trans ?_
    refine Finset.sum_congr rfl fun k _ => ?_
    exact congrArg Ideal.exp (hsub k)
  · refine (rowSum_column_apply _ _ _ _ _ p (0 : Fin 1)).trans ?_
    refine Finset.sum_congr rfl fun k _ => ?_
    exact congrArg Ideal.exp (hsub k)

end Cert.MemAE

end
-- ==== Proof.R1Value.lean ====
/-
  Region 1 (the entropy regulariser): the value of its output array.

  The body's stores are read back as the skeleton's payloads: the first step of a core leaves in the accumulator the
  step's payload over the zeroed accumulator, a later step the payload over the accumulator it found, and each step
  copies the accumulator into the output's staging buffer.  Over the extended reals the payload adds the block's sum
  of row entropy terms, so after point `n` both buffers hold the running total, reset every sixteen points, of the
  points' sums.  The output window is written back after each core's sixteenth point, into the core's own entry of
  the [2, 1, 1] array: that entry ends holding the sum over the core's sixteen blocks.
-/
import proofs.«122163_j54013508714894_2_alg».proof.Proof.R1Frame
import proofs.«122163_j54013508714894_2_alg».proof.Proof.Payloads1
import proofs.«122163_j54013508714894_2_alg».proof.Proof.PeriodicAcc
import proofs.«122163_j54013508714894_2_alg».proof.Proof.ZeroOffsets
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.MemAE (periodicAcc periodicAcc_reset periodicAcc_step periodicAcc_last hz2 hz3)

variable {F : FTy → Type} [FloatOps F]

/-! ## What each case's stores leave -/

/-- Case A leaves in the accumulator the step's payload over the zeroed accumulator. -/
theorem sout1_A_eq (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i) (x0 : Vec F S256x2000 .f32) :
    sout1_A_0 c i arg2 harg2 arg3 harg3 arg4 harg4 hc0 x0 = k1_pay2 x0 k1_pay1 := by
  unfold sout1_A_0
  rw [View.read_writes_eq_canon _ _ _ (scover1_A_0 c i arg2 harg2 arg3 harg3 arg4 harg4 hc0 x0)]
  unfold kernelRun1_A
  dsimp only
  sl_unfold_words
  rw [View.canon_cons_unit_zero (S := S1x1) hz2, View.readCov_cons_toLoadRect]
  simp only [View.readAt_eq_ld, harg2.read_unread, View.ld_unit_zero (S := S256x2000) hz2]

/-- Case A leaves in the output's buffer the cast of that accumulator. -/
theorem out1_A_eq (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : cond1_0 i) (x0 : Vec F S256x2000 .f32) :
    out1_A_1 c i arg2 harg2 arg3 harg3 arg4 harg4 hc0 x0 = k1_pay3 (k1_pay2 x0 k1_pay1) := by
  unfold out1_A_1
  rw [View.read_writes_eq_canon _ _ _ (cover1_A_1 c i arg2 harg2 arg3 harg3 arg4 harg4 hc0 x0)]
  unfold kernelRun1_A
  dsimp only
  sl_unfold_words
  rw [View.canon_unit_zero (S := S1x1x1) hz3, View.readCov_cons_toLoadRect, View.readCov_cons_toLoadRect]
  simp only [View.readAt_eq_ld, harg2.read_unread, View.ld_unit_zero (S := S256x2000) hz2]

/-- Case B leaves in the accumulator the step's payload over the accumulator it found. -/
theorem sout1_B_eq (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i) (x0 : Vec F S256x2000 .f32) (xs0 : Vec F S1x1 .f32) :
    sout1_B_0 c i arg2 harg2 arg3 harg3 arg4 harg4 hc0 x0 xs0 = k1_pay2 x0 xs0 := by
  unfold sout1_B_0
  rw [View.read_writes_eq_canon _ _ _ (scover1_B_0 c i arg2 harg2 arg3 harg3 arg4 harg4 hc0 x0 xs0)]
  unfold kernelRun1_B
  dsimp only
  sl_unfold_words
  rw [View.canon_unit_zero (S := S1x1) hz2]
  simp only [View.readAt_eq_ld, harg2.read_unread, harg4.read_unread,
    View.ld_unit_zero (S := S256x2000) hz2, View.ld_unit_zero (S := S1x1) hz2]

/-- Case B leaves in the output's buffer the cast of that accumulator. -/
theorem out1_B_eq (c : Dev nD) (i : grid1.Coords) (arg2 : Memref sig .tc .vmem S256x2000 .f32) (harg2 : arg2.IsWhole) (arg3 : Memref sig .tc .vmem S1x1x1 .f32) (harg3 : arg3.IsWhole) (arg4 : Memref sig .tc .vmem S1x1 .f32) (harg4 : arg4.IsWhole) (hc0 : ¬cond1_0 i) (x0 : Vec F S256x2000 .f32) (xs0 : Vec F S1x1 .f32) :
    out1_B_1 c i arg2 harg2 arg3 harg3 arg4 harg4 hc0 x0 xs0 = k1_pay3 (k1_pay2 x0 xs0) := by
  unfold out1_B_1
  rw [View.read_writes_eq_canon _ _ _ (cover1_B_1 c i arg2 harg2 arg3 harg3 arg4 harg4 hc0 x0 xs0)]
  unfold kernelRun1_B
  dsimp only
  sl_unfold_words
  rw [View.canon_unit_zero (S := S1x1x1) hz3, View.readCov_cons_toLoadRect]
  simp only [View.readAt_eq_ld, harg2.read_unread, harg4.read_unread,
    View.ld_unit_zero (S := S256x2000) hz2, View.ld_unit_zero (S := S1x1) hz2]

/-! ## The running total over the extended reals -/

section AtIdeal

variable (V : (c : Dev nD) → (b : Ref sig .tc) → Buf (Elt Ideal) ((c : Thread nD τ).loc b))

/-- Point `n`'s term: its block's sum of row entropy terms (zero past the grid). -/
def term1 (c : Dev nD) (n : ℕ) : EReal :=
  if h : n < cfg1.N then Cert.MemAE.part1 (iblk1 V c 0 ⟨n, h⟩) else 0

theorem term1_val (c : Dev nD) (t : Fin cfg1.N) : term1 V c t.val = Cert.MemAE.part1 (iblk1 V c 0 t) :=
  dif_pos t.isLt

theorem soutA1_val (c : Dev nD) (t : Fin cfg1.N) (h0 : t.val % 16 = 0) :
    soutA1 V c t h0 = fun _ => 0 + term1 V c t.val := by
  unfold soutA1
  refine (sout1_A_eq (F := Ideal) c (grid1.coords t) (ms1_0 t) (hs1_0 t) (ms1_1 t) (hs1_1 t) scM1_0
    (Memref.isWhole_whole _) ((hcond1_0 t).mpr h0) (iblk1 V c 0 t)).trans ?_
  refine (Cert.MemAE.pay2_1 (iblk1 V c 0 t) (k1_pay1 (F := Ideal))).trans ?_
  refine funext fun _ => ?_
  rw [term1_val]
  exact congrArg (· + Cert.MemAE.part1 (iblk1 V c 0 t)) (congrFun Cert.MemAE.pay1_1 (ix2 (0 : Fin 1) (0 : Fin 1)))

theorem outA1_val (c : Dev nD) (t : Fin cfg1.N) (h0 : t.val % 16 = 0) :
    outA1 V c t h0 = fun _ => 0 + term1 V c t.val := by
  unfold outA1
  refine (out1_A_eq (F := Ideal) c (grid1.coords t) (ms1_0 t) (hs1_0 t) (ms1_1 t) (hs1_1 t) scM1_0
    (Memref.isWhole_whole _) ((hcond1_0 t).mpr h0) (iblk1 V c 0 t)).trans ?_
  refine (Cert.MemAE.pay3_1 _).trans ?_
  refine funext fun _ => ?_
  refine (congrFun (Cert.MemAE.pay2_1 (iblk1 V c 0 t) (k1_pay1 (F := Ideal))) _).trans ?_
  rw [term1_val]
  exact congrArg (· + Cert.MemAE.part1 (iblk1 V c 0 t)) (congrFun Cert.MemAE.pay1_1 (ix2 (0 : Fin 1) (0 : Fin 1)))

theorem soutB1_val (c : Dev nD) (t : Fin cfg1.N) (h0 : ¬t.val % 16 = 0) (xs : Vec Ideal S1x1 .f32) :
    soutB1 V c t h0 xs = fun _ => xs (ix2 0 0) + term1 V c t.val := by
  unfold soutB1
  refine (sout1_B_eq (F := Ideal) c (grid1.coords t) (ms1_0 t) (hs1_0 t) (ms1_1 t) (hs1_1 t) scM1_0
    (Memref.isWhole_whole _) (fun h => h0 ((hcond1_0 t).mp h)) (iblk1 V c 0 t) xs).trans ?_
  refine (Cert.MemAE.pay2_1 (iblk1 V c 0 t) xs).trans ?_
  refine funext fun _ => ?_
  rw [term1_val]

theorem outB1_val (c : Dev nD) (t : Fin cfg1.N) (h0 : ¬t.val % 16 = 0) (xs : Vec Ideal S1x1 .f32) :
    outB1 V c t h0 xs = fun _ => xs (ix2 0 0) + term1 V c t.val := by
  unfold outB1
  refine (out1_B_eq (F := Ideal) c (grid1.coords t) (ms1_0 t) (hs1_0 t) (ms1_1 t) (hs1_1 t) scM1_0
    (Memref.isWhole_whole _) (fun h => h0 ((hcond1_0 t).mp h)) (iblk1 V c 0 t) xs).trans ?_
  refine (Cert.MemAE.pay3_1 _).trans ?_
  refine funext fun _ => ?_
  refine (congrFun (Cert.MemAE.pay2_1 (iblk1 V c 0 t) xs) _).trans ?_
  rw [term1_val]

/-- After point `n` the accumulator and the output's staging buffer both hold the running total. -/
theorem outsAt1_val (c : Dev nD) : ∀ (n : ℕ) (hn : n < cfg1.N),
    (outsAt1 V c n hn).2 = (fun _ => periodicAcc 16 (term1 V c) n)
      ∧ (outsAt1 V c n hn).1 = (fun _ => periodicAcc 16 (term1 V c) n)
  | 0, hn => by
    have e := outsAt1_A V c ⟨0, hn⟩ (Nat.zero_mod 16)
    rw [show outsAt1 V c 0 hn = _ from e, periodicAcc_reset 16 _ 0 (Nat.zero_mod 16)]
    exact ⟨soutA1_val V c ⟨0, hn⟩ (Nat.zero_mod 16), outA1_val V c ⟨0, hn⟩ (Nat.zero_mod 16)⟩
  | n + 1, hn => by
    by_cases h0 : (n + 1) % 16 = 0
    · have e := outsAt1_A V c ⟨n + 1, hn⟩ h0
      rw [show outsAt1 V c (n + 1) hn = _ from e, periodicAcc_reset 16 _ _ h0]
      exact ⟨soutA1_val V c ⟨n + 1, hn⟩ h0, outA1_val V c ⟨n + 1, hn⟩ h0⟩
    · have e := outsAt1_B V c ⟨n + 1, hn⟩ h0
      have ih : (outsAt1 V c ((⟨n + 1, hn⟩ : Fin cfg1.N).val - 1)
          (Nat.lt_of_le_of_lt (Nat.sub_le _ _) (⟨n + 1, hn⟩ : Fin cfg1.N).isLt)).2
            = fun _ => periodicAcc 16 (term1 V c) n := (outsAt1_val c n (Nat.lt_of_succ_lt hn)).1
      rw [show outsAt1 V c (n + 1) hn = _ from e, ih, periodicAcc_step 16 _ _ h0]
      exact ⟨soutB1_val V c ⟨n + 1, hn⟩ h0 _, outB1_val V c ⟨n + 1, hn⟩ h0 _⟩

/-! ## The output array -/

/-- The output window's block index at a point: the core's number, then zeros. -/
theorem idx1_1 : ∀ t : Fin cfg1.N, win1_1.index t (0 : Fin 3) = t.val / 16 ∧ win1_1.index t (1 : Fin 3) = 0
    ∧ win1_1.index t (2 : Fin 3) = 0 :=
  (by decide +kernel : ∀ t : Fin grid1.N, win1_1.index t (0 : Fin 3) = t.val / 16 ∧ win1_1.index t (1 : Fin 3) = 0
    ∧ win1_1.index t (2 : Fin 3) = 0)

/-- The array's entry for core `q`: the sum over the core's sixteen points. -/
def G1 (c : Dev nD) : S2x1x1.Idx → EReal := fun j => ∑ i : Fin 16, term1 V c ((j 0).val * 16 + i.val)

/-- What a writing-back point writes is its block of `G1`. -/
theorem flushed1_eq (c : Dev nD) (t : Fin cfg1.N) (hf : (cfg1.win 1).flush t = true) :
    (dat1 V c).flushed 1 t = ((cfg1.win 1).blk t).view.read (Elt Ideal) (G1 V c) := by
  have h2 : t.val % 16 = 15 := (flush1_1 t).mp hf
  obtain ⟨e0, -, -⟩ := idx1_1 t
  show (cfg1.win 1).cut (grid1.coords t) ((dat1 V c).after 1 t) = _
  rw [after1_1, (outsAt1_val V c t.val t.isLt).2]
  funext y
  rw [View.read_apply]
  show periodicAcc 16 (term1 V c) t.val = G1 V c (((cfg1.win 1).blk t).view.emb y)
  have hq : t.val = t.val / 16 * 16 + 15 := by omega
  refine (congrArg (periodicAcc 16 (term1 V c)) hq).trans ?_
  refine (periodicAcc_last 16 (term1 V c) (t.val / 16) 15 rfl).trans ?_
  unfold G1
  have hy : ((((cfg1.win 1).blk t).view.emb y) 0).val = t.val / 16 := by
    show win1_1.index t (0 : Fin 3) * 1 + 1 * (y 0).val = _
    have : (y 0).val < 1 := (y 0).isLt
    omega
  rw [hy]

theorem mem_blk1 (t : Fin cfg1.N) (i : S2x1x1.Idx) :
    i ∈ ((cfg1.win 1).blk t).view.set ↔ ∀ a : Fin 3, win1_1.index t a * S1x1x1.size a ≤ (i a).val
      ∧ (i a).val < win1_1.index t a * S1x1x1.size a + S1x1x1.size a := by
  show i ∈ ((View.whole main_v5).slice (win1_1.rect t)).set ↔ _
  rw [View.set_slice_whole, Rect.mem_set_unit]
  exact Iff.rfl

/-- The array after the region: every entry at its core's sum. -/
theorem arr1_eq (c : Dev nD) : (dat1 V c).arrAt 1 cfg1.N = G1 V c :=
  (dat1 V c).arrAt_eq_of_cover 1 (G1 V c) (flushed1_eq V c) fun i => by
    have hN : cfg1.N = 32 := N_1
    have hi0 : (i 0 : ℕ) < 2 := (i 0).isLt
    have hi1 : (i 1 : ℕ) < 1 := (i 1).isLt
    have hi2 : (i 2 : ℕ) < 1 := (i 2).isLt
    obtain ⟨t, ht⟩ : ∃ t : Fin cfg1.N, t.val = (i 0 : ℕ) * 16 + 15 := ⟨⟨(i 0 : ℕ) * 16 + 15, by omega⟩, rfl⟩
    obtain ⟨e0, e1, e2⟩ := idx1_1 t
    refine ⟨t, (flush1_1 t).mpr (by omega), ?_⟩
    rw [mem_blk1]
    intro a
    match a with
    | ⟨0, _⟩ => show win1_1.index t (0 : Fin 3) * 1 ≤ (i 0 : ℕ) ∧ (i 0 : ℕ) < win1_1.index t (0 : Fin 3) * 1 + 1; omega
    | ⟨1, _⟩ => show win1_1.index t (1 : Fin 3) * 1 ≤ (i 1 : ℕ) ∧ (i 1 : ℕ) < win1_1.index t (1 : Fin 3) * 1 + 1; omega
    | ⟨2, _⟩ => show win1_1.index t (2 : Fin 3) * 1 ≤ (i 2 : ℕ) ∧ (i 2 : ℕ) < win1_1.index t (2 : Fin 3) * 1 + 1; omega

/-- Point `i` of core `j 0` is a point of the grid. -/
theorem pt1_lt (j : S2x1x1.Idx) (i : Fin 16) : (j 0).val * 16 + i.val < cfg1.N := by
  have hN : cfg1.N = 32 := N_1
  have hj : (j 0 : ℕ) < 2 := (j 0).isLt
  have := i.isLt
  omega

/-- The output array of region 1: core `j 0`'s entry is the sum, over the core's sixteen points, of the point's
    block's sum of row entropy terms. -/
theorem X1_eq (c : Dev nD) : (dat1 V c).arrAt 1 cfg1.N = fun j : S2x1x1.Idx =>
    ∑ i : Fin 16, Cert.MemAE.part1 (iblk1 V c 0 ⟨(j 0).val * 16 + i.val, pt1_lt j i⟩) := by
  rw [arr1_eq]
  funext j
  exact Finset.sum_congr rfl fun i _ => dif_pos (pt1_lt j i)

end AtIdeal

end Cert.KernelIdeal.Hand

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.Payloads2.lean ====
/-
  The Gram kernel's accumulating store, read over the extended reals.

  Grid step `b` holds rows `b * 256 ..< b * 256 + 256` of the padded memory as its left block and all 2048 rows as its
  right block.  It forms the 256 x 2048 block of inner products (the right block contracted on its last axis), keeps the
  entry at `(p, q)` where the column number `q` exceeds the global row number `b * 256 + p` — both are 32-bit words far
  below the sign bit, so the signed comparison of the words is the comparison of the numbers —, puts zero elsewhere, and
  adds the sum of the block to the running total.
-/
import proofs.«122163_j54013508714894_2_alg».proof.Proof.Payloads
import proofs.«122163_j54013508714894_2_alg».proof.Proof.LibTransposedDot

noncomputable section

namespace Cert.MemAE

open Idealize.ShloMosaic Idealize.ShloMosaic.ValueIdx Cert.KernelIdeal Cert.KernelIdeal.Gen

/-! ## The mask's words -/

/-- A number below `2 ^ 31` as a 32-bit word reads back, signed, as itself. -/
theorem toInt_ofNat_small (n : ℕ) (hn : n < 2147483648) : (BitVec.ofNat 32 n).toInt = (n : ℤ) := by
  rw [BitVec.toInt_eq_toNat_of_lt (by rw [BitVec.toNat_ofNat]; omega), BitVec.toNat_ofNat]; omega

/-- The signed comparison "column `q` is greater than `b * 256 + p`" of the words, for a block number below 8, a row
    below 256 and a column below 2048: the sum does not wrap, so the bit says `b * 256 + p < q`. -/
theorem sgt_words (b p q : ℕ) (hb : b < 8) (hp : p < 256) (hq : q < 2048) :
    IntOp.cmpi .sgt (BitVec.ofNat 32 q) (IntOp.addi (Scalar.muli (BitVec.ofNat 32 b) 256#32) (BitVec.ofNat 32 p))
      = if b * 256 + p < q then 1#1 else 0#1 := by
  have e : IntOp.addi (Scalar.muli (BitVec.ofNat 32 b) 256#32) (BitVec.ofNat 32 p) = BitVec.ofNat 32 (b * 256 + p) := by
    show BitVec.ofNat 32 b * BitVec.ofNat 32 256 + BitVec.ofNat 32 p = _
    rw [← BitVec.ofNat_mul, ← BitVec.ofNat_add]
  rw [e]
  show BitVec.ofBool ((BitVec.ofNat 32 (b * 256 + p)).slt (BitVec.ofNat 32 q)) = _
  rw [BitVec.slt, toInt_ofNat_small (b * 256 + p) (by omega), toInt_ofNat_small q (by omega)]
  by_cases h : b * 256 + p < q
  · rw [if_pos h, decide_eq_true (by exact_mod_cast h)]; rfl
  · rw [if_neg h, decide_eq_false (by exact_mod_cast h)]; rfl

/-- The masked block at `(p, q)`: the entry where the column number exceeds the global row number, zero elsewhere. -/
theorem masked_apply (b : ℕ) (hb : b < 8) (A : FVec Ideal S256x2048 .f32) (h0 : S256x2048.Iotas .tc 32 [0])
    (h1 : S256x2048.Iotas .tc 32 [1]) (p : Fin 256) (q : Fin 2048) :
    select (cmpi .sgt (iota .tc S256x2048 32 [1] h1)
        (addi (broadcast S256x2048 (Scalar.muli (BitVec.ofNat 32 b) 256#32)) (iota .tc S256x2048 32 [0] h0)))
      A (broadcast S256x2048 (Scalar.ofBits (F := Ideal) .f32 0x00000000#32)) (ix2 p q)
      = if b * 256 + p.val < q.val then A (ix2 p q) else 0 := by
  show Scalar.select (IntOp.cmpi .sgt (iota .tc S256x2048 32 [1] h1 (ix2 p q))
      (IntOp.addi (Scalar.muli (BitVec.ofNat 32 b) 256#32) (iota .tc S256x2048 32 [0] h0 (ix2 p q))))
    (A (ix2 p q)) (Ideal.ofBits .f32 0x00000000#32) = _
  rw [iota_single_apply, iota_single_apply]
  show Scalar.select (IntOp.cmpi .sgt (BitVec.ofNat 32 q.val)
      (IntOp.addi (Scalar.muli (BitVec.ofNat 32 b) 256#32) (BitVec.ofNat 32 p.val))) _ _ = _
  rw [sgt_words b p.val q.val hb p.isLt q.isLt, Ideal.ofBits_zero_f32]
  by_cases h : b * 256 + p.val < q.val
  · rw [if_pos h, if_pos h]; exact select_one _ _
  · rw [if_neg h, if_neg h]; exact select_zero _ _

/-! ## The step -/

/-- One row-block's strictly-upper-triangle sum of the Gram matrix: block number `b`. -/
def part2 (b : ℕ) (x0 : Vec Ideal S256x256 .f32) (x1 : Vec Ideal S2048x256 .f32) : EReal :=
  ∑ p : Fin 256, ∑ q : Fin 2048, if b * 256 + p.val < q.val then ∑ k : Fin 256, x0 (ix2 p k) * x1 (ix2 q k) else 0

/-- The third kernel's step adds the block's strictly-upper-triangle inner products to the total. -/
theorem pay2_2 (i : grid2.Coords) (x0 : Vec Ideal S256x256 .f32) (x1 : Vec Ideal S2048x256 .f32) (s : Vec Ideal S1x1 .f32) :
    k2_pay2 (F := Ideal) i x0 x1 s = fun _ => s (ix2 0 0) + part2 (i 0).val x0 x1 := by
  have hb : (i 0).val < 8 := (i 0).isLt
  unfold k2_pay2
  refine (shapeCast_self _ _).trans ?_
  funext j
  rw [idx_1x1 j]
  refine congrArg (s (ix2 (0 : Fin 1) (0 : Fin 1)) + ·) ?_
  refine (ColReduce.keepdims_total _ _ _ _ _ _ _ _ _ _ _).trans ?_
  unfold part2
  refine Finset.sum_congr rfl fun p _ => Finset.sum_congr rfl fun q _ => ?_
  refine (masked_apply (i 0).val hb _ _ _ p q).trans ?_
  refine congrArg (fun a : EReal => if (i 0).val * 256 + p.val < q.val then a else 0) ?_
  refine (TransposedDot.matmul_zero_apply dot_S256x256_S2048x256_S256x2048_1_1_0_0_n_n rfl _ _ _ p q).trans ?_
  rw [shapeCast_self x0, shapeCast_self x1]

end Cert.MemAE

end
-- ==== Proof.R2Value.lean ====
/-
  Region 2 (the Gram matrix's strictly upper triangle): the value of its output array.

  The body's stores are read back as the skeleton's payloads: the first grid step leaves in the accumulator the
  step's payload over the zeroed accumulator, a later step the payload over the accumulator it found, and each step
  copies the accumulator into the output's staging buffer.  Over the extended reals the payload adds the row-block's
  strictly-upper-triangle sum, so after step `n` both buffers hold the running total of the steps' sums.  The output
  window's one block is the whole [1, 1] array, written back after the eighth step: it ends holding the sum over the
  eight row-blocks.
-/
import proofs.«122163_j54013508714894_2_alg».proof.Proof.R2Frame
import proofs.«122163_j54013508714894_2_alg».proof.Proof.Payloads2
import proofs.«122163_j54013508714894_2_alg».proof.Proof.PeriodicAcc
import proofs.«122163_j54013508714894_2_alg».proof.Proof.ZeroOffsets
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.MemAE (periodicAcc periodicAcc_reset periodicAcc_step periodicAcc_last hz2 hz3)

variable {F : FTy → Type} [FloatOps F]

/-! ## What each case's stores leave -/

/-- Case A leaves in the accumulator the step's payload over the zeroed accumulator. -/
theorem sout2_A_eq (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i) (x0 : Vec F S256x256 .f32) (x1 : Vec F S2048x256 .f32) :
    sout2_A_0 c i arg1 harg1 arg2 harg2 arg3 harg3 arg4 harg4 hc0 x0 x1 = k2_pay2 i x0 x1 k2_pay1 := by
  unfold sout2_A_0
  rw [View.read_writes_eq_canon _ _ _ (scover2_A_0 c i arg1 harg1 arg2 harg2 arg3 harg3 arg4 harg4 hc0 x0 x1)]
  unfold kernelRun2_A
  dsimp only
  sl_unfold_words
  rw [View.canon_cons_unit_zero (S := S1x1) hz2, View.readCov_cons_toLoadRect]
  simp only [View.readAt_eq_ld, harg1.read_unread, harg2.read_unread,
    View.ld_unit_zero (S := S256x256) hz2, View.ld_unit_zero (S := S2048x256) hz2]

/-- Case A leaves in the output's buffer that accumulator. -/
theorem out2_A_eq (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : cond2_0 i) (x0 : Vec F S256x256 .f32) (x1 : Vec F S2048x256 .f32) :
    out2_A_2 c i arg1 harg1 arg2 harg2 arg3 harg3 arg4 harg4 hc0 x0 x1 = k2_pay2 i x0 x1 k2_pay1 := by
  unfold out2_A_2
  rw [View.read_writes_eq_canon _ _ _ (cover2_A_2 c i arg1 harg1 arg2 harg2 arg3 harg3 arg4 harg4 hc0 x0 x1)]
  unfold kernelRun2_A
  dsimp only
  sl_unfold_words
  rw [View.canon_unit_zero (S := S1x1) hz2, View.readCov_cons_toLoadRect, View.readCov_cons_toLoadRect]
  simp only [View.readAt_eq_ld, harg1.read_unread, harg2.read_unread,
    View.ld_unit_zero (S := S256x256) hz2, View.ld_unit_zero (S := S2048x256) hz2]

/-- Case B leaves in the accumulator the step's payload over the accumulator it found. -/
theorem sout2_B_eq (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (x0 : Vec F S256x256 .f32) (x1 : Vec F S2048x256 .f32) (xs0 : Vec F S1x1 .f32) :
    sout2_B_0 c i arg1 harg1 arg2 harg2 arg3 harg3 arg4 harg4 hc0 x0 x1 xs0 = k2_pay2 i x0 x1 xs0 := by
  unfold sout2_B_0
  rw [View.read_writes_eq_canon _ _ _ (scover2_B_0 c i arg1 harg1 arg2 harg2 arg3 harg3 arg4 harg4 hc0 x0 x1 xs0)]
  unfold kernelRun2_B
  dsimp only
  sl_unfold_words
  rw [View.canon_unit_zero (S := S1x1) hz2]
  simp only [View.readAt_eq_ld, harg1.read_unread, harg2.read_unread, harg4.read_unread,
    View.ld_unit_zero (S := S256x256) hz2, View.ld_unit_zero (S := S2048x256) hz2, View.ld_unit_zero (S := S1x1) hz2]

/-- Case B leaves in the output's buffer that accumulator. -/
theorem out2_B_eq (c : Dev nD) (i : grid2.Coords) (arg1 : Memref sig .tc .vmem S256x256 .f32) (harg1 : arg1.IsWhole) (arg2 : Memref sig .tc .vmem S2048x256 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (x0 : Vec F S256x256 .f32) (x1 : Vec F S2048x256 .f32) (xs0 : Vec F S1x1 .f32) :
    out2_B_2 c i arg1 harg1 arg2 harg2 arg3 harg3 arg4 harg4 hc0 x0 x1 xs0 = k2_pay2 i x0 x1 xs0 := by
  unfold out2_B_2
  rw [View.read_writes_eq_canon _ _ _ (cover2_B_2 c i arg1 harg1 arg2 harg2 arg3 harg3 arg4 harg4 hc0 x0 x1 xs0)]
  unfold kernelRun2_B
  dsimp only
  sl_unfold_words
  rw [View.canon_unit_zero (S := S1x1) hz2, View.readCov_cons_toLoadRect]
  simp only [View.readAt_eq_ld, harg1.read_unread, harg2.read_unread, harg4.read_unread,
    View.ld_unit_zero (S := S256x256) hz2, View.ld_unit_zero (S := S2048x256) hz2, View.ld_unit_zero (S := S1x1) hz2]

/-! ## The running total over the extended reals -/

section AtIdeal

variable (V : (c : Dev nD) → (b : Ref sig .tc) → Buf (Elt Ideal) ((c : Thread nD τ).loc b))

/-- The grid has one axis: a point's coordinate is its number. -/
theorem coord2 : ∀ t : Fin cfg2.N, ((grid2.coords t) 0).val = t.val :=
  (by decide +kernel : ∀ t : Fin grid2.N, ((grid2.coords t) 0).val = t.val)

/-- Step `n`'s term: its row-block's strictly-upper-triangle sum (zero past the grid). -/
def term2 (c : Dev nD) (n : ℕ) : EReal :=
  if h : n < cfg2.N then Cert.MemAE.part2 n (iblk2 V c 0 ⟨n, h⟩) (iblk2 V c 1 ⟨n, h⟩) else 0

theorem term2_val (c : Dev nD) (t : Fin cfg2.N) :
    term2 V c t.val = Cert.MemAE.part2 ((grid2.coords t) 0).val (iblk2 V c 0 t) (iblk2 V c 1 t) := by
  rw [coord2 t]
  exact dif_pos t.isLt

theorem soutA2_val (c : Dev nD) (t : Fin cfg2.N) (h0 : t.val % 8 = 0) :
    soutA2 V c t h0 = fun _ => 0 + term2 V c t.val := by
  unfold soutA2
  refine (sout2_A_eq (F := Ideal) c (grid2.coords t) (ms2_0 t) (hs2_0 t) (ms2_1 t) (hs2_1 t) (ms2_2 t) (hs2_2 t) scM2_0
    (Memref.isWhole_whole _) ((hcond2_0 t).mpr h0) (iblk2 V c 0 t) (iblk2 V c 1 t)).trans ?_
  refine (Cert.MemAE.pay2_2 (grid2.coords t) (iblk2 V c 0 t) (iblk2 V c 1 t) (k2_pay1 (F := Ideal))).trans ?_
  refine funext fun _ => ?_
  rw [term2_val]
  exact congrArg (· + Cert.MemAE.part2 ((grid2.coords t) 0).val (iblk2 V c 0 t) (iblk2 V c 1 t))
    (congrFun Cert.MemAE.pay1_2 (ix2 (0 : Fin 1) (0 : Fin 1)))

theorem outA2_val (c : Dev nD) (t : Fin cfg2.N) (h0 : t.val % 8 = 0) :
    outA2 V c t h0 = fun _ => 0 + term2 V c t.val := by
  unfold outA2
  refine (out2_A_eq (F := Ideal) c (grid2.coords t) (ms2_0 t) (hs2_0 t) (ms2_1 t) (hs2_1 t) (ms2_2 t) (hs2_2 t) scM2_0
    (Memref.isWhole_whole _) ((hcond2_0 t).mpr h0) (iblk2 V c 0 t) (iblk2 V c 1 t)).trans ?_
  refine (Cert.MemAE.pay2_2 (grid2.coords t) (iblk2 V c 0 t) (iblk2 V c 1 t) (k2_pay1 (F := Ideal))).trans ?_
  refine funext fun _ => ?_
  rw [term2_val]
  exact congrArg (· + Cert.MemAE.part2 ((grid2.coords t) 0).val (iblk2 V c 0 t) (iblk2 V c 1 t))
    (congrFun Cert.MemAE.pay1_2 (ix2 (0 : Fin 1) (0 : Fin 1)))

theorem soutB2_val (c : Dev nD) (t : Fin cfg2.N) (h0 : ¬t.val % 8 = 0) (xs : Vec Ideal S1x1 .f32) :
    soutB2 V c t h0 xs = fun _ => xs (ix2 0 0) + term2 V c t.val := by
  unfold soutB2
  refine (sout2_B_eq (F := Ideal) c (grid2.coords t) (ms2_0 t) (hs2_0 t) (ms2_1 t) (hs2_1 t) (ms2_2 t) (hs2_2 t) scM2_0
    (Memref.isWhole_whole _) (fun h => h0 ((hcond2_0 t).mp h)) (iblk2 V c 0 t) (iblk2 V c 1 t) xs).trans ?_
  refine (Cert.MemAE.pay2_2 (grid2.coords t) (iblk2 V c 0 t) (iblk2 V c 1 t) xs).trans ?_
  refine funext fun _ => ?_
  rw [term2_val]

theorem outB2_val (c : Dev nD) (t : Fin cfg2.N) (h0 : ¬t.val % 8 = 0) (xs : Vec Ideal S1x1 .f32) :
    outB2 V c t h0 xs = fun _ => xs (ix2 0 0) + term2 V c t.val := by
  unfold outB2
  refine (out2_B_eq (F := Ideal) c (grid2.coords t) (ms2_0 t) (hs2_0 t) (ms2_1 t) (hs2_1 t) (ms2_2 t) (hs2_2 t) scM2_0
    (Memref.isWhole_whole _) (fun h => h0 ((hcond2_0 t).mp h)) (iblk2 V c 0 t) (iblk2 V c 1 t) xs).trans ?_
  refine (Cert.MemAE.pay2_2 (grid2.coords t) (iblk2 V c 0 t) (iblk2 V c 1 t) xs).trans ?_
  refine funext fun _ => ?_
  rw [term2_val]

/-- After step `n` the accumulator and the output's staging buffer both hold the running total. -/
theorem outsAt2_val (c : Dev nD) : ∀ (n : ℕ) (hn : n < cfg2.N),
    (outsAt2 V c n hn).2 = (fun _ => periodicAcc 8 (term2 V c) n)
      ∧ (outsAt2 V c n hn).1 = (fun _ => periodicAcc 8 (term2 V c) n)
  | 0, hn => by
    have e := outsAt2_A V c ⟨0, hn⟩ (Nat.zero_mod 8)
    rw [show outsAt2 V c 0 hn = _ from e, periodicAcc_reset 8 _ 0 (Nat.zero_mod 8)]
    exact ⟨soutA2_val V c ⟨0, hn⟩ (Nat.zero_mod 8), outA2_val V c ⟨0, hn⟩ (Nat.zero_mod 8)⟩
  | n + 1, hn => by
    by_cases h0 : (n + 1) % 8 = 0
    · have e := outsAt2_A V c ⟨n + 1, hn⟩ h0
      rw [show outsAt2 V c (n + 1) hn = _ from e, periodicAcc_reset 8 _ _ h0]
      exact ⟨soutA2_val V c ⟨n + 1, hn⟩ h0, outA2_val V c ⟨n + 1, hn⟩ h0⟩
    · have e := outsAt2_B V c ⟨n + 1, hn⟩ h0
      have ih : (outsAt2 V c ((⟨n + 1, hn⟩ : Fin cfg2.N).val - 1)
          (Nat.lt_of_le_of_lt (Nat.sub_le _ _) (⟨n + 1, hn⟩ : Fin cfg2.N).isLt)).2
            = fun _ => periodicAcc 8 (term2 V c) n := (outsAt2_val c n (Nat.lt_of_succ_lt hn)).1
      rw [show outsAt2 V c (n + 1) hn = _ from e, ih, periodicAcc_step 8 _ _ h0]
      exact ⟨soutB2_val V c ⟨n + 1, hn⟩ h0 _, outB2_val V c ⟨n + 1, hn⟩ h0 _⟩

/-! ## The output array -/

/-- The output window's one block sits at the origin at every point. -/
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- The array's one entry: the sum over the eight steps. -/
def G2 (c : Dev nD) : S1x1.Idx → EReal := fun _ => ∑ b : Fin 8, term2 V c b.val

/-- What the writing-back point writes is its block of `G2`. -/
theorem flushed2_eq (c : Dev nD) (t : Fin cfg2.N) (hf : (cfg2.win 2).flush t = true) :
    (dat2 V c).flushed 2 t = ((cfg2.win 2).blk t).view.read (Elt Ideal) (G2 V c) := by
  have hN : cfg2.N = 8 := N_2
  have h7 : t.val % 8 = 7 := (flush2_2 t).mp hf
  show (cfg2.win 2).cut (grid2.coords t) ((dat2 V c).after 2 t) = _
  rw [after2_2, (outsAt2_val V c t.val t.isLt).2]
  funext y
  rw [View.read_apply]
  show periodicAcc 8 (term2 V c) t.val = ∑ b : Fin 8, term2 V c b.val
  have hq : t.val = 0 * 8 + 7 := by have := t.isLt; omega
  refine (congrArg (periodicAcc 8 (term2 V c)) hq).trans ?_
  refine (periodicAcc_last 8 (term2 V c) 0 7 rfl).trans ?_
  exact Finset.sum_congr rfl fun k _ => by rw [Nat.zero_mul, Nat.zero_add]

theorem mem_blk2 (t : Fin cfg2.N) (i : S1x1.Idx) :
    i ∈ ((cfg2.win 2).blk t).view.set ↔ ∀ a : Fin 2, win2_2.index t a * S1x1.size a ≤ (i a).val
      ∧ (i a).val < win2_2.index t a * S1x1.size a + S1x1.size a := by
  show i ∈ ((View.whole main_v15).slice (win2_2.rect t)).set ↔ _
  rw [View.set_slice_whole, Rect.mem_set_unit]
  exact Iff.rfl

/-- The array after the region: its entry at the sum over the steps. -/
theorem arr2_eq (c : Dev nD) : (dat2 V c).arrAt 2 cfg2.N = G2 V c :=
  (dat2 V c).arrAt_eq_of_cover 2 (G2 V c) (flushed2_eq V c) fun i => by
    have hN : cfg2.N = 8 := N_2
    have hi0 : (i 0 : ℕ) < 1 := (i 0).isLt
    have hi1 : (i 1 : ℕ) < 1 := (i 1).isLt
    obtain ⟨t, ht⟩ : ∃ t : Fin cfg2.N, t.val = 7 := ⟨⟨7, by omega⟩, rfl⟩
    obtain ⟨e0, e1⟩ := idx2_2 t
    refine ⟨t, (flush2_2 t).mpr (by omega), ?_⟩
    rw [mem_blk2]
    intro a
    match a with
    | ⟨0, _⟩ => show win2_2.index t (0 : Fin 2) * 1 ≤ (i 0 : ℕ) ∧ (i 0 : ℕ) < win2_2.index t (0 : Fin 2) * 1 + 1; omega
    | ⟨1, _⟩ => show win2_2.index t (1 : Fin 2) * 1 ≤ (i 1 : ℕ) ∧ (i 1 : ℕ) < win2_2.index t (1 : Fin 2) * 1 + 1; omega

/-- Step `b` is a point of the grid. -/
theorem pt2_lt (b : Fin 8) : b.val < cfg2.N := by
  have hN : cfg2.N = 8 := N_2
  have := b.isLt
  omega

/-- The output array of region 2: its one entry is the sum, over the eight steps, of the step's row-block's
    strictly-upper-triangle sum of inner products. -/
theorem X2_eq (c : Dev nD) : (dat2 V c).arrAt 2 cfg2.N = fun _ =>
    ∑ b : Fin 8, Cert.MemAE.part2 b.val (iblk2 V c 0 ⟨b.val, pt2_lt b⟩) (iblk2 V c 1 ⟨b.val, pt2_lt b⟩) := by
  rw [arr2_eq]
  funext j
  exact Finset.sum_congr rfl fun b _ => dif_pos (pt2_lt b)

end AtIdeal

end Cert.KernelIdeal.Hand

end
-- ==== Proof.LibRunningSum.lean ====
/-
  A running sum over the steps of a grid.

  An accumulator that is zeroed and given `T 0` at the first step, and given `T (n + 1)` more at every later step,
  holds after step `n` the sum of `T 0 … T n`; after the last of `N + 1` steps it holds the sum over `Fin (N + 1)`.
  Stated over any additive commutative monoid: nothing but associativity and `0 + x = x` is used, so it holds on
  the extended reals with their infinities.
-/
import Mathlib.Algebra.BigOperators.Fin

noncomputable section

namespace Idealize.ShloMosaic.RunningSum

variable {M : Type*} [AddCommMonoid M]

/-- The running sum after step `n`: `0 + T 0` first, then `+ T (n + 1)`. -/
def running (T : ℕ → M) : ℕ → M
  | 0 => 0 + T 0
  | n + 1 => running T n + T (n + 1)

/-- The running sum after step `n` is the sum of the first `n + 1` terms. -/
theorem running_eq_sum (T : ℕ → M) (n : ℕ) : running T n = ∑ t ∈ Finset.range (n + 1), T t := by
  induction n with
  | zero => simp [running]
  | succ n ih => rw [running, ih, Finset.sum_range_succ _ (n + 1)]

/-- After the last of `N + 1` steps it is the sum over `Fin (N + 1)`. -/
theorem running_last (T : ℕ → M) (N : ℕ) : running T N = ∑ b : Fin (N + 1), T b.val := by
  rw [running_eq_sum, Finset.sum_range]

end Idealize.ShloMosaic.RunningSum

end
-- ==== Proof.SumShapes.lean ====
/-
  Finite-sum rearrangements: a grid's running sum is a plain sum, a sum over blocks of consecutive
  numbers is the sum over all of them, a row-major reshape permutes the index set, and rows of zeros
  add nothing to a sum of inner products. Everything is bookkeeping in an additive commutative monoid;
  on the extended reals no finiteness is used.
-/
import proofs.«122163_j54013508714894_2_alg».proof.Proof.Spec
import proofs.«122163_j54013508714894_2_alg».proof.Proof.LibRunningSum
import Idealize.ShloMosaic.Lib.ValueIdx
import Mathlib.Algebra.BigOperators.Fin
import Mathlib.Logic.Equiv.Fin.Basic

noncomputable section

open scoped BigOperators

namespace Cert.MemAE

open Idealize.ShloMosaic Idealize.ShloMosaic.ValueIdx

/-- a running sum that starts at 0 + a 0 and adds a (n+1) at each later step is the sum over range (n+1) -/
theorem running_sum {M : Type*} [AddCommMonoid M] (a acc : ℕ → M) (h0 : acc 0 = 0 + a 0)
    (hs : ∀ n, acc (n + 1) = acc n + a (n + 1)) (n : ℕ) : acc n = ∑ i ∈ Finset.range (n + 1), a i := by
  have h : ∀ m, acc m = Idealize.ShloMosaic.RunningSum.running a m := by
    intro m
    induction m with
    | zero => exact h0
    | succ m ih => rw [hs, ih]; rfl
  rw [h, Idealize.ShloMosaic.RunningSum.running_eq_sum]

/-- a double sum over A blocks of B consecutive numbers is the sum over A*B numbers -/
theorem sum_blocks {M : Type*} [AddCommMonoid M] (A B : ℕ) (f : ℕ → M) :
    ∑ i : Fin A, ∑ j : Fin B, f (i.val * B + j.val) = ∑ k : Fin (A * B), f k.val := by
  rw [← Equiv.sum_comp (finProdFinEquiv (m := A) (n := B)) (fun k => f k.val), Fintype.sum_prod_type]
  refine Finset.sum_congr rfl fun i _ => Finset.sum_congr rfl fun j _ => ?_
  refine congrArg f ?_
  rw [finProdFinEquiv_apply_val, Nat.add_comm, Nat.mul_comm]

namespace SumShapes

/-- three nested block sums: A blocks of B blocks of C consecutive numbers are A*B*C numbers -/
theorem sum_blocks3 {M : Type*} [AddCommMonoid M] (A B C : ℕ) (f : ℕ → M) :
    ∑ a : Fin A, ∑ b : Fin B, ∑ c : Fin C, f ((a.val * B + b.val) * C + c.val) = ∑ k : Fin (A * B * C), f k.val := by
  rw [← sum_blocks (A * B) C f, ← sum_blocks A B (fun m => ∑ c : Fin C, f (m * C + c.val))]

/-- a function on Fin N continued by zero to all naturals -/
def ext0 {M : Type*} [Zero M] {N : ℕ} (f : Fin N → M) (k : ℕ) : M := if h : k < N then f ⟨k, h⟩ else 0

theorem ext0_val {M : Type*} [Zero M] {N : ℕ} (f : Fin N → M) (k : Fin N) : ext0 f k.val = f k := by
  unfold ext0; rw [dif_pos k.isLt]

theorem ext0_lt {M : Type*} [Zero M] {N : ℕ} (f : Fin N → M) (k : ℕ) (h : k < N) : ext0 f k = f ⟨k, h⟩ := by
  unfold ext0; rw [dif_pos h]

/-- the same over a function of Fin N, N = A*B*C: the three block coordinates name every k < N once -/
theorem blocks3_fin {M : Type*} [AddCommMonoid M] (A B C N : ℕ) (hN : A * B * C = N) (f : Fin N → M)
    (hb : ∀ (a : Fin A) (b : Fin B) (c : Fin C), (a.val * B + b.val) * C + c.val < N) :
    ∑ a : Fin A, ∑ b : Fin B, ∑ c : Fin C, f ⟨(a.val * B + b.val) * C + c.val, hb a b c⟩ = ∑ k : Fin N, f k := by
  subst hN
  have h := sum_blocks3 A B C (ext0 f)
  refine Eq.trans ?_ (h.trans (Finset.sum_congr rfl fun k _ => ext0_val f k))
  refine Finset.sum_congr rfl fun a _ => Finset.sum_congr rfl fun b _ => Finset.sum_congr rfl fun c _ => ?_
  exact (ext0_lt f _ (hb a b c)).symm

/-- two nested block sums over a function of Fin N, N = A*B -/
theorem blocks2_fin {M : Type*} [AddCommMonoid M] (A B N : ℕ) (hN : A * B = N) (f : Fin N → M)
    (hb : ∀ (a : Fin A) (b : Fin B), a.val * B + b.val < N) :
    ∑ a : Fin A, ∑ b : Fin B, f ⟨a.val * B + b.val, hb a b⟩ = ∑ k : Fin N, f k := by
  subst hN
  have h := sum_blocks A B (ext0 f)
  refine Eq.trans ?_ (h.trans (Finset.sum_congr rfl fun k _ => ext0_val f k))
  refine Finset.sum_congr rfl fun a _ => Finset.sum_congr rfl fun b _ => ?_
  exact (ext0_lt f _ (hb a b)).symm

end SumShapes

open SumShapes

/-- REG: 2 cores x 16 steps x 256 rows is 8192 rows -/
theorem reg_blocks (f : Fin 8192 → EReal) :
    ∑ c : Fin 2, ∑ i : Fin 16, ∑ r : Fin 256, f (⟨(c.val * 16 + i.val) * 256 + r.val, by omega⟩ : Fin 8192)
      = ∑ row, f row :=
  blocks3_fin 2 16 256 8192 rfl f (fun c i r => by omega)

/-- SSE: the blocked sum over the [49152,128] re-laid arrays is the sum over the rank-2 index type. -/
theorem sse_blocks (g : (⟨2, ![49152, 128]⟩ : Shape).Idx → EReal) :
    ∑ c : Fin 2, ∑ i : Fin 3, ∑ r : Fin 8192, ∑ l : Fin 128,
        g (ix2 (⟨(c.val * 3 + i.val) * 8192 + r.val, by omega⟩ : Fin 49152) l) = ∑ j, g j := by
  rw [sum_idx2 g]
  exact blocks3_fin 2 3 8192 49152 rfl (fun a : Fin 49152 => ∑ l : Fin 128, g (ix2 a l)) (fun c i r => by omega)

namespace SumShapes

/-- a sum over Fin m of a function that vanishes from n on is the sum over Fin n -/
theorem sum_fin_trunc {M : Type*} [AddCommMonoid M] {n m : ℕ} (hnm : n ≤ m) (F : ℕ → M)
    (hz : ∀ k, n ≤ k → k < m → F k = 0) : ∑ i : Fin m, F i.val = ∑ i : Fin n, F i.val := by
  rw [← Finset.sum_range F, ← Finset.sum_range F]
  refine (Finset.sum_subset (Finset.range_subset_range.2 hnm) fun k hk hk' => ?_).symm
  rw [Finset.mem_range] at hk hk'
  exact hz k (by omega) hk

/-- the inner product of rows i and q of the memory, as a function of two naturals: zero unless both are rows -/
def dotU (U : (⟨2, ![2000, 256]⟩ : Shape).Idx → EReal) (i q : ℕ) : EReal :=
  if hi : i < 2000 then if hq : q < 2000 then ∑ k : Fin 256, U (ix2 ⟨i, hi⟩ k) * U (ix2 ⟨q, hq⟩ k) else 0 else 0

/-- its strictly upper triangle -/
def upperU (U : (⟨2, ![2000, 256]⟩ : Shape).Idx → EReal) (i q : ℕ) : EReal := if i < q then dotU U i q else 0

/-- rows of the zero-padded memory: a padding row is all zeros, 0 * x = x * 0 = 0 for every extended real x, so the
    inner product of two rows of P is the inner product of the memory's rows, or zero -/
theorem dot_pad (U : (⟨2, ![2000, 256]⟩ : Shape).Idx → EReal) (P : (⟨2, ![2048, 256]⟩ : Shape).Idx → EReal)
    (hP : ∀ (i : Fin 2048) (k : Fin 256), P (ix2 i k) = if h : i.val < 2000 then U (ix2 ⟨i.val, h⟩ k) else 0)
    (i q : Fin 2048) : ∑ k : Fin 256, P (ix2 i k) * P (ix2 q k) = dotU U i.val q.val := by
  unfold dotU
  by_cases hi : i.val < 2000
  · by_cases hq : q.val < 2000
    · rw [dif_pos hi, dif_pos hq]
      refine Finset.sum_congr rfl fun k _ => ?_
      rw [hP i k, hP q k, dif_pos hi, dif_pos hq]
    · rw [dif_pos hi, dif_neg hq]
      refine Finset.sum_eq_zero fun k _ => ?_
      rw [hP q k, dif_neg hq, mul_zero]
  · rw [dif_neg hi]
    refine Finset.sum_eq_zero fun k _ => ?_
    rw [hP i k, dif_neg hi, zero_mul]

theorem upperU_right (U : (⟨2, ![2000, 256]⟩ : Shape).Idx → EReal) (i q : ℕ) (hq : 2000 ≤ q) : upperU U i q = 0 := by
  unfold upperU dotU
  split
  · split
    · rw [dif_neg (by omega)]
    · rfl
  · rfl

theorem upperU_left (U : (⟨2, ![2000, 256]⟩ : Shape).Idx → EReal) (i q : ℕ) (hi : 2000 ≤ i) : upperU U i q = 0 := by
  unfold upperU dotU
  split
  · rw [dif_neg (by omega)]
  · rfl

end SumShapes

open SumShapes

/-- COS: with P the memory padded by 48 zero rows, the eight row-blocks' strictly-upper-triangle sums of P Pᵀ add up
    to cosSum U -/
theorem cos_blocks (U : (⟨2, ![2000, 256]⟩ : Shape).Idx → EReal) (P : (⟨2, ![2048, 256]⟩ : Shape).Idx → EReal)
    (hP : ∀ (i : Fin 2048) (k : Fin 256), P (ix2 i k) = if h : i.val < 2000 then U (ix2 ⟨i.val, h⟩ k) else 0) :
    ∑ b : Fin 8, (∑ p : Fin 256, ∑ q : Fin 2048,
        if b.val * 256 + p.val < q.val then
          ∑ k : Fin 256, P (ix2 (⟨b.val * 256 + p.val, by omega⟩ : Fin 2048) k) * P (ix2 q k) else 0) = cosSum U := by
  -- the eight blocks of 256 rows are the 2048 rows
  refine Eq.trans (blocks2_fin 8 256 2048 rfl
    (fun i : Fin 2048 => ∑ q : Fin 2048, if i.val < q.val then ∑ k : Fin 256, P (ix2 i k) * P (ix2 q k) else 0)
    (fun b p => by omega)) ?_
  -- every entry is the upper triangle of the memory's inner products, continued by zero
  have h1 : ∀ i : Fin 2048, (∑ q : Fin 2048, if i.val < q.val then ∑ k : Fin 256, P (ix2 i k) * P (ix2 q k) else 0)
      = ∑ q : Fin 2000, upperU U i.val q.val := fun i => by
    rw [← sum_fin_trunc (n := 2000) (m := 2048) (by omega) (fun q => upperU U i.val q)
      (fun q hq _ => upperU_right U i.val q hq)]
    refine Finset.sum_congr rfl fun q _ => ?_
    unfold upperU
    rw [dot_pad U P hP i q]
  rw [Finset.sum_congr rfl fun i _ => h1 i]
  rw [sum_fin_trunc (n := 2000) (m := 2048) (by omega) (fun i => ∑ q : Fin 2000, upperU U i q.val)
    (fun i hi _ => Finset.sum_eq_zero fun q _ => upperU_left U i q.val hi)]
  unfold cosSum
  refine Finset.sum_congr rfl fun i _ => Finset.sum_congr rfl fun q _ => ?_
  unfold upperU dotU
  by_cases h : i.val < q.val
  · rw [if_pos h, if_pos (show i < q from h), dif_pos i.isLt, dif_pos q.isLt]
  · rw [if_neg h, if_neg (show ¬ i < q from h)]

/-- the re-laying itself: a row-major reshape [32,3,256,256] -> [49152,128] is a bijection of index types, so sums
    agree -/
theorem sum_reshape (x y : (⟨4, ![32, 3, 256, 256]⟩ : Shape).Idx → EReal)
    (h : (⟨4, ![32, 3, 256, 256]⟩ : Shape).ShapeCasts (⟨2, ![49152, 128]⟩ : Shape)) (φ : EReal → EReal → EReal) :
    ∑ j, φ (shapeCast (⟨2, ![49152, 128]⟩ : Shape) x h j) (shapeCast (⟨2, ![49152, 128]⟩ : Shape) y h j)
      = ∑ i, φ (x i) (y i) :=
  Equiv.sum_comp (Shape.reshapeEquiv h) (fun i => φ (x i) (y i))

end Cert.MemAE

end
-- ==== Proof.LibPadRead.lean ====
/-
  A padded array read at an index (`stablehlo.pad` with no interior padding).

  `pad t lo hi interior x v` holds, at a result index `j`, the operand `x` where `j` minus the low padding is an
  operand index on every axis, and the padding value `v` elsewhere. With no interior padding the two cases are
  plain intervals: `j` is inside when `lo a ≤ j a < lo a + size a` on every axis `a`, and then reads `x` at
  `j - lo`; it is outside as soon as ONE axis leaves its interval, and then reads the padding value.
  The caller names the operand index by its coordinates and owes one linear equation per axis.
-/
import Idealize.ShloMosaic.PureOps.Ideal

namespace Cert.Lib.PadRead

open Idealize.ShloMosaic

variable {s t u : Shape} {α : Type}

/-- INSIDE: if on every axis the result coordinate is the low padding plus an operand coordinate `k a` (and the
    axis has no interior padding), the padded array reads the operand at `k`. -/
theorem pad_apply_inside (lo hi interior : Fin s.rank → Nat) (x : s.Idx → α) (v : u.Idx → α)
    (h : s.Pads lo hi interior t) (hu : 0 < u.numel) (j : t.Idx) (k : s.Idx)
    (hint : ∀ a, interior a = 0)
    (hk : ∀ a : Fin s.rank, (j (a.cast h.1)).val = lo a + (k a).val) :
    pad t lo hi interior x v h hu j = x k := by
  unfold pad
  have hin : ∀ a : Fin s.rank, lo a ≤ (j (a.cast h.1)).val
      ∧ ((j (a.cast h.1)).val - lo a) % (interior a + 1) = 0
      ∧ ((j (a.cast h.1)).val - lo a) / (interior a + 1) < s.size a := fun a => by
    rw [hint a, hk a, Nat.add_sub_cancel_left, Nat.zero_add, Nat.mod_one, Nat.div_one]
    exact ⟨Nat.le_add_right _ _, rfl, (k a).isLt⟩
  rw [dif_pos hin]
  refine congrArg x (funext fun a => Fin.ext ?_)
  show ((j (a.cast h.1)).val - lo a) / (interior a + 1) = (k a).val
  rw [hint a, hk a, Nat.add_sub_cancel_left, Nat.zero_add, Nat.div_one]

/-- OUTSIDE: if on ONE axis (without interior padding) the result coordinate is below the low padding or at or
    past the low padding plus the operand's extent, the padded array reads the padding value. -/
theorem pad_apply_outside (lo hi interior : Fin s.rank → Nat) (x : s.Idx → α) (v : u.Idx → α)
    (h : s.Pads lo hi interior t) (hu : 0 < u.numel) (j : t.Idx) (a : Fin s.rank)
    (hint : interior a = 0)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint, Nat.zero_add, Nat.div_one] at h3
  omega

end Cert.Lib.PadRead
-- ==== Proof.KernelPad.lean ====
/-
  The host's zero padding of the normalised memory, read at an index: rows below 2000 are the memory's rows, the 48
  rows after them hold the padding value, and the padding value — the integer 0 converted — is the extended real 0.
-/
import proofs.«122163_j54013508714894_2_alg».proof.KernelIdeal
import proofs.«122163_j54013508714894_2_alg».proof.Proof.LibPadRead
import Idealize.ShloMosaic.Lib.ValueIdx

noncomputable section

namespace Cert.MemAE

open Idealize.ShloMosaic Idealize.ShloMosaic.ValueIdx
open Cert.KernelIdeal Cert.KernelIdeal.Facts₀

variable [Facts₀]

/-- The padded array at row i, column k: the operand's entry when i is one of its 2000 rows, the padding value on the
    48 rows after them. -/
theorem pad_read (x : FVec Ideal S2000x256 .f32) (v : FVec Ideal S_ .f32) (i : Fin 2048) (k : Fin 256) :
    pad S2048x256 ![0, 0] ![48, 0] ![0, 0] x v pads_S2000x256_S2048x256_0480_000 h_S_ (ix2 i k)
      = if h : i.val < 2000 then x (ix2 ⟨i.val, h⟩ k) else v ix0 := by
  by_cases h : i.val < 2000
  · rw [dif_pos h]
    refine Cert.Lib.PadRead.pad_apply_inside _ _ _ x v _ _ (ix2 i k) (ix2 ⟨i.val, h⟩ k) (fun a => ?_) (fun a => ?_)
    · match a with
      | ⟨0, _⟩ => rfl
      | ⟨1, _⟩ => rfl
    · match a with
      | ⟨0, _⟩ => show i.val = 0 + i.val; omega
      | ⟨1, _⟩ => show k.val = 0 + k.val; omega
  · rw [dif_neg h]
    refine (Cert.Lib.PadRead.pad_apply_outside _ _ _ x v _ _ (ix2 i k) ⟨0, by decide⟩ rfl (Or.inr ?_)).trans ?_
    · show 0 + 2000 ≤ i.val
      omega
    · exact congrArg v (eq_ix0 _)

/-- The padding value: the 32-bit integer 0, converted to a float, is the extended real 0. -/
theorem pad_value : (sitofp (F := Ideal) .f32 (constantI S_ 32 0#32)) ix0 = (0 : EReal) := by
  show (((0#32 : BitVec 32).toInt : ℝ) : EReal) = 0
  simp

end Cert.MemAE

end
-- ==== Proof.LibIdx3.lean ====
/-
  Sums over a rank-3 index set.

  An index of an `[n0, n1, n2]` array is its three coordinates, so a sum over the whole index set — what a reduction
  over all three axes at once computes — is the triple sum over the coordinates, the leading axis outermost.  This is
  the step between a total taken in one go and the same total taken slice by slice along the leading axis.
-/
import Idealize.ShloMosaic.Lib.ValueIdx

noncomputable section

namespace Idealize.ShloMosaic.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.Idx3

end
-- ==== Proof.KValue.lean ====
/-
  The kernel's value: what the buffer of the returned scalar holds after the last segment, read back through the ten
  segment boundaries to the launch memory.  The three pallas_calls leave per-core (or per-call) totals of their
  blocks' partial sums; the host adds the cores' totals, divides, scales, subtracts and adds.  Block by block the
  partial sums are the specification's sums over the rows, entries and row pairs.
-/
import proofs.«122163_j54013508714894_2_alg».proof.Proof.Run
import proofs.«122163_j54013508714894_2_alg».proof.Proof.KBlocks
import proofs.«122163_j54013508714894_2_alg».proof.Proof.R0Value
import proofs.«122163_j54013508714894_2_alg».proof.Proof.R1Value
import proofs.«122163_j54013508714894_2_alg».proof.Proof.R2Value
import proofs.«122163_j54013508714894_2_alg».proof.Proof.Payloads1
import proofs.«122163_j54013508714894_2_alg».proof.Proof.Payloads2
import proofs.«122163_j54013508714894_2_alg».proof.Proof.SumShapes
import proofs.«122163_j54013508714894_2_alg».proof.Proof.KernelPad
import proofs.«122163_j54013508714894_2_alg».proof.Proof.LibIdx3
import proofs.«122163_j54013508714894_2_alg».proof.Proof.Spec
import Idealize.ShloMosaic.Lib.StableHlo.Run
import Idealize.ShloMosaic.Lib.IdealHost
import Idealize.ShloMosaic.PureOps.Ideal.Laws

set_option maxRecDepth 16384

noncomputable section

namespace Cert.MemAE

open Cert.KernelIdeal Cert.KernelIdeal.Gen
open Idealize.ShloMosaic

/-- The memory with every row divided by its Euclidean norm, the norm kept above a small floor: the host's own term. -/
def unitK (mem : FVec Ideal S2000x256 .f32) : FVec Ideal S2000x256 .f32 :=
  Host.divf mem (broadcastInDim S2000x256 ![0, 1] Facts₀.bcast_S2000x1_S2000x256_0_1
    (maximumf (Host.sqrt (broadcastInDim S2000x1 ![0] Facts₀.bcast_S2000_S2000x1_0
        (Host.reduceAdd (mulf mem mem) (constant S_ .f32 0x00000000#32) Facts₀.reducesTo_S2000x256_S2000_d1 Facts₀.h_S_)))
      (broadcastInDim S2000x1 ![] Facts₀.bcast_S_S2000x1 (constant S_ .f32 0x322BCC77#32))))

end Cert.MemAE

namespace Cert.MemAE.KV

open Cert.KernelIdeal Cert.KernelIdeal.Gen Cert.KernelIdeal.Hand
open Idealize.ShloMosaic Idealize.ShloMosaic.TcCoe Idealize.ShloMosaic.ValueIdx Idealize.ShloMosaic.StableHlo
open Idealize.ShloMosaic.Idx3
open Idealize.SL.Sem
open Cert.MemAE

variable (m : (ℓ : Loc nD τ sig) → Buf (Elt Ideal) ℓ) (c : Dev nD)

/-! ## The launch arrays, at their types -/

/-- The network's output, a [32,3,256,256] array. -/
abbrev argOut : S32x3x256x256.Idx → EReal := m ((c : Thread nD τ).loc main_arg0)
/-- The ground truth, a [32,3,256,256] array. -/
abbrev argGt : S32x3x256x256.Idx → EReal := m ((c : Thread nD τ).loc main_arg1)
/-- The attention weights, an [8192,2000] array. -/
abbrev argAtt : S8192x2000.Idx → EReal := m ((c : Thread nD τ).loc main_arg2)
/-- The memory, a [2000,256] array. -/
abbrev argMem : FVec Ideal S2000x256 .f32 := m ((c : Thread nD τ).loc main_arg3)

/-! ## Stretch 0: the two arguments re-laid as [49152,128] -/

theorem W1_v0 : (W1 (F := Ideal) m c (Proc.devRef .tc main_v0) : S49152x128.Idx → EReal)
    = shapeCast S49152x128 (argGt m c) Facts₀.shapeCasts_S32x3x256x256_S49152x128 := by
  show StableHlo.after hostOps0 _ (Proc.devRef .tc main_v0) = _
  after_results
  all_goals rfl

theorem W1_v1 : (W1 (F := Ideal) m c (Proc.devRef .tc main_v1) : S49152x128.Idx → EReal)
    = shapeCast S49152x128 (argOut m c) Facts₀.shapeCasts_S32x3x256x256_S49152x128 := by
  show StableHlo.after hostOps0 _ (Proc.devRef .tc main_v1) = _
  after_results
  all_goals rfl

/-! ## What a segment does not write it leaves as it found it -/

theorem thru1 (r : Ref sig .tc) (h : r ∉ hostOps0_W) :
    W1 (F := Ideal) m c (Proc.devRef .tc r) = W0 m c (Proc.devRef .tc r) :=
  StableHlo.after_of_writes_sub hostOps0 _ hostOps0_writes h
theorem thru3 (r : Ref sig .tc) (h : r ∉ hostOps1_W) :
    W3 (F := Ideal) m c (Proc.devRef .tc r) = W2 m c (Proc.devRef .tc r) :=
  StableHlo.after_of_writes_sub hostOps1 _ hostOps1_writes h
theorem thru5 (r : Ref sig .tc) (h : r ∉ hostOps2_W) :
    W5 (F := Ideal) m c (Proc.devRef .tc r) = W4 m c (Proc.devRef .tc r) :=
  StableHlo.after_of_writes_sub hostOps2 _ hostOps2_writes h
theorem thru6 (r : Ref sig .tc) (h : r ∉ hostOps2_1_W) :
    W6 (F := Ideal) m c (Proc.devRef .tc r) = W5 m c (Proc.devRef .tc r) :=
  StableHlo.after_of_writes_sub hostOps2_1 _ hostOps2_1_writes h
theorem thru7 (r : Ref sig .tc) (h : r ∉ hostOps2_2_W) :
    W7 (F := Ideal) m c (Proc.devRef .tc r) = W6 m c (Proc.devRef .tc r) :=
  StableHlo.after_of_writes_sub hostOps2_2 _ hostOps2_2_writes h
theorem thru8 (r : Ref sig .tc) (h : r ∉ hostOps2_3_W) :
    W8 (F := Ideal) m c (Proc.devRef .tc r) = W7 m c (Proc.devRef .tc r) :=
  StableHlo.after_of_writes_sub hostOps2_3 _ hostOps2_3_writes h
theorem thru9 (r : Ref sig .tc) (h : r ≠ main_v15) :
    W9 (F := Ideal) m c (Proc.devRef .tc r) = W8 m c (Proc.devRef .tc r) := by
  unfold W9
  exact Function.update_of_ne (StableHlo.devRef_ne_of_ne h) _ _

/-- The attention weights reach region 1 as launched. -/
theorem att_at_W3 : (W3 (F := Ideal) m c (Proc.devRef .tc main_arg2) : S8192x2000.Idx → EReal) = argAtt m c :=
  (thru3 m c main_arg2 (by decide)).trans ((W2_of_ne m c main_arg2 (by decide)).trans (thru1 m c main_arg2 (by decide)))

/-- The memory reaches the normalisation as launched. -/
theorem mem_at_W5 : (W5 (F := Ideal) m c (Proc.devRef .tc main_arg3) : FVec Ideal S2000x256 .f32) = argMem m c :=
  (thru5 m c main_arg3 (by decide)).trans ((W4_of_ne m c main_arg3 (by decide)).trans ((thru3 m c main_arg3 (by decide)).trans
    ((W2_of_ne m c main_arg3 (by decide)).trans (thru1 m c main_arg3 (by decide)))))

/-! ## The host stretches' own results -/

/-- After stretch 1: the two cores' totals added from zero, divided by the entry count's literal. -/
theorem W3_v4 : (W3 (F := Ideal) m c (Proc.devRef .tc main_v4) : FVec Ideal S_ .f32)
    = Host.divf (Host.reduceAdd (W2 (F := Ideal) m c (Proc.devRef .tc main_v2) : FVec Ideal S2x1x1 .f32)
        (constant (F := Ideal) S_ .f32 0x00000000#32) Facts₀.reducesTo_S2x1x1_S_d0_1_2 Facts₀.h_S_)
      (constant (F := Ideal) S_ .f32 0x4AC00000#32) := by
  show StableHlo.after hostOps1 _ (Proc.devRef .tc main_v4) = _
  after_results
  all_goals rfl

/-- After stretch 2: the first term minus the literal times the two cores' entropy totals added from zero. -/
theorem W5_v8 : (W5 (F := Ideal) m c (Proc.devRef .tc main_v8) : FVec Ideal S_ .f32)
    = subf (W4 (F := Ideal) m c (Proc.devRef .tc main_v4) : FVec Ideal S_ .f32)
        (mulf (constant (F := Ideal) S_ .f32 0x3951B717#32)
          (Host.reduceAdd (W4 (F := Ideal) m c (Proc.devRef .tc main_v5) : FVec Ideal S2x1x1 .f32)
            (constant (F := Ideal) S_ .f32 0x00000000#32) Facts₀.reducesTo_S2x1x1_S_d0_1_2 Facts₀.h_S_)) := by
  show StableHlo.after hostOps2 _ (Proc.devRef .tc main_v8) = _
  after_results
  all_goals rfl

/-- After the norm's stretch: the rows' norms as a column. -/
theorem W6_v9 : (W6 (F := Ideal) m c (Proc.devRef .tc main_v9) : FVec Ideal S2000x1 .f32)
    = Host.sqrt (broadcastInDim S2000x1 ![0] Facts₀.bcast_S2000_S2000x1_0
        (Host.reduceAdd (mulf (W5 (F := Ideal) m c (Proc.devRef .tc main_arg3) : FVec Ideal S2000x256 .f32)
            (W5 (F := Ideal) m c (Proc.devRef .tc main_arg3) : FVec Ideal S2000x256 .f32))
          (constant (F := Ideal) S_ .f32 0x00000000#32) Facts₀.reducesTo_S2000x256_S2000_d1 Facts₀.h_S_)) := by
  show StableHlo.after hostOps2_1 _ (Proc.devRef .tc main_v9) = _
  after_results
  all_goals rfl

/-- After the normalising stretch: the memory over its floored norms. -/
theorem W7_v13 : (W7 (F := Ideal) m c (Proc.devRef .tc main_v13) : FVec Ideal S2000x256 .f32)
    = Host.divf (W6 (F := Ideal) m c (Proc.devRef .tc main_arg3) : FVec Ideal S2000x256 .f32)
        (broadcastInDim S2000x256 ![0, 1] Facts₀.bcast_S2000x1_S2000x256_0_1
          (maximumf (W6 (F := Ideal) m c (Proc.devRef .tc main_v9) : FVec Ideal S2000x1 .f32)
            (broadcastInDim S2000x1 ![] Facts₀.bcast_S_S2000x1 (constant (F := Ideal) S_ .f32 0x322BCC77#32)))) := by
  show StableHlo.after hostOps2_2 _ (Proc.devRef .tc main_v13) = _
  after_results
  all_goals rfl

/-- and the integer zero the padding converts. -/
theorem W7_c : (W7 (F := Ideal) m c (Proc.devRef .tc main_c) : IVec S_ 32) = constantI S_ 32 0#32 := by
  show StableHlo.after hostOps2_2 _ (Proc.devRef .tc main_c) = _
  after_results
  all_goals rfl

/-- After the padding stretch: the normalised memory with 48 rows of the converted zero below it. -/
theorem W8_v14 : (W8 (F := Ideal) m c (Proc.devRef .tc main_v14) : FVec Ideal S2048x256 .f32)
    = pad S2048x256 ![0, 0] ![48, 0] ![0, 0] (W7 (F := Ideal) m c (Proc.devRef .tc main_v13) : FVec Ideal S2000x256 .f32)
        (sitofp (F := Ideal) .f32 (W7 (F := Ideal) m c (Proc.devRef .tc main_c) : IVec S_ 32))
        Facts₀.pads_S2000x256_S2048x256_0480_000 Facts₀.h_S_ := by
  show StableHlo.after hostOps2_3 _ (Proc.devRef .tc main_v14) = _
  after_results
  all_goals rfl

/-- After the last stretch: the first two terms plus the third kernel's total. -/
theorem W10_v17 : (W10 (F := Ideal) m c (Proc.devRef .tc main_v17) : FVec Ideal S_ .f32)
    = addf (F := Ideal) (s := S_) (φ := .f32) (W9 (F := Ideal) m c (Proc.devRef .tc main_v8) : FVec Ideal S_ .f32)
        (shapeCast S_ (W9 (F := Ideal) m c (Proc.devRef .tc main_v15) : FVec Ideal S1x1 .f32) Facts₀.shapeCasts_S1x1_S_) := by
  show StableHlo.after hostOps3 _ (Proc.devRef .tc main_v17) = _
  after_results
  all_goals rfl

/-! ## The host's sum of a [2,1,1] array from zero -/

/-- A sum over the indices of a [2,1,1] array is the sum over its two leading coordinates. -/
theorem sum_2x1x1 (f : S2x1x1.Idx → EReal) : ∑ j, f j = ∑ a : Fin 2, f (ix3 a (0 : Fin 1) (0 : Fin 1)) := by
  refine (sum_idx3 f).trans (Finset.sum_congr rfl fun a _ => ?_)
  rw [Fin.sum_univ_one, Fin.sum_univ_one]

/-- The host's reduction of a [2,1,1] array over all three axes from the zero literal is the sum of its two entries. -/
theorem total_2x1x1 (X : FVec Ideal S2x1x1 .f32) :
    Host.reduceAdd X (constant (F := Ideal) S_ .f32 0x00000000#32) Facts₀.reducesTo_S2x1x1_S_d0_1_2 Facts₀.h_S_ ix0
      = ∑ a : Fin 2, X (ix3 a (0 : Fin 1) (0 : Fin 1)) := by
  rw [hostReduceAdd_apply, Ideal.hostReduceAdd_total _ (fun b => b.elim0), constant_apply, Ideal.ofBits_zero_f32, zero_add,
    sum_2x1x1]

/-! ## The first term: the sum of squared differences over the literal -/

/-- The squared difference of the two re-laid arrays at an index of the [49152,128] layout. -/
def sqDiff (j : S49152x128.Idx) : EReal :=
  (shapeCast S49152x128 (argGt m c) Facts₀.shapeCasts_S32x3x256x256_S49152x128 j
      - shapeCast S49152x128 (argOut m c) Facts₀.shapeCasts_S32x3x256x256_S49152x128 j)
    * (shapeCast S49152x128 (argGt m c) Facts₀.shapeCasts_S32x3x256x256_S49152x128 j
      - shapeCast S49152x128 (argOut m c) Facts₀.shapeCasts_S32x3x256x256_S49152x128 j)

/-- Its sum over the re-laid index set is the specification's sum over the rank-4 index set. -/
theorem sum_sqDiff : ∑ j, sqDiff m c j = sse (argOut m c) (argGt m c) :=
  sum_reshape (argGt m c) (argOut m c) Facts₀.shapeCasts_S32x3x256x256_S49152x128 (fun u v => (u - v) * (u - v))

/-- One block's partial sum: the squared differences over the block's rows. -/
theorem part0_block (a : Fin 2) (i : Fin 3) (h : a.val * 3 + i.val < cfg0.N) :
    part0 (iblk0 (E1 m) c 0 ⟨a.val * 3 + i.val, h⟩) (iblk0 (E1 m) c 1 ⟨a.val * 3 + i.val, h⟩)
      = ∑ r : Fin 8192, ∑ l : Fin 128, sqDiff m c (ix2 (⟨(a.val * 3 + i.val) * 8192 + r.val, by omega⟩ : Fin 49152) l) := by
  unfold part0
  refine Finset.sum_congr rfl fun r _ => Finset.sum_congr rfl fun l _ => ?_
  have e0 := (iblk0_0_apply (E1 m) c ⟨a.val * 3 + i.val, h⟩ r l).trans (congrFun (W1_v0 m c) _)
  have e1 := (iblk0_1_apply (E1 m) c ⟨a.val * 3 + i.val, h⟩ r l).trans (congrFun (W1_v1 m c) _)
  exact congrArg₂ (fun u v : EReal => (u - v) * (u - v)) e0 e1

theorem sse_value : (W3 (F := Ideal) m c (Proc.devRef .tc main_v4) : FVec Ideal S_ .f32) ix0
    = Ideal.div (sse (argOut m c) (argGt m c)) (Ideal.ofBits .f32 0x4AC00000#32) := by
  rw [W3_v4, hostDivf_apply, total_2x1x1, constant_apply]
  refine congrArg (fun s : EReal => Ideal.div s (Ideal.ofBits .f32 0x4AC00000#32)) ?_
  have hW2 : (W2 (F := Ideal) m c (Proc.devRef .tc main_v2) : FVec Ideal S2x1x1 .f32) = (dat0 (E1 m) c).arrAt 2 cfg0.N :=
    W2_arr m c 2
  rw [hW2, X0_eq (E1 m) c]
  refine Eq.trans ?_ ((sse_blocks (sqDiff m c)).trans (sum_sqDiff m c))
  refine Finset.sum_congr rfl fun a _ => Finset.sum_congr rfl fun i _ => ?_
  exact part0_block m c a i (pt0_lt (ix3 a (0 : Fin 1) (0 : Fin 1)) i)

/-! ## The second term: the literal times the entropy regulariser -/

theorem reg_value : Host.reduceAdd (W4 (F := Ideal) m c (Proc.devRef .tc main_v5) : FVec Ideal S2x1x1 .f32)
      (constant (F := Ideal) S_ .f32 0x00000000#32) Facts₀.reducesTo_S2x1x1_S_d0_1_2 Facts₀.h_S_ ix0
    = reg (argAtt m c) := by
  rw [total_2x1x1]
  have hW4 : (W4 (F := Ideal) m c (Proc.devRef .tc main_v5) : FVec Ideal S2x1x1 .f32) = (dat1 (E3 m) c).arrAt 1 cfg1.N :=
    W4_arr m c 1
  rw [hW4, X1_eq (E3 m) c]
  unfold reg
  refine Eq.trans ?_ (reg_blocks (fun row : Fin 8192 => rowTerm (fun k : Fin 2000 => argAtt m c (ix2 row k))))
  refine Finset.sum_congr rfl fun a _ => Finset.sum_congr rfl fun i _ => ?_
  unfold part1
  refine Finset.sum_congr rfl fun r _ => ?_
  refine congrArg rowTerm (funext fun k => ?_)
  exact (iblk1_0_apply (E3 m) c ⟨a.val * 16 + i.val, pt1_lt (ix3 a (0 : Fin 1) (0 : Fin 1)) i⟩ r k).trans
    (congrFun (att_at_W3 m c) _)

/-- The first two terms, after stretch 2. -/
theorem first_two : (W5 (F := Ideal) m c (Proc.devRef .tc main_v8) : FVec Ideal S_ .f32) ix0
    = Ideal.div (sse (argOut m c) (argGt m c)) (Ideal.ofBits .f32 0x4AC00000#32)
      - Ideal.ofBits .f32 0x3951B717#32 * reg (argAtt m c) := by
  rw [W5_v8, subf_apply, mulf_apply, constant_apply, reg_value]
  refine congrArg (fun s : EReal => s - Ideal.ofBits .f32 0x3951B717#32 * reg (argAtt m c)) ?_
  exact (congrFun (W4_of_ne m c main_v4 (by decide)) ix0).trans (sse_value m c)

/-! ## The third term: the inner products of distinct rows of the normalised memory -/

/-- The normalised memory, as the padding finds it. -/
theorem W7_unit : (W7 (F := Ideal) m c (Proc.devRef .tc main_v13) : FVec Ideal S2000x256 .f32)
    = unitK (argMem m c) := by
  rw [W7_v13, W6_v9, thru6 m c main_arg3 (by decide), mem_at_W5]
  rfl

/-- The padded memory read at an index: the normalised memory's rows, then rows of zeros. -/
theorem padded_read (i : Fin 2048) (k : Fin 256) :
    (W8 (F := Ideal) m c (Proc.devRef .tc main_v14) : FVec Ideal S2048x256 .f32) (ix2 i k)
      = if h : i.val < 2000 then unitK (argMem m c) (ix2 ⟨i.val, h⟩ k) else 0 := by
  rw [W8_v14, pad_read, W7_unit, W7_c, pad_value]

/-- A [1,1] array cast to rank 0 reads its one entry. -/
theorem cast_1x1_scalar (v : FVec Ideal S1x1 .f32) (h : S1x1.ShapeCasts S_) :
    shapeCast S_ v h ix0 = v (ix2 (0 : Fin 1) (0 : Fin 1)) := by
  refine shapeCast_apply v h ix0 (ix2 (0 : Fin 1) (0 : Fin 1)) ?_
  have h1 := (S1x1.rowMajor (ix2 (0 : Fin 1) (0 : Fin 1))).isLt
  have h2 := (S_.rowMajor ix0).isLt
  have e1 : S1x1.numel = 1 := by decide
  have e2 : S_.numel = 1 := by decide
  omega

theorem cos_value : shapeCast S_ (W9 (F := Ideal) m c (Proc.devRef .tc main_v15) : FVec Ideal S1x1 .f32) Facts₀.shapeCasts_S1x1_S_ ix0
    = cosSum (unitK (argMem m c)) := by
  rw [cast_1x1_scalar]
  have hW9 : (W9 (F := Ideal) m c (Proc.devRef .tc main_v15) : FVec Ideal S1x1 .f32) = (dat2 (E8 m) c).arrAt 2 cfg2.N := by
    unfold W9; exact Function.update_self _ _ _
  rw [hW9, X2_eq (E8 m) c]
  show (∑ b : Fin 8, part2 b.val (iblk2 (E8 m) c 0 ⟨b.val, pt2_lt b⟩) (iblk2 (E8 m) c 1 ⟨b.val, pt2_lt b⟩) : EReal) = _
  refine Eq.trans ?_ (cos_blocks (unitK (argMem m c))
    (W8 (F := Ideal) m c (Proc.devRef .tc main_v14) : FVec Ideal S2048x256 .f32) (padded_read m c))
  refine Finset.sum_congr rfl fun b _ => ?_
  unfold part2
  refine Finset.sum_congr rfl fun p _ => Finset.sum_congr rfl fun q _ => ?_
  refine congrArg (fun s : EReal => if b.val * 256 + p.val < q.val then s else 0) ?_
  refine Finset.sum_congr rfl fun k _ => ?_
  exact congrArg₂ (fun u v : EReal => u * v) (iblk2_0_apply (E8 m) c ⟨b.val, pt2_lt b⟩ p k) (iblk2_1_apply (E8 m) c ⟨b.val, pt2_lt b⟩ q k)

/-! ## The returned scalar -/

theorem value_at : (W10 (F := Ideal) m c (Proc.devRef .tc main_v17) : FVec Ideal S_ .f32) ix0
    = loss (argOut m c) (argGt m c) (argAtt m c)
        (unitK (argMem m c)) := by
  rw [W10_v17, addf_apply, cos_value]
  unfold loss combine
  refine congrArg (fun s : EReal => s + cosSum (unitK (argMem m c))) ?_
  refine Eq.trans (congrFun ?_ ix0) (first_two m c)
  exact (thru9 m c main_v8 (by decide)).trans ((thru8 m c main_v8 (by decide)).trans ((thru7 m c main_v8 (by decide)).trans
    (thru6 m c main_v8 (by decide))))

end Cert.MemAE.KV

namespace Cert.MemAE

open Cert.KernelIdeal Cert.KernelIdeal.Gen Cert.KernelIdeal.Hand
open Idealize.ShloMosaic Idealize.ShloMosaic.TcCoe Idealize.ShloMosaic.ValueIdx
open Idealize.SL.Sem

/-- THE KERNEL'S VALUE: after the last segment the returned scalar's buffer holds the loss of the launch arrays, the
    memory normalised by the host's own term. -/
theorem kernel_value (m : (ℓ : Loc nD τ sig) → Buf (Elt Ideal) ℓ) (c : Dev nD) :
    W10 (F := Ideal) m c (Proc.devRef .tc main_v17) = fun _ => Cert.MemAE.loss (m ((c : Thread nD τ).loc main_arg0))
      (m ((c : Thread nD τ).loc main_arg1)) (m ((c : Thread nD τ).loc main_arg2)) (unitK (m ((c : Thread nD τ).loc main_arg3))) := by
  funext j
  have hj : j = ix0 := eq_ix0 j
  rw [hj]
  exact KV.value_at m c

end Cert.MemAE

end
-- ==== Proof.RefSse.lean ====
/-
  The reference's reconstruction term read back as the sum of squared differences.

  The reference subtracts the output from the ground truth entry by entry, squares, and sums over all four axes from
  the zero word; at the ideal values that reduce is zero plus the sum over every index of the rank-4 shape, which is
  the specification's sum of squared differences literally.
-/
import proofs.«122163_j54013508714894_2_alg».proof.Proof.RefReadP
import proofs.«122163_j54013508714894_2_alg».proof.Proof.Spec

noncomputable section

namespace Cert.ReferenceIdeal.RefValue

open Cert.ReferenceIdeal Cert.ReferenceIdeal.ReadP Idealize.ShloMosaic Idealize.ShloMosaic.ValueIdx

/-- The reduce over all four axes of the squared differences is the specification's sum. -/
theorem sse_read (a0 a1 : FVec Ideal S32x3x256x256 .f32) (i : S_.Idx) :
    val_main_v2 (F := Ideal) a0 a1 i = Cert.MemAE.sse a0 a1 := by
  rw [val_main_v2_apply, val_main_cst_apply]
  simp only [val_main_v1_apply, val_main_v0_apply, Ideal.ofBits_def, Ideal.mulf_def, Ideal.subf_def,
    Ideal.ofBits_zero_f32, zero_add]
  rfl

end Cert.ReferenceIdeal.RefValue

end
-- ==== Proof.EntropyAlgebra.lean ====
/-
  The entropy algebra of one row, and the finiteness it needs.

  For a row x of real numbers, with M = sup_k x_k and S = sum_k e^(x_k - M):

    sum_k e^(lp_k) * lp_k   with   lp_k = (x_k - M) - log S

  equals

    (sum_k e^(x_k - M) (x_k - M)) / S - log S,

  because M is a real number (a finite nonempty supremum is attained), every e^(x_k - M) is a
  positive real, S is a positive real, e^(a - log S) = e^a / S, and the sum distributes:

    sum_k (e^(a_k) / S) (a_k - log S) = (sum_k e^(a_k) a_k) / S - log S * (sum_k e^(a_k)) / S.

  The identity is one of real numbers; it fails at the infinities, so the statement asks every
  entry of the row to be real and the proof goes through the reals.
-/
import proofs.«122163_j54013508714894_2_alg».proof.Proof.Spec
import Idealize.ShloMosaic.PureOps.Ideal
import Mathlib.Analysis.SpecialFunctions.Log.Basic
import Mathlib.Order.ConditionallyCompleteLattice.Finset

noncomputable section

namespace Cert.MemAE

open Idealize.ShloMosaic

/-- The embedding of the reals in the extended reals commutes with finite sums. -/
theorem EntropyAlgebra.coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum of a nonempty finite family of real numbers is a real number: it is attained. -/
theorem iSup_real {n : ℕ} (hn : 0 < n) (x : Fin n → EReal) (hx : ∀ k, ∃ r : ℝ, x k = (r : EReal)) :
    ∃ r : ℝ, (⨆ k, x k) = (r : EReal) := by
  haveI : Nonempty (Fin n) := ⟨⟨0, hn⟩⟩
  obtain ⟨i, hi⟩ := exists_eq_ciSup_of_finite (f := x)
  obtain ⟨r, hr⟩ := hx i
  exact ⟨r, by rw [← hi, hr]⟩

/-- The real identity behind the row: with S = sum_k e^(a_k) > 0,
    sum_k e^(a_k - log S) (a_k - log S) = (sum_k e^(a_k) a_k) / S - log S. -/
theorem EntropyAlgebra.entropy_real {n : ℕ} (a : Fin n → ℝ) (hS : 0 < ∑ l, Real.exp (a l)) :
    (∑ k, Real.exp (a k - Real.log (∑ l, Real.exp (a l))) * (a k - Real.log (∑ l, Real.exp (a l))))
      = (∑ k, Real.exp (a k) * a k) / (∑ l, Real.exp (a l)) - Real.log (∑ l, Real.exp (a l)) := by
  set S : ℝ := ∑ l, Real.exp (a l) with hSdef
  set L : ℝ := Real.log S with hLdef
  have hexp : ∀ k, Real.exp (a k - L) = Real.exp (a k) / S := by
    intro k; rw [Real.exp_sub, hLdef, Real.exp_log hS]
  calc (∑ k, Real.exp (a k - L) * (a k - L))
      = ∑ k, (Real.exp (a k) * a k / S - L * (Real.exp (a k) / S)) := by
        refine Finset.sum_congr rfl (fun k _ => ?_); rw [hexp k]; ring
    _ = (∑ k, Real.exp (a k) * a k) / S - L * ((∑ k, Real.exp (a k)) / S) := by
        rw [Finset.sum_sub_distrib, ← Finset.sum_div, ← Finset.mul_sum, ← Finset.sum_div]
    _ = (∑ k, Real.exp (a k) * a k) / S - L := by
        rw [← hSdef, div_self hS.ne', mul_one]

/-- The reference's row (the sum of e^(lp_k) lp_k over the log-probabilities lp_k) is the row term
    of the specification, for a row of real numbers. -/
theorem softmax_row {n : ℕ} (hn : 0 < n) (x : Fin n → EReal) (hx : ∀ k, ∃ r : ℝ, x k = (r : EReal)) :
    (∑ k, Ideal.exp ((x k - ⨆ j, x j) - Ideal.log (∑ l, Ideal.exp (x l - ⨆ j, x j)))
            * ((x k - ⨆ j, x j) - Ideal.log (∑ l, Ideal.exp (x l - ⨆ j, x j))))
      = rowTerm x := by
  obtain ⟨M, hM⟩ := iSup_real hn x hx
  choose r hr using hx
  haveI : Nonempty (Fin n) := ⟨⟨0, hn⟩⟩
  have hS : 0 < ∑ l, Real.exp (r l - M) :=
    Finset.sum_pos (fun l _ => Real.exp_pos _) Finset.univ_nonempty
  have hsub : ∀ k, x k - (M : EReal) = ((r k - M : ℝ) : EReal) := by
    intro k; rw [hr k, EReal.coe_sub]
  have hsum : (∑ l, Ideal.exp (((r l - M : ℝ)) : EReal)) = ((∑ l, Real.exp (r l - M) : ℝ) : EReal) := by
    rw [EntropyAlgebra.coe_finset_sum]; rfl
  have hlog : Ideal.log ((∑ l, Real.exp (r l - M) : ℝ) : EReal)
      = ((Real.log (∑ l, Real.exp (r l - M)) : ℝ) : EReal) := by
    rw [Ideal.log_coe, if_neg (not_le.mpr hS)]
  unfold rowTerm
  simp only [hM, hsub, hsum, hlog]
  rw [Ideal.div_coe hS.ne']
  simp only [← EReal.coe_sub, Ideal.exp_coe, ← EReal.coe_mul, ← EntropyAlgebra.coe_finset_sum]
  refine congrArg (fun t : ℝ => (t : EReal)) ?_
  rw [EntropyAlgebra.entropy_real (fun k => r k - M) hS]
  ring

/-- The word 0xFF800000 is minus infinity, the unit of the maximum. -/
theorem max_bot_left (y : EReal) : max (Ideal.ofBits .f32 0xFF800000#32) y = y := by
  simp [Ideal.ofBits, Ideal.ieee]

end Cert.MemAE

end
-- ==== Proof.RefReg.lean ====
/-
  The reference's entropy regulariser read back as the sum of the rows' entropy terms.

  The reference takes each row's maximum M (a reduce with a maximum body from minus infinity, then one more maximum against
  minus infinity, which changes nothing), shifts the row by it, exponentiates, sums the row, takes the logarithm, and
  subtracts: logp(r, k) = (x(r, k) - M(r)) - log (sum_l e^(x(r, l) - M(r))). It then sums e^logp * logp over both axes.
  At the ideal values the row maximum is the supremum over the row's 2000 coordinates and each reduce with an add body
  is zero plus a plain sum, so the double sum is, row by row, the left side of the row law, whose right side is the
  specification's row term.
-/
import proofs.«122163_j54013508714894_2_alg».proof.Proof.RefReadP
import proofs.«122163_j54013508714894_2_alg».proof.Proof.Spec
import proofs.«122163_j54013508714894_2_alg».proof.Proof.EntropyAlgebra
import proofs.«122163_j54013508714894_2_alg».proof.Proof.LibMaxSup
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-! ## The layout operations' index maps at coordinates -/

/-- The column a row statistic is spread from: entry (r, k) of the matrix reads entry (r, 0) of the column. -/
theorem idx_v4_ix2 (r : Fin 8192) (k : Fin 2000) : idx_main_call0_v4 (ix2 r k) = ix2 r (0 : Fin 1) :=
  funext fun a => Fin.ext (by match a with | ⟨0, _⟩ => rfl | ⟨1, _⟩ => rfl)

/-- Entry (r, 0) of the column reads entry r of the vector. -/
theorem idx_v3_ix2 (r : Fin 8192) : idx_main_call0_v3 (ix2 r (0 : Fin 1)) = ix1 r :=
  funext fun a => Fin.ext (by match a with | ⟨0, _⟩ => rfl)

theorem idx_v10_ix2 (r : Fin 8192) (k : Fin 2000) : idx_main_call0_v10 (ix2 r k) = ix2 r (0 : Fin 1) :=
  funext fun a => Fin.ext (by match a with | ⟨0, _⟩ => rfl | ⟨1, _⟩ => rfl)

theorem idx_v8_ix2 (r : Fin 8192) : idx_main_call0_v8 (ix2 r (0 : Fin 1)) = ix1 r :=
  funext fun a => Fin.ext (by match a with | ⟨0, _⟩ => rfl)

/-- The row sum at r reads the matrix at (r, k). -/
theorem idx_v7_ix1 (r : Fin 8192) (k : Fin 2000) : idx_main_call0_v7 (ix1 r) k = ix2 r k :=
  funext fun a => Fin.ext (by match a with | ⟨0, _⟩ => rfl | ⟨1, _⟩ => rfl)

/-! ## The stages at coordinates -/

/-- The reduce with a maximum body from minus infinity over the second axis, at row r: the supremum of the row. -/
theorem rowmax_raw (a2 : FVec Ideal S8192x2000 .f32) (r : Fin 8192) :
    val_main_call0_v0 (F := Ideal) a2 (ix1 r) = ⨆ k : Fin 2000, a2 (ix2 r k) := by
  unfold val_main_call0_v0 val_main_call0_cst
  refine (Host.reduce_eq_fold_single FloatOps.maximumf a2 _ reducesTo_S8192x2000_S8192_d1 (by decide) h_S_ (ix1 r)).trans ?_
  refine (Finset.fold_congr (g := fun k : Fin 2000 => a2 (ix2 r k)) fun k _ =>
    congrArg a2 (funext fun a => Fin.ext (by match a with | ⟨0, _⟩ => rfl | ⟨1, _⟩ => rfl))).trans ?_
  exact (congrArg (fun b => (Finset.univ : Finset (Fin 2000)).fold max b fun k => a2 (ix2 r k)) MaxSup.neg_inf_f32).trans
    (MaxSup.fold_max_bot_univ _)

/-- The shifted entry: x(r, k) minus the row's supremum. -/
theorem shifted_read (a2 : FVec Ideal S8192x2000 .f32) (r : Fin 8192) (k : Fin 2000) :
    val_main_call0_v5 (F := Ideal) a2 (ix2 r k) = a2 (ix2 r k) - ⨆ j : Fin 2000, a2 (ix2 r j) := by
  rw [val_main_call0_v5_apply, val_main_call0_v4_apply, idx_v4_ix2, val_main_call0_v3_apply, idx_v3_ix2,
    val_main_call0_v2_apply, val_main_call0_v1_apply, val_main_call0_cst_0_apply, rowmax_raw]
  simp only [Ideal.subf_def, Ideal.maximumf_def, Ideal.ofBits_def, Cert.MemAE.max_bot_left]

/-- The row's sum of exponentials of the shifted entries. -/
theorem sumexp_read (a2 : FVec Ideal S8192x2000 .f32) (r : Fin 8192) :
    val_main_call0_v7 (F := Ideal) a2 (ix1 r)
      = ∑ l : Fin 2000, Ideal.exp (a2 (ix2 r l) - ⨆ j : Fin 2000, a2 (ix2 r j)) := by
  rw [val_main_call0_v7_apply, val_main_call0_cst_1_apply]
  simp only [idx_v7_ix1, val_main_call0_v6_apply, shifted_read, Ideal.ofBits_def, Ideal.ofBits_zero_f32, zero_add,
    Ideal.hostUnary_exp_def]

/-- The log-softmax entry. -/
theorem logp_read (a2 : FVec Ideal S8192x2000 .f32) (r : Fin 8192) (k : Fin 2000) :
    val_main_v4 (F := Ideal) a2 (ix2 r k)
      = (a2 (ix2 r k) - ⨆ j : Fin 2000, a2 (ix2 r j))
        - Ideal.log (∑ l : Fin 2000, Ideal.exp (a2 (ix2 r l) - ⨆ j : Fin 2000, a2 (ix2 r j))) := by
  rw [val_main_v4_apply, shifted_read, val_main_call0_v10_apply, idx_v10_ix2, val_main_call0_v9_apply,
    val_main_call0_v8_apply, idx_v8_ix2, sumexp_read]
  simp only [Ideal.subf_def, Ideal.hostUnary_log_def]

/-- The reduce over both axes of e^logp * logp is the specification's regulariser, for finite entries. -/
theorem reg_read (a2 : FVec Ideal S8192x2000 .f32) (h2 : ∀ i, ∃ r : ℝ, a2 i = (r : EReal)) (i : S_.Idx) :
    val_main_v7 (F := Ideal) a2 i = Cert.MemAE.reg a2 := by
  rw [val_main_v7_apply, val_main_cst_1_apply]
  refine (congrArg (_ + ·) (sum_idx2 _)).trans ?_
  simp only [val_main_v6_apply, val_main_v5_apply, logp_read, Ideal.ofBits_def, Ideal.ofBits_zero_f32, zero_add,
    Ideal.mulf_def, Ideal.hostUnary_exp_def]
  unfold Cert.MemAE.reg
  exact Finset.sum_congr rfl fun r _ =>
    Cert.MemAE.softmax_row (by norm_num) (fun k : Fin 2000 => a2 (ix2 r k)) (fun k => h2 (ix2 r k))

end Cert.ReferenceIdeal.RefValue

end
-- ==== Proof.RefCos.lean ====
/-
  The reference's pairwise term read back as the sum over pairs of rows i < j of their inner product.

  The reference multiplies the normalised memory U by its transpose, so entry (p, q) of the product is the sum over
  k of U(p, k) * U(q, k); it keeps the strict upper triangle (a select on the comparison "row number + 0 >= column
  number" of 32-bit words, which for coordinates below 2000 is q <= p, choosing zero) and sums over both axes from the
  zero word. So the result is the double sum over (p, q) of the inner product of rows p and q when p < q and zero otherwise.
  The normalised memory stays one folded term throughout.
-/
import proofs.«122163_j54013508714894_2_alg».proof.Proof.RefReadP
import proofs.«122163_j54013508714894_2_alg».proof.Proof.Spec
import Idealize.ShloMosaic.Lib.Affine

noncomputable section

namespace Cert.ReferenceIdeal.RefValue

open Cert.ReferenceIdeal Cert.ReferenceIdeal.Gen Cert.ReferenceIdeal.ReadP Idealize.ShloMosaic Idealize.ShloMosaic.ValueIdx

/-- A coordinate below 2000 as a 32-bit word, read signed, is itself. -/
theorem toInt_ofNat_coord (p : Fin 2000) : (BitVec.ofNat 32 p.val).toInt = (p.val : ℤ) := by
  have hp := p.isLt
  have hn : (BitVec.ofNat 32 p.val).toNat = p.val := by
    rw [BitVec.toNat_ofNat]; exact Nat.mod_eq_of_lt (by omega)
  rw [BitVec.toInt_eq_toNat_of_lt (by rw [hn]; omega), hn]

/-- The triangle's select: "row + 0 >= column" on 32-bit words chooses the first branch exactly when q <= p. -/
theorem triu_select {α : Type} (p q : Fin 2000) (z g : α) :
    Scalar.select (IntOp.cmpi .sge (IntOp.addi (BitVec.ofNat 32 p.val) 0#32) (BitVec.ofNat 32 q.val)) z g
      = if p < q then g else z := by
  have e : IntOp.addi (BitVec.ofNat 32 p.val) 0#32 = BitVec.ofNat 32 p.val := by
    unfold IntOp.addi; exact BitVec.add_zero _
  rw [e]
  by_cases h : p < q
  · have h' : p.val < q.val := h
    have hc : ¬ IntOp.cmpi .sge (BitVec.ofNat 32 p.val) (BitVec.ofNat 32 q.val) = 1#1 := fun hc => by
      have := IntOp.cmpi_sge.mp hc
      rw [toInt_ofNat_coord, toInt_ofNat_coord] at this
      omega
    rw [eq_zero_of_ne_one hc, select_zero, if_pos h]
  · have h' : ¬ p.val < q.val := h
    have hc : IntOp.cmpi .sge (BitVec.ofNat 32 p.val) (BitVec.ofNat 32 q.val) = 1#1 :=
      IntOp.cmpi_sge.mpr (by rw [toInt_ofNat_coord, toInt_ofNat_coord]; omega)
    rw [hc, select_one, if_neg h]

/-- The product's left operand at output (p, q) and contraction position k is read at (p, k). -/
theorem lidx_v16_ix2 (p q : Fin 2000) (k : Fin 256) : lidx_main_v16 (ix2 p q) k = ix2 p k :=
  funext fun a => Fin.ext (by match a with | ⟨0, _⟩ => rfl | ⟨1, _⟩ => rfl)

/-- The right operand is the transpose, so at (p, q) and k the normalised memory is read at (q, k). -/
theorem ridx_v15_ix2 (p q : Fin 2000) (k : Fin 256) : idx_main_v15 (ridx_main_v16 (ix2 p q) k) = ix2 q k :=
  funext fun a => Fin.ext (by match a with | ⟨0, _⟩ => rfl | ⟨1, _⟩ => rfl)

/-- Entry (p, q) of the product with the transpose: the inner product of rows p and q. -/
theorem gram_read (a3 : FVec Ideal S2000x256 .f32) (p q : Fin 2000) :
    val_main_v16 (F := Ideal) a3 (ix2 p q)
      = ∑ k : Fin 256, val_main_v14 (F := Ideal) a3 (ix2 p k) * val_main_v14 (F := Ideal) a3 (ix2 q k) := by
  rw [val_main_v16_apply]
  simp only [val_main_v15_apply, lidx_v16_ix2, ridx_v15_ix2]

/-- Entry (p, q) of the strict upper triangle. -/
theorem triu_read (a3 : FVec Ideal S2000x256 .f32) (p q : Fin 2000) :
    val_main_v17 (F := Ideal) a3 (ix2 p q)
      = if p < q then ∑ k : Fin 256, val_main_v14 (F := Ideal) a3 (ix2 p k) * val_main_v14 (F := Ideal) a3 (ix2 q k) else 0 := by
  rw [val_main_v17_apply, val_main_call2_v4_apply, val_main_call2_v2_apply, val_main_call2_v0_apply,
    val_main_call2_v1_apply, val_main_call2_c_apply, val_main_call2_v3_apply, val_main_call2_v5_apply,
    val_main_call2_cst_apply, gram_read]
  refine (triu_select p q _ _).trans ?_
  rw [Ideal.ofBits_def, Ideal.ofBits_zero_f32]

/-- The reduce over both axes of the triangle is the specification's pairwise sum of the normalised memory. -/
theorem cos_read (a3 : FVec Ideal S2000x256 .f32) (i : S_.Idx) :
    val_main_v18 (F := Ideal) a3 i = Cert.MemAE.cosSum (val_main_v14 (F := Ideal) a3) := by
  rw [val_main_v18_apply, val_main_cst_4_apply]
  refine (congrArg (_ + ·) (sum_idx2 _)).trans ?_
  simp only [triu_read, Ideal.ofBits_def, Ideal.ofBits_zero_f32, zero_add]
  rfl

end Cert.ReferenceIdeal.RefValue

end
-- ==== Proof.RefValue.lean ====
/-
  The reference program's run read back as the specification.

  The reference is a straight line of host operations; every weakly fair execution of it terminates with its result
  buffer at the operations' composed term of the four argument arrays, the arguments unchanged. At the ideal values
  that term is the loss of the specification: the reconstruction term is the sum of squared differences divided by the
  element count, the regulariser is the sum of the rows' entropy terms (finite attention entries), and the pairwise
  term is the sum over pairs of rows i < j of the normalised memory of their inner product; the three are combined as
  (sse / n - λ · reg) + cos with the two literals kept as words. The normalised memory is the reference's own term
  mem / max (sqrt (row sums of mem²), eps), kept folded.
-/
import proofs.«122163_j54013508714894_2_alg».proof.Proof.RefSse
import proofs.«122163_j54013508714894_2_alg».proof.Proof.RefReg
import proofs.«122163_j54013508714894_2_alg».proof.Proof.RefCos
import proofs.«122163_j54013508714894_2_alg».proof.Proof.RefRunP

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.ValueIdx

/-- The normalised memory: each row of mem divided by the larger of its Euclidean norm and eps, as the reference
    computes it (row sums of squares from the zero word, square root, maximum with the eps word, spread over the row). -/
def unitOf (mem : FVec Ideal S2000x256 .f32) : FVec Ideal S2000x256 .f32 :=
  Host.divf mem (broadcastInDim S2000x256 ![0, 1] bcast_S2000x1_S2000x256_0_1 (maximumf (Host.sqrt (broadcastInDim S2000x1 ![0] bcast_S2000_S2000x1_0 (Host.reduceAdd (mulf mem mem) (constant S_ .f32 0x00000000#32) reducesTo_S2000x256_S2000_d1 h_S_))) (broadcastInDim S2000x1 ![] bcast_S_S2000x1 (constant S_ .f32 0x322BCC77#32))))

/-- The reference's normalised-memory stage is that term. -/
theorem unitOf_eq (a3 : FVec Ideal S2000x256 .f32) : val_main_v14 (F := Ideal) a3 = unitOf a3 := rfl

/-- The reference's composed result term is the specification's loss of the argument arrays (output, ground truth,
    attention, and the normalised memory), for finite attention entries. -/
theorem ref_loss (a0 a1 : FVec Ideal S32x3x256x256 .f32) (a2 : FVec Ideal S8192x2000 .f32) (a3 : FVec Ideal S2000x256 .f32)
    (h2 : ∀ i, ∃ r : ℝ, a2 i = (r : EReal)) :
    addf (subf (Host.divf (Host.reduceAdd (mulf (subf a1 a0) (subf a1 a0)) (constant S_ .f32 0x00000000#32) reducesTo_S32x3x256x256_S_d0_1_2_3 h_S_) (constant S_ .f32 0x4AC00000#32)) (mulf (constant S_ .f32 0x3951B717#32) (Host.reduceAdd (mulf (Host.exp (subf (subf a2 (broadcastInDim S8192x2000 ![0, 1] bcast_S8192x1_S8192x2000_0_1 (broadcastInDim S8192x1 ![0] bcast_S8192_S8192x1_0 (maximumf (broadcastInDim S8192 ![] bcast_S_S8192 (constant S_ .f32 0xFF800000#32)) (Host.reduce FloatOps.maximumf a2 (constant S_ .f32 0xFF800000#32) reducesTo_S8192x2000_S8192_d1 h_S_))))) (broadcastInDim S8192x2000 ![0, 1] bcast_S8192x1_S8192x2000_0_1 (Host.log (broadcastInDim S8192x1 ![0] bcast_S8192_S8192x1_0 (Host.reduceAdd (Host.exp (subf a2 (broadcastInDim S8192x2000 ![0, 1] bcast_S8192x1_S8192x2000_0_1 (broadcastInDim S8192x1 ![0] bcast_S8192_S8192x1_0 (maximumf (broadcastInDim S8192 ![] bcast_S_S8192 (constant S_ .f32 0xFF800000#32)) (Host.reduce FloatOps.maximumf a2 (constant S_ .f32 0xFF800000#32) reducesTo_S8192x2000_S8192_d1 h_S_)))))) (constant S_ .f32 0x00000000#32) reducesTo_S8192x2000_S8192_d1 h_S_)))))) (subf (subf a2 (broadcastInDim S8192x2000 ![0, 1] bcast_S8192x1_S8192x2000_0_1 (broadcastInDim S8192x1 ![0] bcast_S8192_S8192x1_0 (maximumf (broadcastInDim S8192 ![] bcast_S_S8192 (constant S_ .f32 0xFF800000#32)) (Host.reduce FloatOps.maximumf a2 (constant S_ .f32 0xFF800000#32) reducesTo_S8192x2000_S8192_d1 h_S_))))) (broadcastInDim S8192x2000 ![0, 1] bcast_S8192x1_S8192x2000_0_1 (Host.log (broadcastInDim S8192x1 ![0] bcast_S8192_S8192x1_0 (Host.reduceAdd (Host.exp (subf a2 (broadcastInDim S8192x2000 ![0, 1] bcast_S8192x1_S8192x2000_0_1 (broadcastInDim S8192x1 ![0] bcast_S8192_S8192x1_0 (maximumf (broadcastInDim S8192 ![] bcast_S_S8192 (constant S_ .f32 0xFF800000#32)) (Host.reduce FloatOps.maximumf a2 (constant S_ .f32 0xFF800000#32) reducesTo_S8192x2000_S8192_d1 h_S_)))))) (constant S_ .f32 0x00000000#32) reducesTo_S8192x2000_S8192_d1 h_S_)))))) (constant S_ .f32 0x00000000#32) reducesTo_S8192x2000_S_d0_1 h_S_))) (Host.reduceAdd (select (cmpi .sge (addi (iotaInDim S2000x2000 32 0) (broadcastInDim S2000x2000 ![] bcast_S_S2000x2000 (constantI S_ 32 0#32))) (iotaInDim S2000x2000 32 1)) (broadcastInDim S2000x2000 ![] bcast_S_S2000x2000 (constant S_ .f32 0x00000000#32)) (Host.dotGeneral dot_S2000x256_S256x2000_S2000x2000_1_0_0_1_n_n none (Host.divf a3 (broadcastInDim S2000x256 ![0, 1] bcast_S2000x1_S2000x256_0_1 (maximumf (Host.sqrt (broadcastInDim S2000x1 ![0] bcast_S2000_S2000x1_0 (Host.reduceAdd (mulf a3 a3) (constant S_ .f32 0x00000000#32) reducesTo_S2000x256_S2000_d1 h_S_))) (broadcastInDim S2000x1 ![] bcast_S_S2000x1 (constant S_ .f32 0x322BCC77#32))))) (transpose S256x2000 [1, 0] (Host.divf a3 (broadcastInDim S2000x256 ![0, 1] bcast_S2000x1_S2000x256_0_1 (maximumf (Host.sqrt (broadcastInDim S2000x1 ![0] bcast_S2000_S2000x1_0 (Host.reduceAdd (mulf a3 a3) (constant S_ .f32 0x00000000#32) reducesTo_S2000x256_S2000_d1 h_S_))) (broadcastInDim S2000x1 ![] bcast_S_S2000x1 (constant S_ .f32 0x322BCC77#32))))) transposes_S2000x256_S256x2000_1_0))) (constant S_ .f32 0x00000000#32) reducesTo_S2000x2000_S_d0_1 h_S_)
      = fun _ => Cert.MemAE.loss a0 a1 a2 (unitOf a3) := by
  refine (val_main_v19_eq (F := Ideal) a0 a1 a2 a3).trans ?_
  funext i
  rw [val_main_v19_apply, val_main_v9_apply, val_main_v3_apply, val_main_v8_apply, sse_read, reg_read a2 h2, cos_read,
    val_main_cst_0_apply, val_main_cst_2_apply, unitOf_eq]
  rfl

/-- Every weakly fair execution of the reference terminates with its result at the specification's loss of the argument
    arrays and the arguments unchanged, when the attention entries are finite. -/
theorem ref_run [hReferenceIdeal : Cert.ReferenceIdeal.Facts] (m' : (ℓ : Loc nD τ sig) → Buf (Elt Ideal) ℓ) (ρ' : Dev nD → PrngReg)
    (h2 : ∀ (c : Dev nD) i, ∃ r : ℝ, m' ((c.tc : Thread nD τ).loc main_arg2) i = (r : EReal)) :
    θ_run (defs (F := Ideal)) (onTc (τ := τ) (main (F := Ideal))) ⟨m', fun _ => 0, ρ'⟩ (fun r => ∀ c : Dev nD,
      r.2.mem ((c.tc : Thread nD τ).loc main_v19)
          = (fun _ => Cert.MemAE.loss (m' ((c.tc : Thread nD τ).loc main_arg0)) (m' ((c.tc : Thread nD τ).loc main_arg1)) (m' ((c.tc : Thread nD τ).loc main_arg2)) (unitOf (m' ((c.tc : Thread nD τ).loc main_arg3))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c => ⟨(h c).1.trans (ref_loss _ _ _ _ (h2 c)), (h c).2⟩)
    (Cert.ReferenceIdeal.ValueP.run (F := Ideal) m' ρ')

end Cert.ReferenceIdeal.RefValue

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteAtt.lean ====
/-
  From the certificate's precondition to "every entry of att is a real number".

  The precondition is the conjunction of four tests "all |a| < +inf", one per argument array; the third
  is att's.  At the ideal values |a| < +inf excludes exactly the two infinities, so every entry of att is
  a real number.
-/
import proofs.«122163_j54013508714894_2_alg».proof.Defs
import proofs.«122163_j54013508714894_2_alg».proof.Proof.LibFiniteAll
import Idealize.ShloMosaic.Lib.ReduceAll
import Idealize.ShloMosaic.Lib.ValueIdx

noncomputable section

namespace Cert.MemAE

open Idealize.ShloMosaic Idealize.SL.Sem

/-- Under the precondition every entry of att (the third argument array) is a real number. -/
theorem att_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8192x2000.Idx) :
    ∃ r : ℝ, m ((c.tc : Thread Cert.KernelIdeal.nD Cert.KernelIdeal.τ).loc Cert.KernelIdeal.main_arg2) i = (r : EReal) := by
  have e := congrFun (h c) ValueIdx.ix0
  dsimp only [Cert.Pre_finite_inputs.fn, Cert.Pre_finite_inputs.fn_part1] at e
  obtain ⟨e13, -⟩ := IntOp.andi_eq_one.1 e
  obtain ⟨-, e12⟩ := IntOp.andi_eq_one.1 e13
  exact FiniteAll.all_real _ _ _ _ _ e12 i

end Cert.MemAE

end
-- ==== Proof.lean ====
/-
  Cert.Claim for the memory-autoencoder loss kernel against its jnp reference.

  Both programs compute  (SSE / 6291456 - 0.0002 * REG) + COS  of the four argument arrays (Proof/Spec.lean):
  SSE the sum of squared differences of ground_truth and output, REG the sum over the rows of att of
  sum_k softmax_k * log_softmax_k, COS the sum over pairs i < j of the cosine similarity of the memory's rows.

  * The kernel program is three pallas_calls among stretches of host operations.  Each call keeps a 1x1
    accumulator over its grid (zeroed at the first step of a core's share, the block's partial sum added at
    every step, the accumulator copied to the output at every step and written back at the share's last step).
    Proof/R{0,1,2}*.lean run each body whole in its two control cases and carry the accumulator through the region
    invariant; Proof/Run.lean chains the ten segments of @main and reads every unscoped buffer at the end; the same
    text at the word-level instance (Proof/B*.lean) gives the word-level program's frame.
  * At the ideal instance the accumulators are plain sums (Proof/Payloads*.lean, Proof/R{0,1,2}Value.lean), the blocks
    tile the arrays (Proof/KBlocks.lean, Proof/SumShapes.lean), the zero rows padded to the memory add nothing, and the
    result is the specification (Proof/KValue.lean).
  * The reference's result is the specification too (Proof/RefValue.lean).  The one step that needs the
    precondition is the entropy term: the kernel computes (sum_k e_k s_k) / S - log S per row, the reference
    sum_k exp(s_k - log S) (s_k - log S); they agree because every entry of att is a real number
    (Proof/EntropyAlgebra.lean, Proof/FiniteAtt.lean).
-/
import proofs.«122163_j54013508714894_2_alg».proof.Defs
import proofs.«122163_j54013508714894_2_alg».proof.Proof.Gen.Kernel
import proofs.«122163_j54013508714894_2_alg».proof.Proof.Gen.KernelIdeal
import proofs.«122163_j54013508714894_2_alg».proof.Proof.Gen.ReferenceIdeal
import proofs.«122163_j54013508714894_2_alg».proof.Proof.Gen.Pre_finite_inputs
import proofs.«122163_j54013508714894_2_alg».proof.Proof.RunArgs
import proofs.«122163_j54013508714894_2_alg».proof.Proof.BRunArgs
import proofs.«122163_j54013508714894_2_alg».proof.Proof.KValue
import proofs.«122163_j54013508714894_2_alg».proof.Proof.RefValue
import proofs.«122163_j54013508714894_2_alg».proof.Proof.FiniteAtt
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_p [hKernel : Cert.Kernel.Facts] [hPre : Cert.Pre_finite_inputs.Facts] : Cert.frame_Kernel :=
  fun m ρ _ => Cert.Kernel.Hand.frame_all (F := Bits) m ρ

/-- So does the idealized program. -/
theorem frame_pi [hKernelIdeal : Cert.KernelIdeal.Facts] [hPre : Cert.Pre_finite_inputs.Facts] : Cert.frame_KernelIdeal :=
  fun m ρ _ => Cert.KernelIdeal.Hand.frame_all (F := Ideal) m ρ

/-- The reference's frame is its run with the result dropped. -/
theorem frame_ri [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end at the specification's loss of the argument arrays. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' hpre hagree
  refine ⟨_, (θ_run Cert.KernelIdeal.defs _ _).mono (fun _ h c =>
      ⟨(h c _ (Cert.KernelIdeal.Hand.mem_uc Cert.KernelIdeal.main_v17 (by decide))).trans (Cert.MemAE.kernel_value m c),
       (h c _ (Cert.KernelIdeal.Hand.mem_uc Cert.KernelIdeal.main_arg0 (by decide))).trans (Cert.KernelIdeal.Hand.W10_main_arg0 m c),
       (h c _ (Cert.KernelIdeal.Hand.mem_uc Cert.KernelIdeal.main_arg1 (by decide))).trans (Cert.KernelIdeal.Hand.W10_main_arg1 m c),
       (h c _ (Cert.KernelIdeal.Hand.mem_uc Cert.KernelIdeal.main_arg2 (by decide))).trans (Cert.KernelIdeal.Hand.W10_main_arg2 m c),
       (h c _ (Cert.KernelIdeal.Hand.mem_uc Cert.KernelIdeal.main_arg3 (by decide))).trans (Cert.KernelIdeal.Hand.W10_main_arg3 m c)⟩)
    (Cert.KernelIdeal.Hand.run_all (F := Ideal) m ρ), ?_⟩
  refine (θ_run Cert.ReferenceIdeal.defs _ _).mono (fun _ h c => ⟨(h c).1.trans ?_, (h c).2⟩)
    (Cert.ReferenceIdeal.RefValue.ref_run m' ρ' fun c i => by rw [(hagree c).2.2.1]; exact Cert.MemAE.att_real m hpre c i)
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
